-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v77)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v77) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v84) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_arg6 : FVec F S128 .f32) (main_arg7 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S100000x128 .f32) (main_arg1 : IVec S2x1600000 32) (main_arg2 : FVec F S128x128 .f32) (main_arg3 : FVec F S128x128 .f32) (main_arg4 : FVec F S128x128 .f32) (main_arg5 : FVec F S128 .f32) (main_arg6 : FVec F S128 .f32) (main_arg7 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S5000x128 : Shape := ⟨2, ![5000, 128]⟩
abbrev S1700000x128 : Shape := ⟨2, ![1700000, 128]⟩
abbrev S1x128 : Shape := ⟨2, ![1, 128]⟩
abbrev S5000 : Shape := ⟨1, ![5000]⟩
abbrev S5000x1 : Shape := ⟨2, ![5000, 1]⟩

abbrev nBuf : Space → Nat
  | .hbm => 105
  | .vmem => 30
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S100000, .i32⟩
  | .hbm, ⟨9, _⟩ => ⟨S1x1600000, .i32⟩
  | .hbm, ⟨10, _⟩ => ⟨S1600000, .i32⟩
  | .hbm, ⟨11, _⟩ => ⟨S1700000, .i32⟩
  | .hbm, ⟨12, _⟩ => ⟨S1x1600000, .i32⟩
  | .hbm, ⟨13, _⟩ => ⟨S1600000, .i32⟩
  | .hbm, ⟨14, _⟩ => ⟨S1700000, .i32⟩
  | .hbm, ⟨15, _⟩ => ⟨S_, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S1700000, .i32⟩
  | .hbm, ⟨31, _⟩ => ⟨S1700000, .i1⟩
  | .hbm, ⟨32, _⟩ => ⟨S_, .i32⟩
  | .hbm, ⟨33, _⟩ => ⟨S1700000, .i32⟩
  | .hbm, ⟨34, _⟩ => ⟨S1700000, .i32⟩
  | .hbm, ⟨35, _⟩ => ⟨S1700000, .i32⟩
  | .hbm, ⟨36, _⟩ => ⟨S1700000x1, .i32⟩
  | .hbm, ⟨37, _⟩ => ⟨S1700000, .f32⟩
  | .hbm, ⟨38, _⟩ => ⟨S_, .i32⟩
  | .hbm, ⟨39, _⟩ => ⟨S1700000, .i32⟩
  | .hbm, ⟨40, _⟩ => ⟨S1700000, .i1⟩
  | .hbm, ⟨41, _⟩ => ⟨S_, .i32⟩
  | .hbm, ⟨42, _⟩ => ⟨S1700000, .i32⟩
  | .hbm, ⟨43, _⟩ => ⟨S1700000, .i32⟩
  | .hbm, ⟨44, _⟩ => ⟨S1700000, .i32⟩
  | .hbm, ⟨45, _⟩ => ⟨S1700000x1, .i32⟩
  | .hbm, ⟨46, _⟩ => ⟨S1700000, .f32⟩
  | .hbm, ⟨47, _⟩ => ⟨S1700000, .f32⟩
  | .hbm, ⟨48, _⟩ => ⟨S100000x128, .f32⟩
  | .hbm, ⟨49, _⟩ => ⟨S_, .i32⟩
  | .hbm, ⟨50, _⟩ => ⟨S1700000, .i32⟩
  | .hbm, ⟨51, _⟩ => ⟨S1700000, .i1⟩
  | .hbm, ⟨52, _⟩ => ⟨S_, .i32⟩
  | .hbm, ⟨53, _⟩ => ⟨S1700000, .i32⟩
  | .hbm, ⟨54, _⟩ => ⟨S1700000, .i32⟩
  | .hbm, ⟨55, _⟩ => ⟨S1700000, .i32⟩
  | .hbm, ⟨56, _⟩ => ⟨S1700000x1, .i32⟩
  | .hbm, ⟨57, _⟩ => ⟨S1700000x128, .f32⟩
  | .hbm, ⟨58, _⟩ => ⟨S1700000x1, .f32⟩
  | .hbm, ⟨59, _⟩ => ⟨S1700000x128, .f32⟩
  | .hbm, ⟨60, _⟩ => ⟨S1700000x128, .f32⟩
  | .hbm, ⟨61, _⟩ => ⟨S_, .f32⟩
  | .hbm, ⟨62, _⟩ => ⟨S100000x128, .f32⟩
  | .hbm, ⟨63, _⟩ => ⟨S1700000x1, .i32⟩
  | .hbm, ⟨64, _⟩ => ⟨S100000x128, .f32⟩
  | .hbm, ⟨65, _⟩ => ⟨S1x128, .f32⟩
  | .hbm, ⟨66, _⟩ => ⟨S100000x128, .f32⟩
  | .hbm, ⟨67, _⟩ => ⟨S100000x128, .f32⟩
  | .hbm, ⟨68, _⟩ => ⟨S_, .i32⟩
  | .hbm, ⟨69, _⟩ => ⟨S1700000, .i32⟩
  | .hbm, ⟨70, _⟩ => ⟨S1700000, .i1⟩
  | .hbm, ⟨71, _⟩ => ⟨S_, .i32⟩
  | .hbm, ⟨72, _⟩ => ⟨S1700000, .i32⟩
  | .hbm, ⟨73, _⟩ => ⟨S1700000, .i32⟩
  | .hbm, ⟨74, _⟩ => ⟨S1700000, .i32⟩
  | .hbm, ⟨75, _⟩ => ⟨S1700000x1, .i32⟩
  | .hbm, ⟨76, _⟩ => ⟨S1700000x128, .f32⟩
  | .hbm, ⟨77, _⟩ => ⟨S1700000x1, .f32⟩
  | .hbm, ⟨78, _⟩ => ⟨S1700000x128, .f32⟩
  | .hbm, ⟨79, _⟩ => ⟨S1700000x128, .f32⟩
  | .hbm, ⟨80, _⟩ => ⟨S_, .f32⟩
  | .hbm, ⟨81, _⟩ => ⟨S100000x128, .f32⟩
  | .hbm, ⟨82, _⟩ => ⟨S1700000x1, .i32⟩
  | .hbm, ⟨83, _⟩ => ⟨S100000x128, .f32⟩
  | .hbm, ⟨84, _⟩ => ⟨S1x128, .f32⟩
  | .hbm, ⟨85, _⟩ => ⟨S100000x128, .f32⟩
  | .hbm, ⟨86, _⟩ => ⟨S100000x128, .f32⟩
  | .hbm, ⟨87, _⟩ => ⟨S_, .i32⟩
  | .hbm, ⟨88, _⟩ => ⟨S1700000, .i32⟩
  | .hbm, ⟨89, _⟩ => ⟨S1700000, .i1⟩
  | .hbm, ⟨90, _⟩ => ⟨S_, .i32⟩
  | .hbm, ⟨91, _⟩ => ⟨S1700000, .i32⟩
  | .hbm, ⟨92, _⟩ => ⟨S1700000, .i32⟩
  | .hbm, ⟨93, _⟩ => ⟨S1700000, .i32⟩
  | .hbm, ⟨94, _⟩ => ⟨S1700000x1, .i32⟩
  | .hbm, ⟨95, _⟩ => ⟨S1700000x128, .f32⟩
  | .hbm, ⟨96, _⟩ => ⟨S1700000x1, .f32⟩
  | .hbm, ⟨97, _⟩ => ⟨S1700000x128, .f32⟩
  | .hbm, ⟨98, _⟩ => ⟨S1700000x128, .f32⟩
  | .hbm, ⟨99, _⟩ => ⟨S_, .f32⟩
  | .hbm, ⟨100, _⟩ => ⟨S100000x128, .f32⟩
  | .hbm, ⟨101, _⟩ => ⟨S1700000x1, .i32⟩
  | .hbm, ⟨102, _⟩ => ⟨S100000x128, .f32⟩
  | .hbm, ⟨103, _⟩ => ⟨S1x128, .f32⟩
  | .hbm, ⟨104, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S1x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S128x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S5000x128, .f32⟩
  | .local _ .vmem, ⟨27, _⟩ => ⟨S1x128, .f32⟩
  | .local _ .vmem, ⟨28, _⟩ => ⟨S5000x128, .f32⟩
  | .local _ .vmem, ⟨29, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_c_9 : Ref sig .tc := ⟨.hbm, 68, rfl⟩
abbrev main_v47 : Ref sig .tc := ⟨.hbm, 69, rfl⟩
abbrev main_v48 : Ref sig .tc := ⟨.hbm, 70, rfl⟩
abbrev main_c_10 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_cst_11 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_c_12 : Ref sig .tc := ⟨.hbm, 87, rfl⟩
abbrev main_v63 : Ref sig .tc := ⟨.hbm, 88, rfl⟩
abbrev main_v64 : Ref sig .tc := ⟨.hbm, 89, rfl⟩
abbrev main_c_13 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_cst_14 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg2_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem2_0 : DmaSem sig := 28
abbrev cc5_sem2_1 : DmaSem sig := 29

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S5000x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  reduces_S5000x128_S5000 : S5000x128.Reduces [1] S5000
  shapeCasts_S5000_S5000x1 : S5000.ShapeCasts S5000x1
  broadcasts_S5000x1_S5000x128 : S5000x1.Broadcasts S5000x128
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x128_S128x128_S5000x128_1_0_0_1_n_n_wf : DotDims.WF S5000x128 S128x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S100000x128.size a
  hwx2_2 : ∀ i : grid2.Coords, EltTy.bits .f32 = 32 ∨ (Rect.block (s := S100000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S100000x128.size a
  hwx3_2 : ∀ i : grid3.Coords, EltTy.bits .f32 = 32 ∨ (Rect.block (s := S100000x128) S5000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x128.size a ≤ S100000x128.size a
  hwx4_2 : ∀ i : grid4.Coords, EltTy.bits .f32 = 32 ∨ (Rect.block (s := S100000x128) S5000x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S100000x128.size a
  hwx5_0 : ∀ i : grid5.Coords, EltTy.bits .f32 = 32 ∨ (Rect.block (s := S100000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x128.size a ≤ S100000x128.size a
  hwx5_2 : ∀ i : grid5.Coords, EltTy.bits .f32 = 32 ∨ (Rect.block (s := S100000x128) S5000x128.size (cc5_transform_2 i) (hinb5_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg3) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v59) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v60) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v61) S5000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v61) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg4) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v62) S5000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v75) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v76) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v77) S5000x128.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x1 : Shape := ⟨2, ![100000, 1]⟩

abbrev nBuf : Space → Nat
  | .hbm => 132
  | .vmem => 0
  | .smem => 0
  | _ => 0

abbrev hbmTy0_0 (i : Nat) : BufTy := match i % 128 with
  | 0 => ⟨S100000x128, .f32⟩
  | 1 => ⟨S2x1600000, .i32⟩
  | 2 => ⟨S128x128, .f32⟩
  | 3 => ⟨S128x128, .f32⟩
  | 4 => ⟨S128x128, .f32⟩
  | 5 => ⟨S128, .f32⟩
  | 6 => ⟨S128, .f32⟩
  | 7 => ⟨S128, .f32⟩
  | 8 => ⟨S100000, .i32⟩
  | 9 => ⟨S1x1600000, .i32⟩
  | 10 => ⟨S1600000, .i32⟩
  | 11 => ⟨S1700000, .i32⟩
  | 12 => ⟨S1x1600000, .i32⟩
  | 13 => ⟨S1600000, .i32⟩
  | 14 => ⟨S1700000, .i32⟩
  | 15 => ⟨S_, .f32⟩
  | 16 => ⟨S1700000, .f32⟩
  | 17 => ⟨S_, .f32⟩
  | 18 => ⟨S100000, .f32⟩
  | 19 => ⟨S1700000x1, .i32⟩
  | 20 => ⟨S100000, .f32⟩
  | 21 => ⟨S_, .f32⟩
  | 22 => ⟨S100000, .f32⟩
  | 23 => ⟨S100000, .i1⟩
  | 24 => ⟨S100000, .f32⟩
  | 25 => ⟨S_, .f32⟩
  | 26 => ⟨S_, .f32⟩
  | 27 => ⟨S100000, .f32⟩
  | 28 => ⟨S100000, .f32⟩
  | 29 => ⟨S_, .i32⟩
  | 30 => ⟨S1700000, .i32⟩
  | 31 => ⟨S1700000, .i1⟩
  | 32 => ⟨S_, .i32⟩
  | 33 => ⟨S1700000, .i32⟩
  | 34 => ⟨S1700000, .i32⟩
  | 35 => ⟨S1700000, .i32⟩
  | 36 => ⟨S1700000x1, .i32⟩
  | 37 => ⟨S1700000, .f32⟩
  | 38 => ⟨S_, .i32⟩
  | 39 => ⟨S1700000, .i32⟩
  | 40 => ⟨S1700000, .i1⟩
  | 41 => ⟨S_, .i32⟩
  | 42 => ⟨S1700000, .i32⟩
  | 43 => ⟨S1700000, .i32⟩
  | 44 => ⟨S1700000, .i32⟩
  | 45 => ⟨S1700000x1, .i32⟩
  | 46 => ⟨S1700000, .f32⟩
  | 47 => ⟨S1700000, .f32⟩
  | 48 => ⟨S100000x128, .f32⟩
  | 49 => ⟨S_, .i32⟩
  | 50 => ⟨S1700000, .i32⟩
  | 51 => ⟨S1700000, .i1⟩
  | 52 => ⟨S_, .i32⟩
  | 53 => ⟨S1700000, .i32⟩
  | 54 => ⟨S1700000, .i32⟩
  | 55 => ⟨S1700000, .i32⟩
  | 56 => ⟨S1700000x1, .i32⟩
  | 57 => ⟨S1700000x128, .f32⟩
  | 58 => ⟨S1700000x1, .f32⟩
  | 59 => ⟨S1700000x128, .f32⟩
  | 60 => ⟨S1700000x128, .f32⟩
  | 61 => ⟨S_, .f32⟩
  | 62 => ⟨S100000x128, .f32⟩
  | 63 => ⟨S1700000x1, .i32⟩
  | 64 => ⟨S100000x128, .f32⟩
  | 65 => ⟨S1x128, .f32⟩
  | 66 => ⟨S100000x128, .f32⟩
  | 67 => ⟨S100000x128, .f32⟩
  | 68 => ⟨S_, .f32⟩
  | 69 => ⟨S100000x128, .f32⟩
  | 70 => ⟨S100000x128, .f32⟩
  | 71 => ⟨S100000x128, .f32⟩
  | 72 => ⟨S_, .i32⟩
  | 73 => ⟨S1700000, .i32⟩
  | 74 => ⟨S1700000, .i1⟩
  | 75 => ⟨S_, .i32⟩
  | 76 => ⟨S1700000, .i32⟩
  | 77 => ⟨S1700000, .i32⟩
  | 78 => ⟨S1700000, .i32⟩
  | 79 => ⟨S1700000x1, .i32⟩
  | 80 => ⟨S1700000x128, .f32⟩
  | 81 => ⟨S1700000x1, .f32⟩
  | 82 => ⟨S1700000x128, .f32⟩
  | 83 => ⟨S1700000x128, .f32⟩
  | 84 => ⟨S_, .f32⟩
  | 85 => ⟨S100000x128, .f32⟩
  | 86 => ⟨S1700000x1, .i32⟩
  | 87 => ⟨S100000x128, .f32⟩
  | 88 => ⟨S1x128, .f32⟩
  | 89 => ⟨S100000x128, .f32⟩
  | 90 => ⟨S100000x128, .f32⟩
  | 91 => ⟨S_, .f32⟩
  | 92 => ⟨S100000x128, .f32⟩
  | 93 => ⟨S100000x128, .f32⟩
  | 94 => ⟨S100000x128, .f32⟩
  | 95 => ⟨S_, .i32⟩
  | 96 => ⟨S1700000, .i32⟩
  | 97 => ⟨S1700000, .i1⟩
  | 98 => ⟨S_, .i32⟩
  | 99 => ⟨S1700000, .i32⟩
  | 100 => ⟨S1700000, .i32⟩
  | 101 => ⟨S1700000, .i32⟩
  | 102 => ⟨S1700000x1, .i32⟩
  | 103 => ⟨S1700000x128, .f32⟩
  | 104 => ⟨S1700000x1, .f32⟩
  | 105 => ⟨S1700000x128, .f32⟩
  | 106 => ⟨S1700000x128, .f32⟩
  | 107 => ⟨S_, .f32⟩
  | 108 => ⟨S100000x128, .f32⟩
  | 109 => ⟨S1700000x1, .i32⟩
  | 110 => ⟨S100000x128, .f32⟩
  | 111 => ⟨S1x128, .f32⟩
  | 112 => ⟨S100000x128, .f32⟩
  | 113 => ⟨S100000x128, .f32⟩
  | 114 => ⟨S_, .f32⟩
  | 115 => ⟨S100000x128, .f32⟩
  | 116 => ⟨S100000x128, .f32⟩
  | 117 => ⟨S_, .f32⟩
  | 118 => ⟨S100000, .f32⟩
  | 119 => ⟨S_, .f32⟩
  | 120 => ⟨S100000, .f32⟩
  | 121 => ⟨S100000, .f32⟩
  | 122 => ⟨S100000x1, .f32⟩
  | 123 => ⟨S100000x128, .f32⟩
  | 124 => ⟨S100000x128, .f32⟩
  | 125 => ⟨S100000x128, .f32⟩
  | 126 => ⟨S_, .f32⟩
  | 127 => ⟨S100000, .f32⟩
  | _ => ⟨S100000x128, .f32⟩

abbrev hbmTy0_1 (i : Nat) : BufTy := match i % 128 with
  | 0 => ⟨S100000x1, .f32⟩
  | 1 => ⟨S100000x1, .f32⟩
  | 2 => ⟨S100000x128, .f32⟩
  | 3 => ⟨S100000x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_call1_cst : Ref sig .tc := ⟨.hbm, 68, rfl⟩
abbrev main_call1_v0 : Ref sig .tc := ⟨.hbm, 69, rfl⟩
abbrev main_v47 : Ref sig .tc := ⟨.hbm, 70, rfl⟩
abbrev main_v48 : Ref sig .tc := ⟨.hbm, 71, rfl⟩
abbrev main_c_9 : Ref sig .tc := ⟨.hbm, 72, rfl⟩
abbrev main_v49 : Ref sig .tc := ⟨.hbm, 73, rfl⟩
abbrev main_v50 : Ref sig .tc := ⟨.hbm, 74, rfl⟩
abbrev main_c_10 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst_11 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_call2_cst : Ref sig .tc := ⟨.hbm, 91, rfl⟩
abbrev main_call2_v0 : Ref sig .tc := ⟨.hbm, 92, rfl⟩
abbrev main_v65 : Ref sig .tc := ⟨.hbm, 93, rfl⟩
abbrev main_v66 : Ref sig .tc := ⟨.hbm, 94, rfl⟩
abbrev main_c_12 : Ref sig .tc := ⟨.hbm, 95, rfl⟩
abbrev main_v67 : Ref sig .tc := ⟨.hbm, 96, rfl⟩
abbrev main_v68 : Ref sig .tc := ⟨.hbm, 97, rfl⟩
abbrev main_c_13 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_cst_14 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_call3_cst : Ref sig .tc := ⟨.hbm, 114, rfl⟩
abbrev main_call3_v0 : Ref sig .tc := ⟨.hbm, 115, rfl⟩
abbrev main_v83 : Ref sig .tc := ⟨.hbm, 116, rfl⟩
abbrev main_call4_cst : Ref sig .tc := ⟨.hbm, 117, rfl⟩
abbrev main_call4_v0 : Ref sig .tc := ⟨.hbm, 118, rfl⟩
abbrev main_call4_cst_0 : Ref sig .tc := ⟨.hbm, 119, rfl⟩
abbrev main_call4_v1 : Ref sig .tc := ⟨.hbm, 120, rfl⟩
abbrev main_call4_v2 : Ref sig .tc := ⟨.hbm, 121, rfl⟩
abbrev main_call4_v3 : Ref sig .tc := ⟨.hbm, 122, rfl⟩
abbrev main_call4_v4 : Ref sig .tc := ⟨.hbm, 123, rfl⟩
abbrev main_call4_v5 : Ref sig .tc := ⟨.hbm, 124, rfl⟩
abbrev main_call4_v6 : Ref sig .tc := ⟨.hbm, 125, rfl⟩
abbrev main_call4_cst_1 : Ref sig .tc := ⟨.hbm, 126, rfl⟩
abbrev main_call4_v7 : Ref sig .tc := ⟨.hbm, 127, rfl⟩
abbrev main_call4_v8 : Ref sig .tc := ⟨.hbm, 128, rfl⟩
abbrev main_call4_v9 : Ref sig .tc := ⟨.hbm, 129, rfl⟩
abbrev main_call4_v10 : Ref sig .tc := ⟨.hbm, 130, rfl⟩
abbrev main_v84 : Ref sig .tc := ⟨.hbm, 131, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S100000_d1 : S100000x128.ReducesTo [1] S100000
  h_S_ : 0 < S_.numel
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf

class Facts : Prop extends Facts₀ where

variable [Facts]
-- ==== Proof.KernelRun.lean ====
/-
  The idealized kernel's run with its result named.

  Every weakly fair execution of the program terminates, nothing faulting, with the argument arrays as launched and
  the result array at the last boundary's contents: the contents folded through the program's twelve segments — the
  host stretches' operations and, for each device region, the arrays its write-backs leave.
-/
import proofs.«121035_j62242666053924_1_alg».proof.Proof.Gen.KernelIdeal.Frame

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the launch over the program's segments, the last thread state read against the final state; the result
    array is among the buffers that state holds, at the last boundary's contents. -/
theorem run_main : θ_run defs (onTc (τ := τ) (main (F := F))) ⟨m, fun _ => 0, ρ⟩ (fun r => ∀ c : Dev nD,
      r.2.mem ((c.tc : Thread nD τ).loc main_v77) = W12 m ρ c (Proc.devRef .tc main_v77)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v77 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c)⟩)

end Cert.KernelIdeal.Run

end
-- ==== Proof.Shared.lean ====
/-
  One round of neighbourhood aggregation, as ONE function of the node features, the edge lists and the edge weights.

  For node features `h : [100000, 128]`, source and destination lists `src dst : [1700000]` and weights
  `norm : [1700000]`, the round takes row `src e` of `h` for every edge `e` (a negative source first wrapped by adding
  the node count), scales it by `norm e`, and adds it into row `dst e` of a zero array.  Both programs spell the round
  with the same host operations, so it is carried as this one function and never opened.
-/
import proofs.«121035_j62242666053924_1_alg».proof.Proof.Gen.ReferenceIdeal

noncomputable section

namespace Cert.Shared

open Idealize.ShloMosaic Cert.ReferenceIdeal Cert.ReferenceIdeal.Gen

variable {F : FTy → Type} [FloatOps F]

/-- The source list as a column of row numbers: a negative entry has the node count added first. -/
def wrapRows (src : (⟨S1700000, .i32⟩ : BufTy).Contents (Elt F)) : (⟨S1700000x1, .i32⟩ : BufTy).Contents (Elt F) :=
  broadcastInDim S1700000x1 ![0] bcast_S1700000_S1700000x1_0
    (select (cmpi .slt src (broadcastInDim S1700000 ![] bcast_S_S1700000 (constantI S_ 32 0#32)))
      (addi src (broadcastInDim S1700000 ![] bcast_S_S1700000 (constantI S_ 32 100000#32))) src)

/-- One round: gather the source rows, weight them, scatter-add them at the destination rows of a zero array. -/
def aggregate (h : (⟨S100000x128, .f32⟩ : BufTy).Contents (Elt F)) (src dst : (⟨S1700000, .i32⟩ : BufTy).Contents (Elt F))
    (norm : (⟨S1700000, .f32⟩ : BufTy).Contents (Elt F)) : (⟨S100000x128, .f32⟩ : BufTy).Contents (Elt F) :=
  Host.scatterAdd scatter_S100000x128_S1700000x1_S1700000x128_1_0_0_1
    (broadcastInDim S100000x128 ![] bcast_S_S100000x128 (constant S_ .f32 0x00000000#32))
    (broadcastInDim S1700000x1 ![0] bcast_S1700000_S1700000x1_0 dst)
    (mulf (Host.gather gather_S100000x128_S1700000x1_S1700000x128_1_0_n_n_0_1_1128 h (wrapRows (F := F) src))
      (broadcastInDim S1700000x128 ![0, 1] bcast_S1700000x1_S1700000x128_0_1
        (broadcastInDim S1700000x1 ![0] bcast_S1700000_S1700000x1_0 norm)))

end Cert.Shared

end
-- ==== Proof.LibHostKept.lean ====
/-
  A buffer that no operation of a stretch of host lines writes keeps its contents.

  For a LITERAL list `ops` of host operations (the builders `nullary`, `unary`, `binary`, `ternary`, `quaternary`,
  `reshape`, and the outlined functions' typed forms of them) and a reference `b` that none of them writes,
  `after ops v b = v b` for any contents `v`.  The tactic `host_kept ops` closes such a goal: it walks the list once,
  reads each operation's written buffer, and decides the reference different from it.  Useful wherever a value is
  carried across a stretch that neither reads nor writes it — a program of several device regions among host lines,
  or a long host program read stretch by stretch.
-/
import Idealize.ShloMosaic.Lib.StableHlo.Run

namespace Cert.Kept

/-- Closes `after ops v b = v b` for a literal list `ops` (given by name) none of whose operations writes `b`. -/
macro "host_kept" l:ident : tactic => `(tactic| (
  refine Idealize.ShloMosaic.StableHlo.after_of_forall_not_mem _ _ (List.forall_iff_forall_mem.mp ?_)
  simp only [$l:ident, List.Forall, Idealize.ShloMosaic.StableHlo.nullary_writes, Idealize.ShloMosaic.StableHlo.unary_writes,
    Idealize.ShloMosaic.StableHlo.binary_writes, Idealize.ShloMosaic.StableHlo.ternary_writes,
    Idealize.ShloMosaic.StableHlo.quaternary_writes, Idealize.ShloMosaic.StableHlo.reshape_writes, Finset.mem_singleton]
  repeat' apply And.intro
  all_goals exact Idealize.ShloMosaic.StableHlo.devRef_ne_of_ne (by decide)))

end Cert.Kept
-- ==== Proof.HostChain.lean ====
/-
  The buffer contents at every boundary of the program's run, at the few buffers the next step reads.

  The run alternates stretches of host lines with six device regions.  Three things are carried along it.  The two
  edge lists and the edge weights are built once, before the first region, and read again by the aggregation round in
  front of each rectifier region: no later host line writes them and no region has them among its arrays, so at every
  later boundary they are what they were, and what they were is, stage by stage, what the other program computes from
  the same edge array.  The weight and bias arguments are never written at all.  And each stretch of host lines in
  front of a rectifier region computes one aggregation round of the previous region's output, and lays that layer's
  bias vector as a one-row matrix; each region's output array, at its exit, is what its write-backs leave.
-/
import proofs.«121035_j62242666053924_1_alg».proof.Proof.Gen.KernelIdeal.Frame
import proofs.«121035_j62242666053924_1_alg».proof.Proof.RefRead
import proofs.«121035_j62242666053924_1_alg».proof.Proof.Shared
import proofs.«121035_j62242666053924_1_alg».proof.Proof.LibHostKept
import Idealize.ShloMosaic.PureOps.Ideal

set_option maxRecDepth 16384

noncomputable section

namespace Cert.KernelIdeal.Chain

open Idealize.ShloMosaic Idealize.ShloMosaic.TcCoe Idealize.SL.Sem
open Cert.KernelIdeal Cert.KernelIdeal.Gen

variable (m : (ℓ : Loc nD τ sig) → Buf (Elt Ideal) ℓ) (ρ : Dev nD → PrngReg) (c : Dev nD)

set_option quotPrecheck false in
/-- The source list of the edges: the first row of the edge array, then one self-edge per node. -/
local notation "SRC" => Cert.ReferenceIdeal.ReadP.val_main_v3 (F := Ideal) (m ((c : Thread nD τ).loc main_arg1))
set_option quotPrecheck false in
/-- The destination list of the edges: the second row of the edge array, then one self-edge per node. -/
local notation "DST" => Cert.ReferenceIdeal.ReadP.val_main_v6 (F := Ideal) (m ((c : Thread nD τ).loc main_arg1))
set_option quotPrecheck false in
/-- The edge weights: the product of the two end nodes' inverse square-root degrees. -/
local notation "NRM" => Cert.ReferenceIdeal.ReadP.val_main_v29 (F := Ideal) (m ((c : Thread nD τ).loc main_arg1))

/-! ## Before the first region: the edge lists and the edge weights, three stretches of host lines deep

The first stretch builds the two edge lists and the degree data, the second (an outlined selection) the inverse
square-root degrees with zero where a node has no edge, the third the edge weights.  Each stretch's result is read
against the matching stage of the other program, which spells the same operations in the same order. -/

/-- After the first stretch: the source list. -/
theorem W1_src : W1 (F := Ideal) m ρ c (Proc.devRef .tc main_v3) = SRC := by
  show StableHlo.after hostOps0 (W0 m ρ c) (Proc.devRef .tc main_v3) = _
  after_results_simp
  rfl
/-- After the first stretch: the destination list. -/
theorem W1_dst : W1 (F := Ideal) m ρ c (Proc.devRef .tc main_v6) = DST := by
  show StableHlo.after hostOps0 (W0 m ρ c) (Proc.devRef .tc main_v6) = _
  after_results_simp
  rfl
/-- After the first stretch: which nodes have positive degree. -/
theorem W1_pos : W1 (F := Ideal) m ρ c (Proc.devRef .tc main_v12)
    = Cert.ReferenceIdeal.ReadP.val_main_v12 (F := Ideal) (m ((c : Thread nD τ).loc main_arg1)) := by
  show StableHlo.after hostOps0 (W0 m ρ c) (Proc.devRef .tc main_v12) = _
  after_results_simp
  rfl
/-- After the first stretch: the inverse square roots of the degrees. -/
theorem W1_rsqrt : W1 (F := Ideal) m ρ c (Proc.devRef .tc main_v13)
    = Cert.ReferenceIdeal.ReadP.val_main_v13 (F := Ideal) (m ((c : Thread nD τ).loc main_arg1)) := by
  show StableHlo.after hostOps0 (W0 m ρ c) (Proc.devRef .tc main_v13) = _
  after_results_simp
  rfl
/-- After the first stretch: the zero the selection falls back to. -/
theorem W1_zero : W1 (F := Ideal) m ρ c (Proc.devRef .tc main_cst_2)
    = Cert.ReferenceIdeal.ReadP.val_main_cst_2 (F := Ideal) := by
  show StableHlo.after hostOps0 (W0 m ρ c) (Proc.devRef .tc main_cst_2) = _
  after_results_simp
  rfl

/-- After the second stretch the two lists are as they were. -/
theorem W2_src : W2 (F := Ideal) m ρ c (Proc.devRef .tc main_v3) = SRC :=
  (show StableHlo.after hostOps0_1 (W1 m ρ c) (Proc.devRef .tc main_v3) = W1 m ρ c (Proc.devRef .tc main_v3) by host_kept hostOps0_1).trans (W1_src m ρ c)
theorem W2_dst : W2 (F := Ideal) m ρ c (Proc.devRef .tc main_v6) = DST :=
  (show StableHlo.after hostOps0_1 (W1 m ρ c) (Proc.devRef .tc main_v6) = W1 m ρ c (Proc.devRef .tc main_v6) by host_kept hostOps0_1).trans (W1_dst m ρ c)
/-- The outlined selection over any buffer contents `v`: where the flag `p` holds it takes `a`, elsewhere the scalar
    `z` spread over the nodes.  The three operands are named so that nothing larger than the selection itself is
    compared. -/
theorem where_after (v : Valuation τ sig (Elt Ideal))
    (p : (⟨S100000, .i1⟩ : BufTy).Contents (Elt Ideal)) (a : (⟨S100000, .f32⟩ : BufTy).Contents (Elt Ideal))
    (z : (⟨S_, .f32⟩ : BufTy).Contents (Elt Ideal))
    (hp : v (Proc.devRef .tc main_v12) = p) (ha : v (Proc.devRef .tc main_v13) = a)
    (hz : v (Proc.devRef .tc main_cst_2) = z) :
    StableHlo.after (hostOps0_1 (F := Ideal)) v (Proc.devRef .tc main_v14)
      = select p a (broadcastInDim S100000 ![] bcast_S_S100000 (id z)) := by
  subst hp ha hz
  after_results_simp
  rfl

/-- After the second stretch: the inverse square-root degrees, zero where the degree is not positive. -/
theorem W2_inv : W2 (F := Ideal) m ρ c (Proc.devRef .tc main_v14)
    = Cert.ReferenceIdeal.ReadP.val_main_v14 (F := Ideal) (m ((c : Thread nD τ).loc main_arg1)) :=
  (where_after (W1 m ρ c) _ _ _ (W1_pos m ρ c) (W1_rsqrt m ρ c) (W1_zero m ρ c)).trans rfl

/-- At the first region's entry the two lists are as they were … -/
theorem W3_src : W3 (F := Ideal) m ρ c (Proc.devRef .tc main_v3) = SRC :=
  (show StableHlo.after hostOps0_2 (W2 m ρ c) (Proc.devRef .tc main_v3) = W2 m ρ c (Proc.devRef .tc main_v3) by host_kept hostOps0_2).trans (W2_src m ρ c)
theorem W3_dst : W3 (F := Ideal) m ρ c (Proc.devRef .tc main_v6) = DST :=
  (show StableHlo.after hostOps0_2 (W2 m ρ c) (Proc.devRef .tc main_v6) = W2 m ρ c (Proc.devRef .tc main_v6) by host_kept hostOps0_2).trans (W2_dst m ρ c)
/-- The third stretch over any buffer contents `v` holding the other program's stages at the two lists and at the
    inverse square-root degrees: its result is that program's edge weights. -/
theorem weights_val (v : Valuation τ sig (Elt Ideal)) (x1 : (⟨Cert.ReferenceIdeal.S2x1600000, .i32⟩ : BufTy).Contents (Elt Ideal))
    (h14 : v (Proc.devRef .tc main_v14) = Cert.ReferenceIdeal.ReadP.val_main_v14 (F := Ideal) x1)
    (h3 : v (Proc.devRef .tc main_v3) = Cert.ReferenceIdeal.ReadP.val_main_v3 (F := Ideal) x1)
    (h6 : v (Proc.devRef .tc main_v6) = Cert.ReferenceIdeal.ReadP.val_main_v6 (F := Ideal) x1) :
    StableHlo.after (hostOps0_2 (F := Ideal)) v (Proc.devRef .tc main_v29) = Cert.ReferenceIdeal.ReadP.val_main_v29 (F := Ideal) x1 := by
  after_results_simp
  rw [h14, h3, h6]
  rfl

/-- … and the third stretch has built the edge weights. -/
theorem W3_nrm : W3 (F := Ideal) m ρ c (Proc.devRef .tc main_v29) = NRM :=
  weights_val (W2 m ρ c) _ (W2_inv m ρ c) (W2_src m ρ c) (W2_dst m ρ c)

/-! ### The arguments the later steps read: no host line writes an argument -/
theorem W3_arg0 : W3 (F := Ideal) m ρ c (Proc.devRef .tc main_arg0) = m ((c : Thread nD τ).loc main_arg0) :=
  (show StableHlo.after hostOps0_2 (W2 m ρ c) (Proc.devRef .tc main_arg0) = W2 m ρ c (Proc.devRef .tc main_arg0) by host_kept hostOps0_2).trans
    ((show StableHlo.after hostOps0_1 (W1 m ρ c) (Proc.devRef .tc main_arg0) = W1 m ρ c (Proc.devRef .tc main_arg0) by host_kept hostOps0_1).trans
      ((show StableHlo.after hostOps0 (W0 m ρ c) (Proc.devRef .tc main_arg0) = W0 m ρ c (Proc.devRef .tc main_arg0) by host_kept hostOps0).trans rfl))
theorem W3_arg2 : W3 (F := Ideal) m ρ c (Proc.devRef .tc main_arg2) = m ((c : Thread nD τ).loc main_arg2) :=
  (show StableHlo.after hostOps0_2 (W2 m ρ c) (Proc.devRef .tc main_arg2) = W2 m ρ c (Proc.devRef .tc main_arg2) by host_kept hostOps0_2).trans
    ((show StableHlo.after hostOps0_1 (W1 m ρ c) (Proc.devRef .tc main_arg2) = W1 m ρ c (Proc.devRef .tc main_arg2) by host_kept hostOps0_1).trans
      ((show StableHlo.after hostOps0 (W0 m ρ c) (Proc.devRef .tc main_arg2) = W0 m ρ c (Proc.devRef .tc main_arg2) by host_kept hostOps0).trans rfl))
theorem W3_arg3 : W3 (F := Ideal) m ρ c (Proc.devRef .tc main_arg3) = m ((c : Thread nD τ).loc main_arg3) :=
  (show StableHlo.after hostOps0_2 (W2 m ρ c) (Proc.devRef .tc main_arg3) = W2 m ρ c (Proc.devRef .tc main_arg3) by host_kept hostOps0_2).trans
    ((show StableHlo.after hostOps0_1 (W1 m ρ c) (Proc.devRef .tc main_arg3) = W1 m ρ c (Proc.devRef .tc main_arg3) by host_kept hostOps0_1).trans
      ((show StableHlo.after hostOps0 (W0 m ρ c) (Proc.devRef .tc main_arg3) = W0 m ρ c (Proc.devRef .tc main_arg3) by host_kept hostOps0).trans rfl))
theorem W3_arg4 : W3 (F := Ideal) m ρ c (Proc.devRef .tc main_arg4) = m ((c : Thread nD τ).loc main_arg4) :=
  (show StableHlo.after hostOps0_2 (W2 m ρ c) (Proc.devRef .tc main_arg4) = W2 m ρ c (Proc.devRef .tc main_arg4) by host_kept hostOps0_2).trans
    ((show StableHlo.after hostOps0_1 (W1 m ρ c) (Proc.devRef .tc main_arg4) = W1 m ρ c (Proc.devRef .tc main_arg4) by host_kept hostOps0_1).trans
      ((show StableHlo.after hostOps0 (W0 m ρ c) (Proc.devRef .tc main_arg4) = W0 m ρ c (Proc.devRef .tc main_arg4) by host_kept hostOps0).trans rfl))
theorem W3_arg5 : W3 (F := Ideal) m ρ c (Proc.devRef .tc main_arg5) = m ((c : Thread nD τ).loc main_arg5) :=
  (show StableHlo.after hostOps0_2 (W2 m ρ c) (Proc.devRef .tc main_arg5) = W2 m ρ c (Proc.devRef .tc main_arg5) by host_kept hostOps0_2).trans
    ((show StableHlo.after hostOps0_1 (W1 m ρ c) (Proc.devRef .tc main_arg5) = W1 m ρ c (Proc.devRef .tc main_arg5) by host_kept hostOps0_1).trans
      ((show StableHlo.after hostOps0 (W0 m ρ c) (Proc.devRef .tc main_arg5) = W0 m ρ c (Proc.devRef .tc main_arg5) by host_kept hostOps0).trans rfl))
theorem W3_arg6 : W3 (F := Ideal) m ρ c (Proc.devRef .tc main_arg6) = m ((c : Thread nD τ).loc main_arg6) :=
  (show StableHlo.after hostOps0_2 (W2 m ρ c) (Proc.devRef .tc main_arg6) = W2 m ρ c (Proc.devRef .tc main_arg6) by host_kept hostOps0_2).trans
    ((show StableHlo.after hostOps0_1 (W1 m ρ c) (Proc.devRef .tc main_arg6) = W1 m ρ c (Proc.devRef .tc main_arg6) by host_kept hostOps0_1).trans
      ((show StableHlo.after hostOps0 (W0 m ρ c) (Proc.devRef .tc main_arg6) = W0 m ρ c (Proc.devRef .tc main_arg6) by host_kept hostOps0).trans rfl))
theorem W3_arg7 : W3 (F := Ideal) m ρ c (Proc.devRef .tc main_arg7) = m ((c : Thread nD τ).loc main_arg7) :=
  (show StableHlo.after hostOps0_2 (W2 m ρ c) (Proc.devRef .tc main_arg7) = W2 m ρ c (Proc.devRef .tc main_arg7) by host_kept hostOps0_2).trans
    ((show StableHlo.after hostOps0_1 (W1 m ρ c) (Proc.devRef .tc main_arg7) = W1 m ρ c (Proc.devRef .tc main_arg7) by host_kept hostOps0_1).trans
      ((show StableHlo.after hostOps0 (W0 m ρ c) (Proc.devRef .tc main_arg7) = W0 m ρ c (Proc.devRef .tc main_arg7) by host_kept hostOps0).trans rfl))

/-! ## The edge lists, the edge weights and the later arguments, carried to every boundary that still reads them

Across a device region a buffer that is none of the region's three arrays keeps its contents; across a stretch of host
lines a buffer none of them writes keeps its contents. -/

/-! ### Boundary 4 -/
theorem W4_src : W4 (F := Ideal) m ρ c (Proc.devRef .tc main_v3) = SRC :=
  (W4_of_ne m ρ c main_v3 (by decide)).trans (W3_src m ρ c)
theorem W4_dst : W4 (F := Ideal) m ρ c (Proc.devRef .tc main_v6) = DST :=
  (W4_of_ne m ρ c main_v6 (by decide)).trans (W3_dst m ρ c)
theorem W4_nrm : W4 (F := Ideal) m ρ c (Proc.devRef .tc main_v29) = NRM :=
  (W4_of_ne m ρ c main_v29 (by decide)).trans (W3_nrm m ρ c)
theorem W4_arg3 : W4 (F := Ideal) m ρ c (Proc.devRef .tc main_arg3) = m ((c : Thread nD τ).loc main_arg3) :=
  (W4_of_ne m ρ c main_arg3 (by decide)).trans (W3_arg3 m ρ c)
theorem W4_arg4 : W4 (F := Ideal) m ρ c (Proc.devRef .tc main_arg4) = m ((c : Thread nD τ).loc main_arg4) :=
  (W4_of_ne m ρ c main_arg4 (by decide)).trans (W3_arg4 m ρ c)
theorem W4_arg5 : W4 (F := Ideal) m ρ c (Proc.devRef .tc main_arg5) = m ((c : Thread nD τ).loc main_arg5) :=
  (W4_of_ne m ρ c main_arg5 (by decide)).trans (W3_arg5 m ρ c)
theorem W4_arg6 : W4 (F := Ideal) m ρ c (Proc.devRef .tc main_arg6) = m ((c : Thread nD τ).loc main_arg6) :=
  (W4_of_ne m ρ c main_arg6 (by decide)).trans (W3_arg6 m ρ c)
theorem W4_arg7 : W4 (F := Ideal) m ρ c (Proc.devRef .tc main_arg7) = m ((c : Thread nD τ).loc main_arg7) :=
  (W4_of_ne m ρ c main_arg7 (by decide)).trans (W3_arg7 m ρ c)

/-! ### Boundary 5 -/
theorem W5_src : W5 (F := Ideal) m ρ c (Proc.devRef .tc main_v3) = SRC :=
  (show StableHlo.after hostOps1 (W4 m ρ c) (Proc.devRef .tc main_v3) = W4 m ρ c (Proc.devRef .tc main_v3) by host_kept hostOps1).trans (W4_src m ρ c)
theorem W5_dst : W5 (F := Ideal) m ρ c (Proc.devRef .tc main_v6) = DST :=
  (show StableHlo.after hostOps1 (W4 m ρ c) (Proc.devRef .tc main_v6) = W4 m ρ c (Proc.devRef .tc main_v6) by host_kept hostOps1).trans (W4_dst m ρ c)
theorem W5_nrm : W5 (F := Ideal) m ρ c (Proc.devRef .tc main_v29) = NRM :=
  (show StableHlo.after hostOps1 (W4 m ρ c) (Proc.devRef .tc main_v29) = W4 m ρ c (Proc.devRef .tc main_v29) by host_kept hostOps1).trans (W4_nrm m ρ c)
theorem W5_arg3 : W5 (F := Ideal) m ρ c (Proc.devRef .tc main_arg3) = m ((c : Thread nD τ).loc main_arg3) :=
  (show StableHlo.after hostOps1 (W4 m ρ c) (Proc.devRef .tc main_arg3) = W4 m ρ c (Proc.devRef .tc main_arg3) by host_kept hostOps1).trans (W4_arg3 m ρ c)
theorem W5_arg4 : W5 (F := Ideal) m ρ c (Proc.devRef .tc main_arg4) = m ((c : Thread nD τ).loc main_arg4) :=
  (show StableHlo.after hostOps1 (W4 m ρ c) (Proc.devRef .tc main_arg4) = W4 m ρ c (Proc.devRef .tc main_arg4) by host_kept hostOps1).trans (W4_arg4 m ρ c)
theorem W5_arg6 : W5 (F := Ideal) m ρ c (Proc.devRef .tc main_arg6) = m ((c : Thread nD τ).loc main_arg6) :=
  (show StableHlo.after hostOps1 (W4 m ρ c) (Proc.devRef .tc main_arg6) = W4 m ρ c (Proc.devRef .tc main_arg6) by host_kept hostOps1).trans (W4_arg6 m ρ c)
theorem W5_arg7 : W5 (F := Ideal) m ρ c (Proc.devRef .tc main_arg7) = m ((c : Thread nD τ).loc main_arg7) :=
  (show StableHlo.after hostOps1 (W4 m ρ c) (Proc.devRef .tc main_arg7) = W4 m ρ c (Proc.devRef .tc main_arg7) by host_kept hostOps1).trans (W4_arg7 m ρ c)

/-! ### Boundary 6 -/
theorem W6_src : W6 (F := Ideal) m ρ c (Proc.devRef .tc main_v3) = SRC :=
  (W6_of_ne m ρ c main_v3 (by decide)).trans (W5_src m ρ c)
theorem W6_dst : W6 (F := Ideal) m ρ c (Proc.devRef .tc main_v6) = DST :=
  (W6_of_ne m ρ c main_v6 (by decide)).trans (W5_dst m ρ c)
theorem W6_nrm : W6 (F := Ideal) m ρ c (Proc.devRef .tc main_v29) = NRM :=
  (W6_of_ne m ρ c main_v29 (by decide)).trans (W5_nrm m ρ c)
theorem W6_arg3 : W6 (F := Ideal) m ρ c (Proc.devRef .tc main_arg3) = m ((c : Thread nD τ).loc main_arg3) :=
  (W6_of_ne m ρ c main_arg3 (by decide)).trans (W5_arg3 m ρ c)
theorem W6_arg4 : W6 (F := Ideal) m ρ c (Proc.devRef .tc main_arg4) = m ((c : Thread nD τ).loc main_arg4) :=
  (W6_of_ne m ρ c main_arg4 (by decide)).trans (W5_arg4 m ρ c)
theorem W6_arg6 : W6 (F := Ideal) m ρ c (Proc.devRef .tc main_arg6) = m ((c : Thread nD τ).loc main_arg6) :=
  (W6_of_ne m ρ c main_arg6 (by decide)).trans (W5_arg6 m ρ c)
theorem W6_arg7 : W6 (F := Ideal) m ρ c (Proc.devRef .tc main_arg7) = m ((c : Thread nD τ).loc main_arg7) :=
  (W6_of_ne m ρ c main_arg7 (by decide)).trans (W5_arg7 m ρ c)

/-! ### Boundary 7 -/
theorem W7_src : W7 (F := Ideal) m ρ c (Proc.devRef .tc main_v3) = SRC :=
  (W7_of_ne m ρ c main_v3 (by decide)).trans (W6_src m ρ c)
theorem W7_dst : W7 (F := Ideal) m ρ c (Proc.devRef .tc main_v6) = DST :=
  (W7_of_ne m ρ c main_v6 (by decide)).trans (W6_dst m ρ c)
theorem W7_nrm : W7 (F := Ideal) m ρ c (Proc.devRef .tc main_v29) = NRM :=
  (W7_of_ne m ρ c main_v29 (by decide)).trans (W6_nrm m ρ c)
theorem W7_arg4 : W7 (F := Ideal) m ρ c (Proc.devRef .tc main_arg4) = m ((c : Thread nD τ).loc main_arg4) :=
  (W7_of_ne m ρ c main_arg4 (by decide)).trans (W6_arg4 m ρ c)
theorem W7_arg6 : W7 (F := Ideal) m ρ c (Proc.devRef .tc main_arg6) = m ((c : Thread nD τ).loc main_arg6) :=
  (W7_of_ne m ρ c main_arg6 (by decide)).trans (W6_arg6 m ρ c)
theorem W7_arg7 : W7 (F := Ideal) m ρ c (Proc.devRef .tc main_arg7) = m ((c : Thread nD τ).loc main_arg7) :=
  (W7_of_ne m ρ c main_arg7 (by decide)).trans (W6_arg7 m ρ c)

/-! ### Boundary 8 -/
theorem W8_src : W8 (F := Ideal) m ρ c (Proc.devRef .tc main_v3) = SRC :=
  (show StableHlo.after hostOps3 (W7 m ρ c) (Proc.devRef .tc main_v3) = W7 m ρ c (Proc.devRef .tc main_v3) by host_kept hostOps3).trans (W7_src m ρ c)
theorem W8_dst : W8 (F := Ideal) m ρ c (Proc.devRef .tc main_v6) = DST :=
  (show StableHlo.after hostOps3 (W7 m ρ c) (Proc.devRef .tc main_v6) = W7 m ρ c (Proc.devRef .tc main_v6) by host_kept hostOps3).trans (W7_dst m ρ c)
theorem W8_nrm : W8 (F := Ideal) m ρ c (Proc.devRef .tc main_v29) = NRM :=
  (show StableHlo.after hostOps3 (W7 m ρ c) (Proc.devRef .tc main_v29) = W7 m ρ c (Proc.devRef .tc main_v29) by host_kept hostOps3).trans (W7_nrm m ρ c)
theorem W8_arg4 : W8 (F := Ideal) m ρ c (Proc.devRef .tc main_arg4) = m ((c : Thread nD τ).loc main_arg4) :=
  (show StableHlo.after hostOps3 (W7 m ρ c) (Proc.devRef .tc main_arg4) = W7 m ρ c (Proc.devRef .tc main_arg4) by host_kept hostOps3).trans (W7_arg4 m ρ c)
theorem W8_arg7 : W8 (F := Ideal) m ρ c (Proc.devRef .tc main_arg7) = m ((c : Thread nD τ).loc main_arg7) :=
  (show StableHlo.after hostOps3 (W7 m ρ c) (Proc.devRef .tc main_arg7) = W7 m ρ c (Proc.devRef .tc main_arg7) by host_kept hostOps3).trans (W7_arg7 m ρ c)

/-! ### Boundary 9 -/
theorem W9_src : W9 (F := Ideal) m ρ c (Proc.devRef .tc main_v3) = SRC :=
  (W9_of_ne m ρ c main_v3 (by decide)).trans (W8_src m ρ c)
theorem W9_dst : W9 (F := Ideal) m ρ c (Proc.devRef .tc main_v6) = DST :=
  (W9_of_ne m ρ c main_v6 (by decide)).trans (W8_dst m ρ c)
theorem W9_nrm : W9 (F := Ideal) m ρ c (Proc.devRef .tc main_v29) = NRM :=
  (W9_of_ne m ρ c main_v29 (by decide)).trans (W8_nrm m ρ c)
theorem W9_arg4 : W9 (F := Ideal) m ρ c (Proc.devRef .tc main_arg4) = m ((c : Thread nD τ).loc main_arg4) :=
  (W9_of_ne m ρ c main_arg4 (by decide)).trans (W8_arg4 m ρ c)
theorem W9_arg7 : W9 (F := Ideal) m ρ c (Proc.devRef .tc main_arg7) = m ((c : Thread nD τ).loc main_arg7) :=
  (W9_of_ne m ρ c main_arg7 (by decide)).trans (W8_arg7 m ρ c)

/-! ### Boundary 10 -/
theorem W10_src : W10 (F := Ideal) m ρ c (Proc.devRef .tc main_v3) = SRC :=
  (W10_of_ne m ρ c main_v3 (by decide)).trans (W9_src m ρ c)
theorem W10_dst : W10 (F := Ideal) m ρ c (Proc.devRef .tc main_v6) = DST :=
  (W10_of_ne m ρ c main_v6 (by decide)).trans (W9_dst m ρ c)
theorem W10_nrm : W10 (F := Ideal) m ρ c (Proc.devRef .tc main_v29) = NRM :=
  (W10_of_ne m ρ c main_v29 (by decide)).trans (W9_nrm m ρ c)
theorem W10_arg7 : W10 (F := Ideal) m ρ c (Proc.devRef .tc main_arg7) = m ((c : Thread nD τ).loc main_arg7) :=
  (W10_of_ne m ρ c main_arg7 (by decide)).trans (W9_arg7 m ρ c)

/-! ## What the host lines before each rectifier region compute -/

/-- The aggregation round the host lines before this region compute, as one function of the previous region's output,
    the edge lists and the edge weights. -/
theorem W5_agg : W5 (F := Ideal) m ρ c (Proc.devRef .tc main_v43)
    = Cert.Shared.aggregate (F := Ideal) (W4 (F := Ideal) m ρ c (Proc.devRef .tc main_v30)) SRC DST NRM := by
  have h : W5 (F := Ideal) m ρ c (Proc.devRef .tc main_v43)
      = Cert.Shared.aggregate (F := Ideal) (W4 m ρ c (Proc.devRef .tc main_v30)) (W4 m ρ c (Proc.devRef .tc main_v3))
          (W4 m ρ c (Proc.devRef .tc main_v6)) (W4 m ρ c (Proc.devRef .tc main_v29)) := by
    show StableHlo.after hostOps1 (W4 m ρ c) (Proc.devRef .tc main_v43) = _
    after_results_simp
    rfl
  rw [W4_src m ρ c, W4_dst m ρ c, W4_nrm m ρ c] at h
  exact h

/-- The bias vector laid as a one-row matrix. -/
theorem W5_bias : W5 (F := Ideal) m ρ c (Proc.devRef .tc main_v44)
    = shapeCast S1x128 (m ((c : Thread nD τ).loc main_arg5)) shapeCasts_S128_S1x128 := by
  have h : W5 (F := Ideal) m ρ c (Proc.devRef .tc main_v44)
      = shapeCast S1x128 (W4 m ρ c (Proc.devRef .tc main_arg5)) shapeCasts_S128_S1x128 := by
    show StableHlo.after hostOps1 (W4 m ρ c) (Proc.devRef .tc main_v44) = _
    after_results_simp
    rfl
  rw [W4_arg5 m ρ c] at h
  exact h

/-- The aggregation round the host lines before this region compute, as one function of the previous region's output,
    the edge lists and the edge weights. -/
theorem W8_agg : W8 (F := Ideal) m ρ c (Proc.devRef .tc main_v59)
    = Cert.Shared.aggregate (F := Ideal) (W7 (F := Ideal) m ρ c (Proc.devRef .tc main_v46)) SRC DST NRM := by
  have h : W8 (F := Ideal) m ρ c (Proc.devRef .tc main_v59)
      = Cert.Shared.aggregate (F := Ideal) (W7 m ρ c (Proc.devRef .tc main_v46)) (W7 m ρ c (Proc.devRef .tc main_v3))
          (W7 m ρ c (Proc.devRef .tc main_v6)) (W7 m ρ c (Proc.devRef .tc main_v29)) := by
    show StableHlo.after hostOps3 (W7 m ρ c) (Proc.devRef .tc main_v59) = _
    after_results_simp
    rfl
  rw [W7_src m ρ c, W7_dst m ρ c, W7_nrm m ρ c] at h
  exact h

/-- The bias vector laid as a one-row matrix. -/
theorem W8_bias : W8 (F := Ideal) m ρ c (Proc.devRef .tc main_v60)
    = shapeCast S1x128 (m ((c : Thread nD τ).loc main_arg6)) shapeCasts_S128_S1x128 := by
  have h : W8 (F := Ideal) m ρ c (Proc.devRef .tc main_v60)
      = shapeCast S1x128 (W7 m ρ c (Proc.devRef .tc main_arg6)) shapeCasts_S128_S1x128 := by
    show StableHlo.after hostOps3 (W7 m ρ c) (Proc.devRef .tc main_v60) = _
    after_results_simp
    rfl
  rw [W7_arg6 m ρ c] at h
  exact h

/-- The aggregation round the host lines before this region compute, as one function of the previous region's output,
    the edge lists and the edge weights. -/
theorem W11_agg : W11 (F := Ideal) m ρ c (Proc.devRef .tc main_v75)
    = Cert.Shared.aggregate (F := Ideal) (W10 (F := Ideal) m ρ c (Proc.devRef .tc main_v62)) SRC DST NRM := by
  have h : W11 (F := Ideal) m ρ c (Proc.devRef .tc main_v75)
      = Cert.Shared.aggregate (F := Ideal) (W10 m ρ c (Proc.devRef .tc main_v62)) (W10 m ρ c (Proc.devRef .tc main_v3))
          (W10 m ρ c (Proc.devRef .tc main_v6)) (W10 m ρ c (Proc.devRef .tc main_v29)) := by
    show StableHlo.after hostOps5 (W10 m ρ c) (Proc.devRef .tc main_v75) = _
    after_results_simp
    rfl
  rw [W10_src m ρ c, W10_dst m ρ c, W10_nrm m ρ c] at h
  exact h

/-- The bias vector laid as a one-row matrix. -/
theorem W11_bias : W11 (F := Ideal) m ρ c (Proc.devRef .tc main_v76)
    = shapeCast S1x128 (m ((c : Thread nD τ).loc main_arg7)) shapeCasts_S128_S1x128 := by
  have h : W11 (F := Ideal) m ρ c (Proc.devRef .tc main_v76)
      = shapeCast S1x128 (W10 m ρ c (Proc.devRef .tc main_arg7)) shapeCasts_S128_S1x128 := by
    show StableHlo.after hostOps5 (W10 m ρ c) (Proc.devRef .tc main_v76) = _
    after_results_simp
    rfl
  rw [W10_arg7 m ρ c] at h
  exact h

/-! ## Each region's output array at its exit: what the region's write-backs leave -/
theorem W4_out : W4 (F := Ideal) m ρ c (Proc.devRef .tc main_v30) = (dat0 (V3 m ρ) c).arrAt 2 cfg0.N :=
  W4_arr m ρ c 2
theorem W6_out : W6 (F := Ideal) m ρ c (Proc.devRef .tc main_v45) = (dat1 (V5 m ρ) c).arrAt 2 cfg1.N :=
  W6_arr m ρ c 2
theorem W7_out : W7 (F := Ideal) m ρ c (Proc.devRef .tc main_v46) = (dat2 (V6 m ρ) c).arrAt 2 cfg2.N :=
  W7_arr m ρ c 2
theorem W9_out : W9 (F := Ideal) m ρ c (Proc.devRef .tc main_v61) = (dat3 (V8 m ρ) c).arrAt 2 cfg3.N :=
  W9_arr m ρ c 2
theorem W10_out : W10 (F := Ideal) m ρ c (Proc.devRef .tc main_v62) = (dat4 (V9 m ρ) c).arrAt 2 cfg4.N :=
  W10_arr m ρ c 2
theorem W12_out : W12 (F := Ideal) m ρ c (Proc.devRef .tc main_v77) = (dat5 (V11 m ρ) c).arrAt 2 cfg5.N :=
  W12_arr m ρ c 2

end Cert.KernelIdeal.Chain

end
-- ==== Proof.Spec.lean ====
/-
  The entrywise functions of the network's last steps, over the extended reals.

  A biased entry passed through the rectifier is `max (x + b) 0`.  The log-softmax of a row `h` of 128 entries is, at
  entry `q`, `(h q - M) - log (∑ k, exp (h k - M))` with `M` the row's maximum, the maximum taken as a fold of `max`
  from `-∞`.  The two float words are kept as words: the same word stands on both sides of every equation here.
-/
import Idealize.ShloMosaic.PureOps.Ideal

noncomputable section

namespace Cert.Spec

open Idealize.ShloMosaic

/-- A biased entry through the rectifier. -/
def biasRelu (x b : EReal) : EReal := max (x + b) (Ideal.ofBits .f32 0x00000000#32)

/-- The maximum of a row of 128 entries, folded from the word of `-∞`. -/
def rowMax (h : Fin 128 → EReal) : EReal :=
  (Finset.univ : Finset (Fin 128)).fold max (Ideal.ofBits .f32 0xFF800000#32) h

/-- The log-softmax of a row at entry `q`: the entry shifted by the row's maximum, minus the logarithm of the sum of the
    exponentials of the shifted row. -/
def logSoftmax (h : Fin 128 → EReal) (q : Fin 128) : EReal :=
  (h q - rowMax h) - Ideal.log (∑ k : Fin 128, Ideal.exp (h k - rowMax h))

end Cert.Spec

end
-- ==== Proof.LibHostProduct.lean ====
/-
  The host's matrix product and two of its broadcasts, read at an index, at the ideal values.

  For `A : [m, k]` and `B : [k, n]`, the host's product contracting the second axis of `A` with the first of `B` has at
  `(a, b)` the sum over `c` of `A (a, c) · B (c, b)`: it has no accumulator, so this is the whole entry.  An `[a, 1]`
  column laid along the columns of an `[a, b]` array has at `(p, c)` the column's entry `p`, and a vector of length `n`
  laid as a `[1, n]` row has at `(0, q)` its entry `q`.
-/
import Idealize.ShloMosaic.Lib.Pipeline.Value
import Idealize.ShloMosaic.Lib.ValueIdx
import Idealize.ShloMosaic.PureOps.Ideal.Laws

noncomputable section

namespace Cert.HostProduct

open Idealize.ShloMosaic Idealize.ShloMosaic.ValueIdx

/-- The host's `A · B`, read at `(a, b)`: the sum over the shared coordinate of the products. -/
theorem dotGeneral_nn_apply {m n k : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    Host.dotGeneral (⟨[1], [0], [0], [1], [], [], w⟩ : DotDims _ _ _) prec A B (ix2 a b)
      = ∑ c : Fin k, A (ix2 a c) * B (ix2 c b) := by
  show FloatOps.dotGeneral _ prec _ A B (ix2 a b) = _
  rw [Ideal.dotGeneral_apply,
    ← Equiv.sum_comp (contrEquiv1 (⟨[1], [0], [0], [1], [], [], w⟩ : DotDims _ _ _) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

variable {α : Type}

/-- An `[a, 1]` column laid along the columns of an `[a, b]` array: entry `(p, c)` is the column's entry `p`. -/
theorem broadcastInDim_col_apply {a b : ℕ} (h : (⟨2, ![a, 1]⟩ : Shape).BroadcastsInDim ⟨2, ![a, b]⟩ ![0, 1])
    (v : (⟨2, ![a, 1]⟩ : Shape).Idx → α) (p : Fin a) (c : Fin b) :
    broadcastInDim ⟨2, ![a, b]⟩ ![0, 1] h v (ix2 p c) = v (ix2 p (0 : Fin 1)) := by
  refine broadcastInDim_apply ![0, 1] h v (ix2 p c) (ix2 p (0 : Fin 1)) ?_
  intro ax
  match ax with
  | ⟨0, _⟩ =>
    show p.val = if a = 1 then 0 else p.val
    split
    · have := p.isLt; omega
    · rfl
  | ⟨1, _⟩ =>
    show (0 : ℕ) = if (1 : ℕ) = 1 then 0 else _
    simp

/-- A vector laid as a one-row matrix by the host: entry `(0, q)` is the vector's entry `q`. -/
theorem broadcastInDim_row_apply {n : ℕ} (h : (⟨1, ![n]⟩ : Shape).BroadcastsInDim ⟨2, ![1, n]⟩ ![1])
    (v : (⟨1, ![n]⟩ : Shape).Idx → α) (q : Fin n) :
    broadcastInDim ⟨2, ![1, n]⟩ ![1] h v (ix2 (0 : Fin 1) q) = v (ix1 q) := by
  refine broadcastInDim_apply ![1] h v (ix2 (0 : Fin 1) q) (ix1 q) ?_
  intro ax
  match ax with
  | ⟨0, _⟩ =>
    show q.val = if n = 1 then 0 else q.val
    split
    · have := q.isLt; omega
    · rfl

end Cert.HostProduct

end
-- ==== Proof.LibHostBroadcast.lean ====
/-
  The host's broadcasts of a bias, of a column and of a scalar, read at an index.

  A vector of length `n` placed as a one-row matrix and repeated down `a` rows has at `(p, q)` its entry `q`.  A vector of
  length `a` placed as a one-column matrix and repeated across `b` columns has at `(p, q)` its entry `p`.  A scalar
  repeated over any shape has everywhere its one value.
-/
import Idealize.ShloMosaic.Lib.Pipeline.Value
import Idealize.ShloMosaic.Lib.ValueIdx

noncomputable section

namespace Cert.HostBroadcast

open Idealize.ShloMosaic Idealize.ShloMosaic.ValueIdx

variable {α : Type}

/-- A vector as a `[1, n]` row repeated over `[a, n]`: at `(p, q)` its entry `q`. -/
theorem row_apply {a n : ℕ} (v : (⟨1, ![n]⟩ : Shape).Idx → α)
    (h1 : (⟨1, ![n]⟩ : Shape).BroadcastsInDim ⟨2, ![1, n]⟩ ![1])
    (h2 : (⟨2, ![1, n]⟩ : Shape).BroadcastsInDim ⟨2, ![a, n]⟩ ![0, 1]) (p : Fin a) (q : Fin n) :
    broadcastInDim ⟨2, ![a, n]⟩ ![0, 1] h2 (broadcastInDim ⟨2, ![1, n]⟩ ![1] h1 v) (ix2 p q) = v (ix1 q) := by
  rw [broadcastInDim_apply ![0, 1] h2 _ (ix2 p q) (ix2 (0 : Fin 1) q) (fun ax => by
    match ax with
    | ⟨0, _⟩ => show (0 : ℕ) = if (1 : ℕ) = 1 then 0 else p.val; rw [if_pos rfl]
    | ⟨1, _⟩ =>
      show q.val = if n = 1 then 0 else q.val
      split
      · have := q.isLt; omega
      · rfl)]
  exact broadcastInDim_apply ![1] h1 v (ix2 (0 : Fin 1) q) (ix1 q) (fun ax => by
    match ax with
    | ⟨0, _⟩ =>
      show q.val = if n = 1 then 0 else q.val
      split
      · have := q.isLt; omega
      · rfl)

/-- A vector as an `[a, 1]` column repeated over `[a, b]`: at `(p, q)` its entry `p`. -/
theorem col_apply {a b : ℕ} (v : (⟨1, ![a]⟩ : Shape).Idx → α)
    (h1 : (⟨1, ![a]⟩ : Shape).BroadcastsInDim ⟨2, ![a, 1]⟩ ![0])
    (h2 : (⟨2, ![a, 1]⟩ : Shape).BroadcastsInDim ⟨2, ![a, b]⟩ ![0, 1]) (p : Fin a) (q : Fin b) :
    broadcastInDim ⟨2, ![a, b]⟩ ![0, 1] h2 (broadcastInDim ⟨2, ![a, 1]⟩ ![0] h1 v) (ix2 p q) = v (ix1 p) := by
  rw [broadcastInDim_apply ![0, 1] h2 _ (ix2 p q) (ix2 p (0 : Fin 1)) (fun ax => by
    match ax with
    | ⟨0, _⟩ =>
      show p.val = if a = 1 then 0 else p.val
      split
      · have := p.isLt; omega
      · rfl
    | ⟨1, _⟩ => show (0 : ℕ) = if (1 : ℕ) = 1 then 0 else q.val; rw [if_pos rfl])]
  exact broadcastInDim_apply ![0] h1 v (ix2 p (0 : Fin 1)) (ix1 p) (fun ax => by
    match ax with
    | ⟨0, _⟩ =>
      show p.val = if a = 1 then 0 else p.val
      split
      · have := p.isLt; omega
      · rfl)

/-- The same column form one step at a time: an `[a]` vector as an `[a, 1]` column, at `(p, 0)`. -/
theorem col_one_apply {a : ℕ} (v : (⟨1, ![a]⟩ : Shape).Idx → α)
    (h1 : (⟨1, ![a]⟩ : Shape).BroadcastsInDim ⟨2, ![a, 1]⟩ ![0]) (p : Fin a) :
    broadcastInDim ⟨2, ![a, 1]⟩ ![0] h1 v (ix2 p (0 : Fin 1)) = v (ix1 p) :=
  broadcastInDim_apply ![0] h1 v (ix2 p (0 : Fin 1)) (ix1 p) (fun ax => by
    match ax with
    | ⟨0, _⟩ =>
      show p.val = if a = 1 then 0 else p.val
      split
      · have := p.isLt; omega
      · rfl)

/-- An `[a, 1]` column repeated over `[a, b]`, at `(p, q)`: the column's entry `(p, 0)`. -/
theorem col_spread_apply {a b : ℕ} (v : (⟨2, ![a, 1]⟩ : Shape).Idx → α)
    (h2 : (⟨2, ![a, 1]⟩ : Shape).BroadcastsInDim ⟨2, ![a, b]⟩ ![0, 1]) (p : Fin a) (q : Fin b) :
    broadcastInDim ⟨2, ![a, b]⟩ ![0, 1] h2 v (ix2 p q) = v (ix2 p (0 : Fin 1)) :=
  broadcastInDim_apply ![0, 1] h2 v (ix2 p q) (ix2 p (0 : Fin 1)) (fun ax => by
    match ax with
    | ⟨0, _⟩ =>
      show p.val = if a = 1 then 0 else p.val
      split
      · have := p.isLt; omega
      · rfl
    | ⟨1, _⟩ => show (0 : ℕ) = if (1 : ℕ) = 1 then 0 else q.val; rw [if_pos rfl])

/-- A scalar repeated over any shape: everywhere its one value. -/
theorem scalar_apply {t : Shape} (x : (⟨0, ![]⟩ : Shape).Idx → α) (dims : Fin 0 → Fin t.rank)
    (h : (⟨0, ![]⟩ : Shape).BroadcastsInDim t dims) (j : t.Idx) :
    broadcastInDim t dims h x j = x ix0 :=
  broadcastInDim_apply dims h x j ix0 (fun ax => ax.elim0)

end Cert.HostBroadcast

end
-- ==== Proof.LibRowFolds.lean ====
/-
  Reductions along the second axis of an `[a, b]` array, read at a row.

  At the ideal values a lane sum of row `p` is the sum of the row's entries, and a lane maximum the fold of `max` over
  them from the accumulator's value; the host's reduction by a commutative, associative operation is the same fold
  from its initial value.
-/
import Idealize.ShloMosaic.Lib.ValueIdx
import Idealize.ShloMosaic.PureOps.Ideal.Laws

noncomputable section

namespace Cert.RowFolds

open Idealize.ShloMosaic Idealize.ShloMosaic.ValueIdx

/-- Inserting coordinate `k` on the second axis of the one-coordinate index `p` gives `(p, k)`. -/
theorem lift_row {a b : ℕ} (h : Shape.Reduces ⟨2, ![a, b]⟩ [1] ⟨1, ![a]⟩) (p : Fin a) (k : Fin b) :
    h.lift (ix1 p) k = ix2 p k :=
  funext fun ax => Fin.ext (by match ax with | ⟨0, _⟩ => rfl | ⟨1, _⟩ => rfl)

/-- A lane sum over the second axis, at row `p`: the sum of the row. -/
theorem laneSum_apply {a b : ℕ} {φ : FTy} (v : FVec Ideal ⟨2, ![a, b]⟩ φ) (acc : BitVec φ.bits)
    (h : Shape.Reduces ⟨2, ![a, b]⟩ [1] ⟨1, ![a]⟩) (hφ : FKind.Formats φ) (hacc : acc = FKind.add.neutral φ hφ) (p : Fin a) :
    multiReduction .add [1] ⟨1, ![a]⟩ v acc h hφ hacc (ix1 p) = ∑ k : Fin b, v (ix2 p k) :=
  (Ideal.multiReduction_add_single v acc h hφ hacc (ix1 p)).trans
    (Finset.sum_congr rfl fun k _ => congrArg v (lift_row h p k))

/-- A lane maximum over the second axis, at row `p`: the fold of `max` over the row from the accumulator's value. -/
theorem laneMax_apply {a b : ℕ} {φ : FTy} (v : FVec Ideal ⟨2, ![a, b]⟩ φ) (acc : BitVec φ.bits)
    (h : Shape.Reduces ⟨2, ![a, b]⟩ [1] ⟨1, ![a]⟩) (hφ : FKind.Formats φ) (hacc : acc = FKind.maximumf.neutral φ hφ) (p : Fin a) :
    multiReduction .maximumf [1] ⟨1, ![a]⟩ v acc h hφ hacc (ix1 p)
      = (Finset.univ : Finset (Fin b)).fold max (Ideal.ofBits φ acc) (fun k => v (ix2 p k)) :=
  (Ideal.multiReduction_maximumf_single v acc h hφ hacc (ix1 p)).trans
    (congrArg (Finset.fold max (Ideal.ofBits φ acc) · (Finset.univ : Finset (Fin b)))
      (funext fun k => congrArg v (lift_row h p k)))

/-- The host's reduction over the second axis by a commutative, associative operation, at row `p`: the fold over the
    row from the initial value. -/
theorem hostFold_apply {α : Type} {a b : ℕ} {u : Shape} (f : α → α → α) [Std.Commutative f] [Std.Associative f]
    (x : (⟨2, ![a, b]⟩ : Shape).Idx → α) (init : u.Idx → α) (h' : Shape.ReducesTo ⟨2, ![a, b]⟩ [1] ⟨1, ![a]⟩)
    (h : Shape.Reduces ⟨2, ![a, b]⟩ [1] ⟨1, ![a]⟩) (hu : 0 < u.numel) (p : Fin a) :
    Host.reduce f x init h' hu (ix1 p)
      = (Finset.univ : Finset (Fin b)).fold f (init (Shape.Idx.first hu)) (fun k => x (ix2 p k)) :=
  (Host.reduce_eq_fold_single f x init h' h hu (ix1 p)).trans
    (congrArg (Finset.fold f (init (Shape.Idx.first hu)) · (Finset.univ : Finset (Fin b)))
      (funext fun k => congrArg x (lift_row h p k)))

end Cert.RowFolds

end
-- ==== Proof.RefStages.lean ====
/-
  The reference program's stages read at an entry, at the ideal values.

  The three aggregation rounds are one function of the features they aggregate; each matrix product at `(p, q)` is the
  exact sum over the shared coordinate; each rectified stage at `(p, q)` is the aggregated entry plus the bias entry `q`
  through `max · 0`; the last stage is, row by row, the log-softmax of the third rectified stage.
-/
import proofs.«121035_j62242666053924_1_alg».proof.Proof.RefRead
import proofs.«121035_j62242666053924_1_alg».proof.Proof.Shared
import proofs.«121035_j62242666053924_1_alg».proof.Proof.Spec
import proofs.«121035_j62242666053924_1_alg».proof.Proof.LibHostProduct
import proofs.«121035_j62242666053924_1_alg».proof.Proof.LibHostBroadcast
import proofs.«121035_j62242666053924_1_alg».proof.Proof.LibRowFolds

noncomputable section

namespace Cert.ReferenceIdeal.Stages

open Idealize.ShloMosaic Idealize.ShloMosaic.ValueIdx Cert.ReferenceIdeal Cert.ReferenceIdeal.Gen Cert.ReferenceIdeal.ReadP

variable (x0 : (⟨S100000x128, .f32⟩ : BufTy).Contents (Elt Ideal)) (x1 : (⟨S2x1600000, .i32⟩ : BufTy).Contents (Elt Ideal))
  (x2 x3 x4 : (⟨S128x128, .f32⟩ : BufTy).Contents (Elt Ideal)) (x5 x6 x7 : (⟨S128, .f32⟩ : BufTy).Contents (Elt Ideal))
  (p : Fin 100000) (q : Fin 128)

/-! ## The three aggregation rounds are one function of the features they aggregate -/

/-- The first round aggregates the first product. -/
theorem v43_eq : val_main_v43 (F := Ideal) x0 x1 x2
    = Cert.Shared.aggregate (F := Ideal) (val_main_v30 (F := Ideal) x0 x2) (val_main_v3 (F := Ideal) x1) (val_main_v6 (F := Ideal) x1) (val_main_v29 (F := Ideal) x1) := rfl

/-- The second round aggregates the second product. -/
theorem v61_eq : val_main_v61 (F := Ideal) x0 x1 x2 x3 x5
    = Cert.Shared.aggregate (F := Ideal) (val_main_v48 (F := Ideal) x0 x1 x2 x3 x5) (val_main_v3 (F := Ideal) x1) (val_main_v6 (F := Ideal) x1) (val_main_v29 (F := Ideal) x1) := rfl

/-- The third round aggregates the third product. -/
theorem v79_eq : val_main_v79 (F := Ideal) x0 x1 x2 x3 x4 x5 x6
    = Cert.Shared.aggregate (F := Ideal) (val_main_v66 (F := Ideal) x0 x1 x2 x3 x4 x5 x6) (val_main_v3 (F := Ideal) x1) (val_main_v6 (F := Ideal) x1) (val_main_v29 (F := Ideal) x1) := rfl

/-! ## The three matrix products at an entry -/

/-- The first product at `(p, q)`: `∑ k, x (p, k) · w₁ (k, q)`. -/
theorem v30_apply : val_main_v30 (F := Ideal) x0 x2 (ix2 p q)
    = (∑ k : Fin 128, x0 (ix2 p k) * x2 (ix2 k q) : EReal) := by
  unfold val_main_v30
  exact Cert.HostProduct.dotGeneral_nn_apply dot_S100000x128_S128x128_S100000x128_1_0_0_1_n_n_wf none _ _ p q

/-- The second product at `(p, q)`: the first rectified stage times `w₂`. -/
theorem v48_apply : val_main_v48 (F := Ideal) x0 x1 x2 x3 x5 (ix2 p q)
    = (∑ k : Fin 128, val_main_v47 (F := Ideal) x0 x1 x2 x5 (ix2 p k) * x3 (ix2 k q) : EReal) := by
  unfold val_main_v48
  exact Cert.HostProduct.dotGeneral_nn_apply dot_S100000x128_S128x128_S100000x128_1_0_0_1_n_n_wf none _ _ p q

/-- The third product at `(p, q)`: the second rectified stage times `w₃`. -/
theorem v66_apply : val_main_v66 (F := Ideal) x0 x1 x2 x3 x4 x5 x6 (ix2 p q)
    = (∑ k : Fin 128, val_main_v65 (F := Ideal) x0 x1 x2 x3 x5 x6 (ix2 p k) * x4 (ix2 k q) : EReal) := by
  unfold val_main_v66
  exact Cert.HostProduct.dotGeneral_nn_apply dot_S100000x128_S128x128_S100000x128_1_0_0_1_n_n_wf none _ _ p q

/-! ## The rectified stages at an entry -/

/-- The rectified stage `v47` at `(p, q)`: the aggregated entry plus the bias entry `q`, through the rectifier. -/
theorem v47_apply : val_main_v47 (F := Ideal) x0 x1 x2 x5 (ix2 p q)
    = Cert.Spec.biasRelu (val_main_v43 (F := Ideal) x0 x1 x2 (ix2 p q)) (x5 (ix1 q)) := by
  have e : val_main_v45 (F := Ideal) x5 (ix2 p q) = x5 (ix1 q) := by
    rw [val_main_v45_apply, val_main_v44_apply]
    exact congrArg x5 (funext fun a => Fin.ext (by match a with | ⟨0, _⟩ => rfl))
  have z : val_main_call1_v0 (F := Ideal) (ix2 p q) = Ideal.ofBits .f32 0x00000000#32 := by
    rw [val_main_call1_v0_apply]; rfl
  rw [val_main_v47_apply, val_main_v46_apply, e, z]
  rfl

/-- The rectified stage `v65` at `(p, q)`: the aggregated entry plus the bias entry `q`, through the rectifier. -/
theorem v65_apply : val_main_v65 (F := Ideal) x0 x1 x2 x3 x5 x6 (ix2 p q)
    = Cert.Spec.biasRelu (val_main_v61 (F := Ideal) x0 x1 x2 x3 x5 (ix2 p q)) (x6 (ix1 q)) := by
  have e : val_main_v63 (F := Ideal) x6 (ix2 p q) = x6 (ix1 q) := by
    rw [val_main_v63_apply, val_main_v62_apply]
    exact congrArg x6 (funext fun a => Fin.ext (by match a with | ⟨0, _⟩ => rfl))
  have z : val_main_call2_v0 (F := Ideal) (ix2 p q) = Ideal.ofBits .f32 0x00000000#32 := by
    rw [val_main_call2_v0_apply]; rfl
  rw [val_main_v65_apply, val_main_v64_apply, e, z]
  rfl

/-- The rectified stage `v83` at `(p, q)`: the aggregated entry plus the bias entry `q`, through the rectifier. -/
theorem v83_apply : val_main_v83 (F := Ideal) x0 x1 x2 x3 x4 x5 x6 x7 (ix2 p q)
    = Cert.Spec.biasRelu (val_main_v79 (F := Ideal) x0 x1 x2 x3 x4 x5 x6 (ix2 p q)) (x7 (ix1 q)) := by
  have e : val_main_v81 (F := Ideal) x7 (ix2 p q) = x7 (ix1 q) := by
    rw [val_main_v81_apply, val_main_v80_apply]
    exact congrArg x7 (funext fun a => Fin.ext (by match a with | ⟨0, _⟩ => rfl))
  have z : val_main_call3_v0 (F := Ideal) (ix2 p q) = Ideal.ofBits .f32 0x00000000#32 := by
    rw [val_main_call3_v0_apply]; rfl
  rw [val_main_v83_apply, val_main_v82_apply, e, z]
  rfl

/-! ## The last stage: the log-softmax of each row of the third rectified stage -/

/-- The row maximum the last stage subtracts, at row `p`: the fold of `max` over the row from the word of `-∞`; taking
    the maximum with that word once more changes nothing. -/
theorem rowMax_apply : val_main_call4_v2 (F := Ideal) x0 x1 x2 x3 x4 x5 x6 x7 (ix1 p) = Cert.Spec.rowMax (fun k : Fin 128 => val_main_v83 (F := Ideal) x0 x1 x2 x3 x4 x5 x6 x7 (ix2 p k)) := by
  have hfold : val_main_call4_v0 (F := Ideal) x0 x1 x2 x3 x4 x5 x6 x7 (ix1 p)
      = (Finset.univ : Finset (Fin 128)).fold max (Ideal.ofBits .f32 0xFF800000#32) (fun k : Fin 128 => val_main_v83 (F := Ideal) x0 x1 x2 x3 x4 x5 x6 x7 (ix2 p k)) := by
    unfold val_main_call4_v0
    exact Cert.RowFolds.hostFold_apply (α := EReal) max (val_main_v83 (F := Ideal) x0 x1 x2 x3 x4 x5 x6 x7) (val_main_call4_cst (F := Ideal))
      reducesTo_S100000x128_S100000_d1 (by decide) h_S_ p
  rw [val_main_call4_v2_apply, val_main_call4_v1_apply, hfold]
  show max (Ideal.ofBits .f32 0xFF800000#32)
      ((Finset.univ : Finset (Fin 128)).fold max (Ideal.ofBits .f32 0xFF800000#32) (fun k : Fin 128 => val_main_v83 (F := Ideal) x0 x1 x2 x3 x4 x5 x6 x7 (ix2 p k)))
    = (Finset.univ : Finset (Fin 128)).fold max (Ideal.ofBits .f32 0xFF800000#32) (fun k : Fin 128 => val_main_v83 (F := Ideal) x0 x1 x2 x3 x4 x5 x6 x7 (ix2 p k))
  exact max_eq_right ((Finset.le_fold_max _).mpr (Or.inl le_rfl))

/-- The shifted entry: the entry minus its row's maximum. -/
theorem shifted_apply : val_main_call4_v5 (F := Ideal) x0 x1 x2 x3 x4 x5 x6 x7 (ix2 p q)
    = val_main_v83 (F := Ideal) x0 x1 x2 x3 x4 x5 x6 x7 (ix2 p q) - Cert.Spec.rowMax (fun k : Fin 128 => val_main_v83 (F := Ideal) x0 x1 x2 x3 x4 x5 x6 x7 (ix2 p k)) := by
  have e : idx_main_call4_v3 (idx_main_call4_v4 (ix2 p q)) = ix1 p :=
    funext fun a => Fin.ext (by match a with | ⟨0, _⟩ => rfl)
  rw [val_main_call4_v5_apply, val_main_call4_v4_apply, val_main_call4_v3_apply, e, rowMax_apply x0 x1 x2 x3 x4 x5 x6 x7 p]
  rfl

/-- The sum of the exponentials of row `p`'s shifted entries: the host's sum starts from the word of zero, which is `0`. -/
theorem sumExp_apply : val_main_call4_v7 (F := Ideal) x0 x1 x2 x3 x4 x5 x6 x7 (ix1 p)
    = ∑ k : Fin 128, Ideal.exp (val_main_v83 (F := Ideal) x0 x1 x2 x3 x4 x5 x6 x7 (ix2 p k) - Cert.Spec.rowMax (fun k : Fin 128 => val_main_v83 (F := Ideal) x0 x1 x2 x3 x4 x5 x6 x7 (ix2 p k))) := by
  have z : val_main_call4_cst_1 (F := Ideal) (Shape.Idx.first h_S_) = 0 := by
    show Ideal.ofBits .f32 0x00000000#32 = 0
    exact Ideal.ofBits_zero_f32
  rw [val_main_call4_v7_apply, z, zero_add]
  refine Finset.sum_congr rfl fun k _ => ?_
  have e : idx_main_call4_v7 (ix1 p) k = ix2 p k :=
    funext fun a => Fin.ext (by match a with | ⟨0, _⟩ => rfl | ⟨1, _⟩ => rfl)
  rw [e, val_main_call4_v6_apply, shifted_apply x0 x1 x2 x3 x4 x5 x6 x7 p k, Ideal.hostUnary_exp_def]

/-- The last stage at `(p, q)` is the log-softmax of row `p` of the third rectified stage at `q`. -/
theorem v84_row : val_main_v84 (F := Ideal) x0 x1 x2 x3 x4 x5 x6 x7 (ix2 p q) = Cert.Spec.logSoftmax (fun k : Fin 128 => val_main_v83 (F := Ideal) x0 x1 x2 x3 x4 x5 x6 x7 (ix2 p k)) q := by
  have e : idx_main_call4_v8 (idx_main_call4_v10 (ix2 p q)) = ix1 p :=
    funext fun a => Fin.ext (by match a with | ⟨0, _⟩ => rfl)
  rw [val_main_v84_apply, shifted_apply x0 x1 x2 x3 x4 x5 x6 x7 p q, val_main_call4_v10_apply, val_main_call4_v9_apply,
    val_main_call4_v8_apply, e, sumExp_apply x0 x1 x2 x3 x4 x5 x6 x7 p, Ideal.subf_def, Ideal.hostUnary_log_def]
  unfold Cert.Spec.logSoftmax
  rfl

/-- The last stage at `(p, q)`: the log-softmax of the row of rectified, biased entries of the third aggregation. -/
theorem v84_apply : val_main_v84 (F := Ideal) x0 x1 x2 x3 x4 x5 x6 x7 (ix2 p q)
    = Cert.Spec.logSoftmax (fun k => Cert.Spec.biasRelu (val_main_v79 (F := Ideal) x0 x1 x2 x3 x4 x5 x6 (ix2 p k)) (x7 (ix1 k))) q := by
  have hrow : (fun k : Fin 128 => val_main_v83 (F := Ideal) x0 x1 x2 x3 x4 x5 x6 x7 (ix2 p k)) = fun k => Cert.Spec.biasRelu (val_main_v79 (F := Ideal) x0 x1 x2 x3 x4 x5 x6 (ix2 p k)) (x7 (ix1 k)) :=
    funext fun k => v83_apply x0 x1 x2 x3 x4 x5 x6 x7 p k
  rw [v84_row, hrow]

end Cert.ReferenceIdeal.Stages

end
-- ==== Proof.LibPlainProduct.lean ====
/-
  The plain matrix product at the ideal values, where a product is an exact sum.

  For `A : [m, k]` and `B : [k, n]`, the product contracting the second axis of `A` with the first of `B` into a zero
  accumulator has at `(a, b)` the sum over `c` of `A (a, c) · B (c, b)`.
-/
import Idealize.ShloMosaic.Lib.Pipeline.Value
import Idealize.ShloMosaic.Lib.ValueIdx
import Idealize.ShloMosaic.PureOps.Ideal.Laws

noncomputable section

namespace Cert.PlainProduct

open Idealize.ShloMosaic Idealize.ShloMosaic.ValueIdx

/-- `A · B` into the zero accumulator, read at `(a, b)`: the sum over the shared coordinate of the products. -/
theorem matmul_nn_apply {m n k : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    FloatOps.matmul (⟨[1], [0], [0], [1], [], [], w⟩ : DotDims _ _ _) prec A B (constant _ .f32 0x00000000#32) (ix2 a b)
      = ∑ c : Fin k, A (ix2 a c) * B (ix2 c b) := by
  rw [Ideal.matmul_constant_zero_apply,
    ← Equiv.sum_comp (contrEquiv1 (⟨[1], [0], [0], [1], [], [], w⟩ : DotDims _ _ _) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

end Cert.PlainProduct

end
-- ==== Proof.MatmulBlock.lean ====
/-
  The matrix-product bodies at the ideal values: the block the body stores is, entry by entry, the exact sum of
  products of a row of its first operand and a column of its second. The roundings to bf16 are the identity at
  the ideal values and the same-shape cast leaves the operand as it is.
-/
import proofs.«121035_j62242666053924_1_alg».proof.Proof.Gen.KernelIdeal.Skeleton
import proofs.«121035_j62242666053924_1_alg».proof.Proof.LibPlainProduct

noncomputable section

namespace Cert.KernelIdeal.RegionValue

open Idealize.ShloMosaic Idealize.ShloMosaic.ValueIdx Cert.KernelIdeal Cert.KernelIdeal.Gen

/-- The first product body at `(r, q)`: `∑ k, x (r, k) · w (k, q)`. -/
theorem product0_apply (x0 : Vec Ideal S5000x128 .f32) (x1 : Vec Ideal S128x128 .f32) (r : Fin 5000) (q : Fin 128) :
    Gen.k0_pay1 (F := Ideal) x0 x1 (ix2 r q) = ∑ k : Fin 128, x0 (ix2 r k) * x1 (ix2 k q) := by
  unfold Gen.k0_pay1
  exact Cert.PlainProduct.matmul_nn_apply dot_S5000x128_S128x128_S5000x128_1_0_0_1_n_n_wf none _ _ r q

/-- The second product body at `(r, q)`. -/
theorem product2_apply (x0 : Vec Ideal S5000x128 .f32) (x1 : Vec Ideal S128x128 .f32) (r : Fin 5000) (q : Fin 128) :
    Gen.k2_pay1 (F := Ideal) x0 x1 (ix2 r q) = ∑ k : Fin 128, x0 (ix2 r k) * x1 (ix2 k q) := by
  unfold Gen.k2_pay1
  rw [shapeCast_self]
  exact Cert.PlainProduct.matmul_nn_apply dot_S5000x128_S128x128_S5000x128_1_0_0_1_n_n_wf none _ _ r q

/-- The third product body at `(r, q)`. -/
theorem product4_apply (x0 : Vec Ideal S5000x128 .f32) (x1 : Vec Ideal S128x128 .f32) (r : Fin 5000) (q : Fin 128) :
    Gen.k4_pay1 (F := Ideal) x0 x1 (ix2 r q) = ∑ k : Fin 128, x0 (ix2 r k) * x1 (ix2 k q) := by
  unfold Gen.k4_pay1
  rw [shapeCast_self]
  exact Cert.PlainProduct.matmul_nn_apply dot_S5000x128_S128x128_S5000x128_1_0_0_1_n_n_wf none _ _ r q

end Cert.KernelIdeal.RegionValue

end
-- ==== Proof.MatmulRegion0.lean ====
/-
  The matrix-product region 0: after the region its output array holds, entry by entry, the exact sum of products
  of a row of the activations and a column of the weights, as the region found both.

  Each grid point `t` reads rows `5000 t … 5000 t + 4999` of the activations and the whole weight matrix, and writes
  the same rows of the output; the twenty row blocks tile the array, so every entry is written by exactly the point
  `row / 5000`.
-/
import proofs.«121035_j62242666053924_1_alg».proof.Proof.Gen.KernelIdeal.Frame
import proofs.«121035_j62242666053924_1_alg».proof.Proof.MatmulBlock
import Idealize.ShloMosaic.Lib.Pipeline.Value

noncomputable section

namespace Cert.KernelIdeal.RegionValue

open Idealize.ShloMosaic Idealize.ShloMosaic.ValueIdx Cert.KernelIdeal Cert.KernelIdeal.Gen
open Idealize.ShloMosaic.TcCoe Idealize.SL.Sem
open Idealize.ShloMosaic.Pipeline (Dat)

variable (V : (c : Dev nD) → (b : Ref sig .tc) → Buf (Elt Ideal) ((c : Thread nD τ).loc b))

/-- The zero offsets of a whole-buffer access, as the constant function. -/
theorem zeroOffsets0 : (![0, 0] : Fin 2 → Nat) = fun _ => 0 := funext fun a => by fin_cases a <;> rfl

/-- The product of an activation array `a` and a weight matrix `w`, entry by entry. -/
def product0 (a : S100000x128.Idx → EReal) (w : S128x128.Idx → EReal) : S100000x128.Idx → EReal :=
  fun i => ∑ k : Fin 128, a (ix2 (⟨(i 0).val, idx2_lt0 i⟩ : Fin 100000) k) * w (ix2 k (⟨(i 1).val, idx2_lt1 i⟩ : Fin 128))

/-- The body's block at an index of the block, as the sum over the shared coordinate. -/
theorem blockProduct0 (x0 : Vec Ideal S5000x128 .f32) (x1 : Vec Ideal S128x128 .f32) (j : S5000x128.Idx) :
    Gen.k0_pay1 (F := Ideal) x0 x1 j
      = ∑ k : Fin 128, x0 (ix2 (⟨(j 0).val, idx2_lt0 j⟩ : Fin 5000) k) * x1 (ix2 k (⟨(j 1).val, idx2_lt1 j⟩ : Fin 128)) := by
  obtain ⟨r, q, rfl⟩ : ∃ (r : Fin 5000) (q : Fin 128), j = ix2 r q := ⟨j 0, j 1, eq_ix2 j⟩
  exact product0_apply x0 x1 r q

/-- The block index maps over the grid: the activations and the output move down the rows with the point, the
    weights stay. -/
theorem blockIndices0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The activations' block at point `t` is rows `5000 t …` of the array. -/
theorem rowsBlock0 (c : Dev nD) (t : Fin cfg0.N) (y : S5000x128.Idx) (i : S100000x128.Idx)
    (h0 : (i 0).val = t.val * 5000 + (y 0).val) (h1 : (i 1).val = (y 1).val) :
    (Gen.iblk0 V c 0 t : Vec Ideal S5000x128 .f32) y = (V c main_arg0 : S100000x128.Idx → EReal) i := by
  obtain ⟨e0, e1, -, -, -, -⟩ := blockIndices0 t
  unfold Gen.iblk0
  rw [View.read_apply]
  show V c main_arg0 _ = V c main_arg0 _
  congr 1
  funext a
  apply Fin.ext
  match a with
  | ⟨0, _⟩ => show win0_0.index t (0 : Fin 2) * 5000 + 1 * (y 0).val = (i 0).val; omega
  | ⟨1, _⟩ => show win0_0.index t (1 : Fin 2) * 128 + 1 * (y 1).val = (i 1).val; omega

/-- The weights' block at every point is the whole matrix. -/
theorem weightsBlock0 (c : Dev nD) (t : Fin cfg0.N) (y : S128x128.Idx) :
    (Gen.iblk0 V c 1 t : Vec Ideal S128x128 .f32) y = (V c main_arg2 : S128x128.Idx → EReal) y := by
  obtain ⟨-, -, e2, e3, -, -⟩ := blockIndices0 t
  unfold Gen.iblk0
  rw [View.read_apply]
  show V c main_arg2 _ = V c main_arg2 _
  congr 1
  funext a
  apply Fin.ext
  match a with
  | ⟨0, _⟩ => show win0_1.index t (0 : Fin 2) * 128 + 1 * (y 0).val = (y 0).val; omega
  | ⟨1, _⟩ => show win0_1.index t (1 : Fin 2) * 128 + 1 * (y 1).val = (y 1).val; omega

/-- What point `t` writes back is block `t` of the product of the two arrays as the region finds them. -/
theorem flushed0_eq (c : Dev nD) (t : Fin cfg0.N) :
    (Gen.dat0 (F := Ideal) V c).flushed 2 t
      = ((cfg0.win 2).blk t).view.read (Elt Ideal) (product0 (V c main_arg0) (V c main_arg2)) := by
  show (cfg0.win 2).cut (grid0.coords t) ((Gen.dat0 V c).after 2 t) = _
  rw [Gen.after0_2]
  unfold Gen.out0_2
  rw [View.canon_unit_zero zeroOffsets0]
  simp only [View.ld_unit_zero (S := S5000x128) zeroOffsets0, View.ld_unit_zero (S := S128x128) zeroOffsets0]
  obtain ⟨-, -, -, -, e4, e5⟩ := blockIndices0 t
  funext j
  show Gen.k0_pay1 (F := Ideal) (Gen.iblk0 V c 0 t) (Gen.iblk0 V c 1 t) j
    = product0 (V c main_arg0) (V c main_arg2) (((cfg0.win 2).blk t).view.emb j)
  refine (blockProduct0 _ _ j).trans ?_
  unfold product0
  refine Finset.sum_congr rfl fun k _ => ?_
  congr 1
  · refine rowsBlock0 V c t _ _ ?_ rfl
    show (((cfg0.win 2).blk t).view.emb j 0).val = t.val * 5000 + (j 0).val
    show win0_2.index t (0 : Fin 2) * 5000 + 1 * (j 0).val = t.val * 5000 + (j 0).val
    omega
  · refine (weightsBlock0 V c t _).trans ?_
    congr 1
    funext a
    apply Fin.ext
    match a with
    | ⟨0, _⟩ => rfl
    | ⟨1, _⟩ => show (j 1).val = win0_2.index t (1 : Fin 2) * 128 + 1 * (j 1).val; omega

/-- An index of the output array is in point `t`'s block iff each coordinate is in the block's range on its axis. -/
theorem mem_block0 (t : Fin cfg0.N) (i : S100000x128.Idx) :
    i ∈ ((cfg0.win 2).blk t).view.set ↔ ∀ a : Fin 2, win0_2.index t a * S5000x128.size a ≤ (i a).val
      ∧ (i a).val < win0_2.index t a * S5000x128.size a + S5000x128.size a := by
  show i ∈ ((View.whole main_v30).slice (win0_2.rect t)).set ↔ _
  rw [View.set_slice_whole, Rect.mem_set_unit]
  exact Iff.rfl

/-- Every entry of the output array is written: row `r` by the point `r / 5000`. -/
theorem covered0 (i : S100000x128.Idx) :
    ∃ t : Fin cfg0.N, (cfg0.win 2).flush t = true ∧ i ∈ ((cfg0.win 2).blk t).view.set := by
  have hi0 : (i 0).val < 100000 := idx2_lt0 i
  have hi1 : (i 1).val < 128 := idx2_lt1 i
  have hN : cfg0.N = 20 := Gen.N_0
  obtain ⟨t, ht⟩ : ∃ t : Fin cfg0.N, t.val = (i 0).val / 5000 := ⟨⟨(i 0).val / 5000, by rw [hN]; omega⟩, rfl⟩
  obtain ⟨-, -, -, -, e4, e5⟩ := blockIndices0 t
  refine ⟨t, Gen.flush0_2 t, ?_⟩
  rw [mem_block0]
  intro a
  match a with
  | ⟨0, _⟩ =>
    show win0_2.index t (0 : Fin 2) * 5000 ≤ (i 0).val ∧ (i 0).val < win0_2.index t (0 : Fin 2) * 5000 + 5000
    omega
  | ⟨1, _⟩ =>
    show win0_2.index t (1 : Fin 2) * 128 ≤ (i 1).val ∧ (i 1).val < win0_2.index t (1 : Fin 2) * 128 + 128
    omega

/-- The output array after the region: the product of the activations and the weights as the region finds them. -/
theorem matmul0_array (c : Dev nD) :
    (Gen.dat0 (F := Ideal) V c).arrAt 2 cfg0.N = product0 (V c main_arg0) (V c main_arg2) :=
  (Gen.dat0 (F := Ideal) V c).arrAt_eq_of_cover 2 (product0 (V c main_arg0) (V c main_arg2))
    (fun t _ => flushed0_eq V c t) covered0

/-- The output array after the region at `(p, q)`: `∑ k, x (p, k) · w (k, q)`, the sum and the products those of the
    extended reals. -/
theorem matmul0 (c : Dev nD) (p : Fin 100000) (q : Fin 128) :
    (Gen.dat0 (F := Ideal) V c).arrAt 2 cfg0.N (ix2 p q)
      = Finset.sum (M := EReal) Finset.univ fun k : Fin 128 =>
          HMul.hMul (α := EReal) (β := EReal) (γ := EReal) (V c main_arg0 (ix2 p k)) (V c main_arg2 (ix2 k q)) :=
  (congrFun (matmul0_array V c) (ix2 p q)).trans rfl

/-- The same with the two arrays the region finds named: for `a` the activations and `w` the weights at the region's
    entry, the output array ends at `∑ k, a (p, k) · w (k, q)`. -/
theorem matmul0_of (c : Dev nD) (a : S100000x128.Idx → EReal) (w : S128x128.Idx → EReal)
    (ha : V c main_arg0 = a) (hw : V c main_arg2 = w) (p : Fin 100000) (q : Fin 128) :
    (Gen.dat0 (F := Ideal) V c).arrAt 2 cfg0.N (ix2 p q) = (∑ k : Fin 128, a (ix2 p k) * w (ix2 k q) : EReal) := by
  subst ha hw
  exact matmul0 V c p q

end Cert.KernelIdeal.RegionValue

end
-- ==== Proof.MatmulRegion2.lean ====
/-
  The matrix-product region 2: after the region its output array holds, entry by entry, the exact sum of products
  of a row of the activations and a column of the weights, as the region found both.

  Each grid point `t` reads rows `5000 t … 5000 t + 4999` of the activations and the whole weight matrix, and writes
  the same rows of the output; the twenty row blocks tile the array, so every entry is written by exactly the point
  `row / 5000`.
-/
import proofs.«121035_j62242666053924_1_alg».proof.Proof.Gen.KernelIdeal.Frame
import proofs.«121035_j62242666053924_1_alg».proof.Proof.MatmulBlock
import Idealize.ShloMosaic.Lib.Pipeline.Value

noncomputable section

namespace Cert.KernelIdeal.RegionValue

open Idealize.ShloMosaic Idealize.ShloMosaic.ValueIdx Cert.KernelIdeal Cert.KernelIdeal.Gen
open Idealize.ShloMosaic.TcCoe Idealize.SL.Sem
open Idealize.ShloMosaic.Pipeline (Dat)

variable (V : (c : Dev nD) → (b : Ref sig .tc) → Buf (Elt Ideal) ((c : Thread nD τ).loc b))

/-- The zero offsets of a whole-buffer access, as the constant function. -/
theorem zeroOffsets2 : (![0, 0] : Fin 2 → Nat) = fun _ => 0 := funext fun a => by fin_cases a <;> rfl

/-- The product of an activation array `a` and a weight matrix `w`, entry by entry. -/
def product2 (a : S100000x128.Idx → EReal) (w : S128x128.Idx → EReal) : S100000x128.Idx → EReal :=
  fun i => ∑ k : Fin 128, a (ix2 (⟨(i 0).val, idx2_lt0 i⟩ : Fin 100000) k) * w (ix2 k (⟨(i 1).val, idx2_lt1 i⟩ : Fin 128))

/-- The body's block at an index of the block, as the sum over the shared coordinate. -/
theorem blockProduct2 (x0 : Vec Ideal S5000x128 .f32) (x1 : Vec Ideal S128x128 .f32) (j : S5000x128.Idx) :
    Gen.k2_pay1 (F := Ideal) x0 x1 j
      = ∑ k : Fin 128, x0 (ix2 (⟨(j 0).val, idx2_lt0 j⟩ : Fin 5000) k) * x1 (ix2 k (⟨(j 1).val, idx2_lt1 j⟩ : Fin 128)) := by
  obtain ⟨r, q, rfl⟩ : ∃ (r : Fin 5000) (q : Fin 128), j = ix2 r q := ⟨j 0, j 1, eq_ix2 j⟩
  exact product2_apply x0 x1 r q

/-- The block index maps over the grid: the activations and the output move down the rows with the point, the
    weights stay. -/
theorem blockIndices2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The activations' block at point `t` is rows `5000 t …` of the array. -/
theorem rowsBlock2 (c : Dev nD) (t : Fin cfg2.N) (y : S5000x128.Idx) (i : S100000x128.Idx)
    (h0 : (i 0).val = t.val * 5000 + (y 0).val) (h1 : (i 1).val = (y 1).val) :
    (Gen.iblk2 V c 0 t : Vec Ideal S5000x128 .f32) y = (V c main_v45 : S100000x128.Idx → EReal) i := by
  obtain ⟨e0, e1, -, -, -, -⟩ := blockIndices2 t
  unfold Gen.iblk2
  rw [View.read_apply]
  show V c main_v45 _ = V c main_v45 _
  congr 1
  funext a
  apply Fin.ext
  match a with
  | ⟨0, _⟩ => show win2_0.index t (0 : Fin 2) * 5000 + 1 * (y 0).val = (i 0).val; omega
  | ⟨1, _⟩ => show win2_0.index t (1 : Fin 2) * 128 + 1 * (y 1).val = (i 1).val; omega

/-- The weights' block at every point is the whole matrix. -/
theorem weightsBlock2 (c : Dev nD) (t : Fin cfg2.N) (y : S128x128.Idx) :
    (Gen.iblk2 V c 1 t : Vec Ideal S128x128 .f32) y = (V c main_arg3 : S128x128.Idx → EReal) y := by
  obtain ⟨-, -, e2, e3, -, -⟩ := blockIndices2 t
  unfold Gen.iblk2
  rw [View.read_apply]
  show V c main_arg3 _ = V c main_arg3 _
  congr 1
  funext a
  apply Fin.ext
  match a with
  | ⟨0, _⟩ => show win2_1.index t (0 : Fin 2) * 128 + 1 * (y 0).val = (y 0).val; omega
  | ⟨1, _⟩ => show win2_1.index t (1 : Fin 2) * 128 + 1 * (y 1).val = (y 1).val; omega

/-- What point `t` writes back is block `t` of the product of the two arrays as the region finds them. -/
theorem flushed2_eq (c : Dev nD) (t : Fin cfg2.N) :
    (Gen.dat2 (F := Ideal) V c).flushed 2 t
      = ((cfg2.win 2).blk t).view.read (Elt Ideal) (product2 (V c main_v45) (V c main_arg3)) := by
  show (cfg2.win 2).cut (grid2.coords t) ((Gen.dat2 V c).after 2 t) = _
  rw [Gen.after2_2]
  unfold Gen.out2_2
  rw [View.canon_unit_zero zeroOffsets2]
  simp only [View.ld_unit_zero (S := S5000x128) zeroOffsets2, View.ld_unit_zero (S := S128x128) zeroOffsets2]
  obtain ⟨-, -, -, -, e4, e5⟩ := blockIndices2 t
  funext j
  show Gen.k2_pay1 (F := Ideal) (Gen.iblk2 V c 0 t) (Gen.iblk2 V c 1 t) j
    = product2 (V c main_v45) (V c main_arg3) (((cfg2.win 2).blk t).view.emb j)
  refine (blockProduct2 _ _ j).trans ?_
  unfold product2
  refine Finset.sum_congr rfl fun k _ => ?_
  congr 1
  · refine rowsBlock2 V c t _ _ ?_ rfl
    show (((cfg2.win 2).blk t).view.emb j 0).val = t.val * 5000 + (j 0).val
    show win2_2.index t (0 : Fin 2) * 5000 + 1 * (j 0).val = t.val * 5000 + (j 0).val
    omega
  · refine (weightsBlock2 V c t _).trans ?_
    congr 1
    funext a
    apply Fin.ext
    match a with
    | ⟨0, _⟩ => rfl
    | ⟨1, _⟩ => show (j 1).val = win2_2.index t (1 : Fin 2) * 128 + 1 * (j 1).val; omega

/-- An index of the output array is in point `t`'s block iff each coordinate is in the block's range on its axis. -/
theorem mem_block2 (t : Fin cfg2.N) (i : S100000x128.Idx) :
    i ∈ ((cfg2.win 2).blk t).view.set ↔ ∀ a : Fin 2, win2_2.index t a * S5000x128.size a ≤ (i a).val
      ∧ (i a).val < win2_2.index t a * S5000x128.size a + S5000x128.size a := by
  show i ∈ ((View.whole main_v46).slice (win2_2.rect t)).set ↔ _
  rw [View.set_slice_whole, Rect.mem_set_unit]
  exact Iff.rfl

/-- Every entry of the output array is written: row `r` by the point `r / 5000`. -/
theorem covered2 (i : S100000x128.Idx) :
    ∃ t : Fin cfg2.N, (cfg2.win 2).flush t = true ∧ i ∈ ((cfg2.win 2).blk t).view.set := by
  have hi0 : (i 0).val < 100000 := idx2_lt0 i
  have hi1 : (i 1).val < 128 := idx2_lt1 i
  have hN : cfg2.N = 20 := Gen.N_2
  obtain ⟨t, ht⟩ : ∃ t : Fin cfg2.N, t.val = (i 0).val / 5000 := ⟨⟨(i 0).val / 5000, by rw [hN]; omega⟩, rfl⟩
  obtain ⟨-, -, -, -, e4, e5⟩ := blockIndices2 t
  refine ⟨t, Gen.flush2_2 t, ?_⟩
  rw [mem_block2]
  intro a
  match a with
  | ⟨0, _⟩ =>
    show win2_2.index t (0 : Fin 2) * 5000 ≤ (i 0).val ∧ (i 0).val < win2_2.index t (0 : Fin 2) * 5000 + 5000
    omega
  | ⟨1, _⟩ =>
    show win2_2.index t (1 : Fin 2) * 128 ≤ (i 1).val ∧ (i 1).val < win2_2.index t (1 : Fin 2) * 128 + 128
    omega

/-- The output array after the region: the product of the activations and the weights as the region finds them. -/
theorem matmul2_array (c : Dev nD) :
    (Gen.dat2 (F := Ideal) V c).arrAt 2 cfg2.N = product2 (V c main_v45) (V c main_arg3) :=
  (Gen.dat2 (F := Ideal) V c).arrAt_eq_of_cover 2 (product2 (V c main_v45) (V c main_arg3))
    (fun t _ => flushed2_eq V c t) covered2

/-- The output array after the region at `(p, q)`: `∑ k, x (p, k) · w (k, q)`, the sum and the products those of the
    extended reals. -/
theorem matmul2 (c : Dev nD) (p : Fin 100000) (q : Fin 128) :
    (Gen.dat2 (F := Ideal) V c).arrAt 2 cfg2.N (ix2 p q)
      = Finset.sum (M := EReal) Finset.univ fun k : Fin 128 =>
          HMul.hMul (α := EReal) (β := EReal) (γ := EReal) (V c main_v45 (ix2 p k)) (V c main_arg3 (ix2 k q)) :=
  (congrFun (matmul2_array V c) (ix2 p q)).trans rfl

/-- The same with the two arrays the region finds named: for `a` the activations and `w` the weights at the region's
    entry, the output array ends at `∑ k, a (p, k) · w (k, q)`. -/
theorem matmul2_of (c : Dev nD) (a : S100000x128.Idx → EReal) (w : S128x128.Idx → EReal)
    (ha : V c main_v45 = a) (hw : V c main_arg3 = w) (p : Fin 100000) (q : Fin 128) :
    (Gen.dat2 (F := Ideal) V c).arrAt 2 cfg2.N (ix2 p q) = (∑ k : Fin 128, a (ix2 p k) * w (ix2 k q) : EReal) := by
  subst ha hw
  exact matmul2 V c p q

end Cert.KernelIdeal.RegionValue

end
-- ==== Proof.MatmulRegion4.lean ====
/-
  The matrix-product region 4: after the region its output array holds, entry by entry, the exact sum of products
  of a row of the activations and a column of the weights, as the region found both.

  Each grid point `t` reads rows `5000 t … 5000 t + 4999` of the activations and the whole weight matrix, and writes
  the same rows of the output; the twenty row blocks tile the array, so every entry is written by exactly the point
  `row / 5000`.
-/
import proofs.«121035_j62242666053924_1_alg».proof.Proof.Gen.KernelIdeal.Frame
import proofs.«121035_j62242666053924_1_alg».proof.Proof.MatmulBlock
import Idealize.ShloMosaic.Lib.Pipeline.Value

noncomputable section

namespace Cert.KernelIdeal.RegionValue

open Idealize.ShloMosaic Idealize.ShloMosaic.ValueIdx Cert.KernelIdeal Cert.KernelIdeal.Gen
open Idealize.ShloMosaic.TcCoe Idealize.SL.Sem
open Idealize.ShloMosaic.Pipeline (Dat)

variable (V : (c : Dev nD) → (b : Ref sig .tc) → Buf (Elt Ideal) ((c : Thread nD τ).loc b))

/-- The zero offsets of a whole-buffer access, as the constant function. -/
theorem zeroOffsets4 : (![0, 0] : Fin 2 → Nat) = fun _ => 0 := funext fun a => by fin_cases a <;> rfl

/-- The product of an activation array `a` and a weight matrix `w`, entry by entry. -/
def product4 (a : S100000x128.Idx → EReal) (w : S128x128.Idx → EReal) : S100000x128.Idx → EReal :=
  fun i => ∑ k : Fin 128, a (ix2 (⟨(i 0).val, idx2_lt0 i⟩ : Fin 100000) k) * w (ix2 k (⟨(i 1).val, idx2_lt1 i⟩ : Fin 128))

/-- The body's block at an index of the block, as the sum over the shared coordinate. -/
theorem blockProduct4 (x0 : Vec Ideal S5000x128 .f32) (x1 : Vec Ideal S128x128 .f32) (j : S5000x128.Idx) :
    Gen.k4_pay1 (F := Ideal) x0 x1 j
      = ∑ k : Fin 128, x0 (ix2 (⟨(j 0).val, idx2_lt0 j⟩ : Fin 5000) k) * x1 (ix2 k (⟨(j 1).val, idx2_lt1 j⟩ : Fin 128)) := by
  obtain ⟨r, q, rfl⟩ : ∃ (r : Fin 5000) (q : Fin 128), j = ix2 r q := ⟨j 0, j 1, eq_ix2 j⟩
  exact product4_apply x0 x1 r q

/-- The block index maps over the grid: the activations and the output move down the rows with the point, the
    weights stay. -/
theorem blockIndices4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- The activations' block at point `t` is rows `5000 t …` of the array. -/
theorem rowsBlock4 (c : Dev nD) (t : Fin cfg4.N) (y : S5000x128.Idx) (i : S100000x128.Idx)
    (h0 : (i 0).val = t.val * 5000 + (y 0).val) (h1 : (i 1).val = (y 1).val) :
    (Gen.iblk4 V c 0 t : Vec Ideal S5000x128 .f32) y = (V c main_v61 : S100000x128.Idx → EReal) i := by
  obtain ⟨e0, e1, -, -, -, -⟩ := blockIndices4 t
  unfold Gen.iblk4
  rw [View.read_apply]
  show V c main_v61 _ = V c main_v61 _
  congr 1
  funext a
  apply Fin.ext
  match a with
  | ⟨0, _⟩ => show win4_0.index t (0 : Fin 2) * 5000 + 1 * (y 0).val = (i 0).val; omega
  | ⟨1, _⟩ => show win4_0.index t (1 : Fin 2) * 128 + 1 * (y 1).val = (i 1).val; omega

/-- The weights' block at every point is the whole matrix. -/
theorem weightsBlock4 (c : Dev nD) (t : Fin cfg4.N) (y : S128x128.Idx) :
    (Gen.iblk4 V c 1 t : Vec Ideal S128x128 .f32) y = (V c main_arg4 : S128x128.Idx → EReal) y := by
  obtain ⟨-, -, e2, e3, -, -⟩ := blockIndices4 t
  unfold Gen.iblk4
  rw [View.read_apply]
  show V c main_arg4 _ = V c main_arg4 _
  congr 1
  funext a
  apply Fin.ext
  match a with
  | ⟨0, _⟩ => show win4_1.index t (0 : Fin 2) * 128 + 1 * (y 0).val = (y 0).val; omega
  | ⟨1, _⟩ => show win4_1.index t (1 : Fin 2) * 128 + 1 * (y 1).val = (y 1).val; omega

/-- What point `t` writes back is block `t` of the product of the two arrays as the region finds them. -/
theorem flushed4_eq (c : Dev nD) (t : Fin cfg4.N) :
    (Gen.dat4 (F := Ideal) V c).flushed 2 t
      = ((cfg4.win 2).blk t).view.read (Elt Ideal) (product4 (V c main_v61) (V c main_arg4)) := by
  show (cfg4.win 2).cut (grid4.coords t) ((Gen.dat4 V c).after 2 t) = _
  rw [Gen.after4_2]
  unfold Gen.out4_2
  rw [View.canon_unit_zero zeroOffsets4]
  simp only [View.ld_unit_zero (S := S5000x128) zeroOffsets4, View.ld_unit_zero (S := S128x128) zeroOffsets4]
  obtain ⟨-, -, -, -, e4, e5⟩ := blockIndices4 t
  funext j
  show Gen.k4_pay1 (F := Ideal) (Gen.iblk4 V c 0 t) (Gen.iblk4 V c 1 t) j
    = product4 (V c main_v61) (V c main_arg4) (((cfg4.win 2).blk t).view.emb j)
  refine (blockProduct4 _ _ j).trans ?_
  unfold product4
  refine Finset.sum_congr rfl fun k _ => ?_
  congr 1
  · refine rowsBlock4 V c t _ _ ?_ rfl
    show (((cfg4.win 2).blk t).view.emb j 0).val = t.val * 5000 + (j 0).val
    show win4_2.index t (0 : Fin 2) * 5000 + 1 * (j 0).val = t.val * 5000 + (j 0).val
    omega
  · refine (weightsBlock4 V c t _).trans ?_
    congr 1
    funext a
    apply Fin.ext
    match a with
    | ⟨0, _⟩ => rfl
    | ⟨1, _⟩ => show (j 1).val = win4_2.index t (1 : Fin 2) * 128 + 1 * (j 1).val; omega

/-- An index of the output array is in point `t`'s block iff each coordinate is in the block's range on its axis. -/
theorem mem_block4 (t : Fin cfg4.N) (i : S100000x128.Idx) :
    i ∈ ((cfg4.win 2).blk t).view.set ↔ ∀ a : Fin 2, win4_2.index t a * S5000x128.size a ≤ (i a).val
      ∧ (i a).val < win4_2.index t a * S5000x128.size a + S5000x128.size a := by
  show i ∈ ((View.whole main_v62).slice (win4_2.rect t)).set ↔ _
  rw [View.set_slice_whole, Rect.mem_set_unit]
  exact Iff.rfl

/-- Every entry of the output array is written: row `r` by the point `r / 5000`. -/
theorem covered4 (i : S100000x128.Idx) :
    ∃ t : Fin cfg4.N, (cfg4.win 2).flush t = true ∧ i ∈ ((cfg4.win 2).blk t).view.set := by
  have hi0 : (i 0).val < 100000 := idx2_lt0 i
  have hi1 : (i 1).val < 128 := idx2_lt1 i
  have hN : cfg4.N = 20 := Gen.N_4
  obtain ⟨t, ht⟩ : ∃ t : Fin cfg4.N, t.val = (i 0).val / 5000 := ⟨⟨(i 0).val / 5000, by rw [hN]; omega⟩, rfl⟩
  obtain ⟨-, -, -, -, e4, e5⟩ := blockIndices4 t
  refine ⟨t, Gen.flush4_2 t, ?_⟩
  rw [mem_block4]
  intro a
  match a with
  | ⟨0, _⟩ =>
    show win4_2.index t (0 : Fin 2) * 5000 ≤ (i 0).val ∧ (i 0).val < win4_2.index t (0 : Fin 2) * 5000 + 5000
    omega
  | ⟨1, _⟩ =>
    show win4_2.index t (1 : Fin 2) * 128 ≤ (i 1).val ∧ (i 1).val < win4_2.index t (1 : Fin 2) * 128 + 128
    omega

/-- The output array after the region: the product of the activations and the weights as the region finds them. -/
theorem matmul4_array (c : Dev nD) :
    (Gen.dat4 (F := Ideal) V c).arrAt 2 cfg4.N = product4 (V c main_v61) (V c main_arg4) :=
  (Gen.dat4 (F := Ideal) V c).arrAt_eq_of_cover 2 (product4 (V c main_v61) (V c main_arg4))
    (fun t _ => flushed4_eq V c t) covered4

/-- The output array after the region at `(p, q)`: `∑ k, x (p, k) · w (k, q)`, the sum and the products those of the
    extended reals. -/
theorem matmul4 (c : Dev nD) (p : Fin 100000) (q : Fin 128) :
    (Gen.dat4 (F := Ideal) V c).arrAt 2 cfg4.N (ix2 p q)
      = Finset.sum (M := EReal) Finset.univ fun k : Fin 128 =>
          HMul.hMul (α := EReal) (β := EReal) (γ := EReal) (V c main_v61 (ix2 p k)) (V c main_arg4 (ix2 k q)) :=
  (congrFun (matmul4_array V c) (ix2 p q)).trans rfl

/-- The same with the two arrays the region finds named: for `a` the activations and `w` the weights at the region's
    entry, the output array ends at `∑ k, a (p, k) · w (k, q)`. -/
theorem matmul4_of (c : Dev nD) (a : S100000x128.Idx → EReal) (w : S128x128.Idx → EReal)
    (ha : V c main_v61 = a) (hw : V c main_arg4 = w) (p : Fin 100000) (q : Fin 128) :
    (Gen.dat4 (F := Ideal) V c).arrAt 2 cfg4.N (ix2 p q) = (∑ k : Fin 128, a (ix2 p k) * w (ix2 k q) : EReal) := by
  subst ha hw
  exact matmul4 V c p q

end Cert.KernelIdeal.RegionValue

end
-- ==== Proof.LibRowsProduct.lean ====
/-
  Two small facts about `[m, k]` arrays, at the ideal values where a product is an exact sum.

  A one-row matrix broadcast down `a` rows has at `(p, q)` the row's entry `q`.  The matrix product that contracts the
  SECOND axis of both operands — `A · Bᵀ` for `A : [m, k]`, `B : [n, k]` — into a zero accumulator has at `(a, b)` the
  sum over `c` of `A (a, c) · B (b, c)`.
-/
import Idealize.ShloMosaic.Lib.Pipeline.Value
import Idealize.ShloMosaic.Lib.ValueLayout
import Idealize.ShloMosaic.Lib.ValueIdx
import Idealize.ShloMosaic.PureOps.Ideal.Laws

noncomputable section

namespace Cert.RowsProduct

open Idealize.ShloMosaic Idealize.ShloMosaic.ValueIdx

/-- A `[1, n]` array broadcast to `[a, n]` reads, at `(p, q)`, the operand's one row at `q`. -/
theorem broadcastTo_1n_an_apply {α : Type} {a n : ℕ} (v : (⟨2, ![1, n]⟩ : Shape).Idx → α)
    (h : (⟨2, ![1, n]⟩ : Shape).Broadcasts ⟨2, ![a, n]⟩) (p : Fin a) (q : Fin n) :
    broadcastTo ⟨2, ![a, n]⟩ v h (ix2 p q) = v (ix2 (0 : Fin 1) q) := by
  refine broadcastTo_apply v h (ix2 p q) (ix2 (0 : Fin 1) q) fun ax => ?_
  match ax with
  | ⟨0, _⟩ => rfl
  | ⟨1, _⟩ =>
    show q.val = if n = 1 then 0 else q.val
    split
    · have := q.isLt; omega
    · rfl

/-- `A · Bᵀ` into the zero accumulator, read at `(a, b)`: the sum over the shared second coordinate of the products. -/
theorem matmul_nt_apply {m n k : ℕ} {φ₁ φ₂ : FTy}
    (w : DotDims.WF ⟨2, ![m, k]⟩ ⟨2, ![n, k]⟩ ⟨2, ![m, n]⟩ [1] [1] [0] [0] [] [])
    (prec : Option ContractPrecision) (A : FVec Ideal ⟨2, ![m, k]⟩ φ₁) (B : FVec Ideal ⟨2, ![n, k]⟩ φ₂) (a : Fin m) (b : Fin n) :
    FloatOps.matmul (⟨[1], [1], [0], [0], [], [], w⟩ : DotDims _ _ _) prec A B (constant _ .f32 0x00000000#32) (ix2 a b)
      = ∑ c : Fin k, A (ix2 a c) * B (ix2 b c) := by
  rw [Ideal.matmul_constant_zero_apply,
    ← Equiv.sum_comp (contrEquiv1 (⟨[1], [1], [0], [0], [], [], w⟩ : DotDims _ _ _) k rfl rfl).symm]
  refine Finset.sum_congr rfl fun c _ => ?_
  have c2 := contrEquiv1_symm_val
    (⟨[1], [1], [0], [0], [], [], w⟩ : DotDims ⟨2, ![m, k]⟩ ⟨2, ![n, k]⟩ ⟨2, ![m, n]⟩) k rfl rfl c
  have l2 : (⟨[1], [1], [0], [0], [], [], w⟩ : DotDims ⟨2, ![m, k]⟩ ⟨2, ![n, k]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![m, k]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

end Cert.RowsProduct

end
-- ==== Proof.BiasReluRegion1.lean ====
/-
  The value of the rectified-bias region 1: what the output array holds once every grid point has written its block.

  The region walks the 100000 rows of a `[100000, 128]` array in 20 blocks of 5000 rows.  At each point the body reads
  a block `x` of the array and the whole bias row `b : [1, 128]`, and stores `max (x + b, 0)` with `b` repeated down the
  rows.  So the block written at point `t` is block `t` of ONE function of the two arrays as the region finds them,
  `(p, q) ↦ max (A (p, q) + b (0, q)) 0`; the 20 blocks tile the array (row `p` lies in block `p / 5000`), hence the
  array ends holding that function everywhere.  The contents `V` of the buffers at the region's entry stay a parameter.
-/
import proofs.«121035_j62242666053924_1_alg».proof.Proof.Gen.KernelIdeal.Frame
import proofs.«121035_j62242666053924_1_alg».proof.Proof.LibRowsProduct
import proofs.«121035_j62242666053924_1_alg».proof.Proof.Spec
import Idealize.ShloMosaic.Lib.Pipeline.Value

noncomputable section

namespace Cert.KernelIdeal.RegionValue

open Idealize.ShloMosaic Idealize.ShloMosaic.ValueIdx Cert.KernelIdeal Cert.KernelIdeal.Gen
open Idealize.ShloMosaic.TcCoe
open Idealize.ShloMosaic.Pipeline (Dat)

variable (V : (c : Dev nD) → (b : Ref sig .tc) → Buf (Elt Ideal) ((c : Thread nD τ).loc b))

/-- The two zero offsets of a whole-block access, as the constant function. -/
theorem zeroOffsets1 : (![0, 0] : Fin 2 → Nat) = fun _ => 0 := funext fun a => by fin_cases a <;> rfl

/-- The body's result at row `r`, lane `q` of a block: the block's entry plus the bias row's entry `q`, rectified. The two
    same-shape casts are the identity, the row broadcast reads row 0, and the rest is entrywise. -/
theorem pay1_apply (x0 : Vec Ideal S5000x128 .f32) (x1 : Vec Ideal S1x128 .f32) (r : Fin 5000) (q : Fin 128) :
    Gen.k1_pay1 (F := Ideal) x0 x1 (ix2 r q) = Cert.Spec.biasRelu (x0 (ix2 r q)) (x1 (ix2 (0 : Fin 1) q)) := by
  unfold Gen.k1_pay1
  rw [maximumf_apply, addf_apply, broadcast_apply, shapeCast_self, shapeCast_self,
    Cert.RowsProduct.broadcastTo_1n_an_apply]
  rfl

/-- The array the region leaves: entry `(p, q)` is the input array's entry plus the bias row's entry `q`, rectified. -/
def biasReluArr1 (a0 : S100000x128.Idx → EReal) (a1 : S1x128.Idx → EReal) : S100000x128.Idx → EReal :=
  fun i => Cert.Spec.biasRelu (a0 i) (a1 (ix2 (0 : Fin 1) (⟨(i 1).val, idx2_lt1 i⟩ : Fin 128)))

/-- The block index maps over the 20 grid points: the row blocks of the input and of the output move with the point,
    the bias row stays at block `(0, 0)`. -/
theorem idx_facts1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point `t` writes back is block `t` of `biasReluArr1` of the two arrays as the region finds them: an element of a
    block sits in its array, on each axis, at block index × block size + its coordinate inside the block, and the input
    block and the output block of a point have the same block index. -/
theorem flushed1_eq (c : Dev nD) (t : Fin cfg1.N) :
    (Gen.dat1 (F := Ideal) V c).flushed 2 t
      = ((cfg1.win 2).blk t).view.read (Elt Ideal) (biasReluArr1 (V c main_v43) (V c main_v44)) := by
  show (cfg1.win 2).cut (grid1.coords t) ((Gen.dat1 V c).after 2 t) = _
  rw [Gen.after1_2]
  unfold Gen.out1_2
  rw [View.canon_unit_zero zeroOffsets1]
  simp only [View.ld_unit_zero (S := S5000x128) zeroOffsets1, View.ld_unit_zero (S := S1x128) zeroOffsets1]
  funext j
  obtain ⟨r, q, rfl⟩ : ∃ (r : Fin 5000) (q : Fin 128), j = ix2 r q := ⟨j 0, j 1, eq_ix2 j⟩
  obtain ⟨e00, e01, e10, e11, e20, e21⟩ := idx_facts1 t
  show Gen.k1_pay1 (Gen.iblk1 V c 0 t) (Gen.iblk1 V c 1 t) (ix2 r q)
      = biasReluArr1 (V c main_v43) (V c main_v44) (((cfg1.win 2).blk t).view.emb (ix2 r q))
  refine (pay1_apply _ _ r q).trans ?_
  unfold biasReluArr1
  refine congrArg₂ Cert.Spec.biasRelu ?_ ?_
  · show V c main_v43 (((cfg1.win 0).blk t).view.emb (ix2 r q)) = V c main_v43 (((cfg1.win 2).blk t).view.emb (ix2 r q))
    refine congrArg (V c main_v43) ?_
    funext a; apply Fin.ext
    match a with
    | ⟨0, _⟩ => show win1_0.index t (0 : Fin 2) * 5000 + 1 * r.val = win1_2.index t (0 : Fin 2) * 5000 + 1 * r.val; omega
    | ⟨1, _⟩ => show win1_0.index t (1 : Fin 2) * 128 + 1 * q.val = win1_2.index t (1 : Fin 2) * 128 + 1 * q.val; omega
  · show V c main_v44 (((cfg1.win 1).blk t).view.emb (ix2 (0 : Fin 1) q)) = V c main_v44 _
    refine congrArg (V c main_v44) ?_
    funext a; apply Fin.ext
    match a with
    | ⟨0, _⟩ => show win1_1.index t (0 : Fin 2) * 1 + 1 * 0 = 0; omega
    | ⟨1, _⟩ => show win1_1.index t (1 : Fin 2) * 128 + 1 * q.val = win1_2.index t (1 : Fin 2) * 128 + 1 * q.val; omega

/-- An index of the array is in point `t`'s block iff each coordinate is in the block's range on its axis. -/
theorem mem_blk1 (t : Fin cfg1.N) (i : S100000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v45).slice (win1_2.rect t)).set ↔ _
  rw [View.set_slice_whole, Rect.mem_set_unit]
  exact Iff.rfl

/-- Every index of the array is in the block of the point its row falls in: row `p` is in block `p / 5000`. -/
theorem cover1 (i : S100000x128.Idx) :
    ∃ t : Fin cfg1.N, (cfg1.win 2).flush t = true ∧ i ∈ ((cfg1.win 2).blk t).view.set := by
  have hi0 : (i 0).val < 100000 := idx2_lt0 i
  have hi1 : (i 1).val < 128 := idx2_lt1 i
  have hN : cfg1.N = 20 := Gen.N_1
  obtain ⟨t, ht⟩ : ∃ t : Fin cfg1.N, t.val = (i 0).val / 5000 := ⟨⟨(i 0).val / 5000, by omega⟩, rfl⟩
  obtain ⟨-, -, -, -, e20, e21⟩ := idx_facts1 t
  refine ⟨t, Gen.flush1_2 t, ?_⟩
  rw [mem_blk1]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 128 ≤ (i 1).val ∧ (i 1).val < win1_2.index t (1 : Fin 2) * 128 + 128; omega

/-- After the region the output array holds, at `(p, q)`, the input array's entry plus the bias row's entry `q`,
    rectified: the blocks written are the blocks of one function and they cover the array. -/
theorem biasRelu1 (c : Dev nD) (p : Fin 100000) (q : Fin 128) :
    (Gen.dat1 (F := Ideal) V c).arrAt 2 cfg1.N (ix2 p q)
      = Cert.Spec.biasRelu (V c main_v43 (ix2 p q)) (V c main_v44 (ix2 (0 : Fin 1) q)) :=
  congrFun ((Gen.dat1 (F := Ideal) V c).arrAt_eq_of_cover 2 (biasReluArr1 (V c main_v43) (V c main_v44))
    (fun t _ => flushed1_eq V c t) cover1) (ix2 p q)

end Cert.KernelIdeal.RegionValue

end
-- ==== Proof.BiasReluRegion3.lean ====
/-
  The value of the rectified-bias region 3: what the output array holds once every grid point has written its block.

  The region walks the 100000 rows of a `[100000, 128]` array in 20 blocks of 5000 rows.  At each point the body reads
  a block `x` of the array and the whole bias row `b : [1, 128]`, and stores `max (x + b, 0)` with `b` repeated down the
  rows.  So the block written at point `t` is block `t` of ONE function of the two arrays as the region finds them,
  `(p, q) ↦ max (A (p, q) + b (0, q)) 0`; the 20 blocks tile the array (row `p` lies in block `p / 5000`), hence the
  array ends holding that function everywhere.  The contents `V` of the buffers at the region's entry stay a parameter.
-/
import proofs.«121035_j62242666053924_1_alg».proof.Proof.Gen.KernelIdeal.Frame
import proofs.«121035_j62242666053924_1_alg».proof.Proof.LibRowsProduct
import proofs.«121035_j62242666053924_1_alg».proof.Proof.Spec
import Idealize.ShloMosaic.Lib.Pipeline.Value

noncomputable section

namespace Cert.KernelIdeal.RegionValue

open Idealize.ShloMosaic Idealize.ShloMosaic.ValueIdx Cert.KernelIdeal Cert.KernelIdeal.Gen
open Idealize.ShloMosaic.TcCoe
open Idealize.ShloMosaic.Pipeline (Dat)

variable (V : (c : Dev nD) → (b : Ref sig .tc) → Buf (Elt Ideal) ((c : Thread nD τ).loc b))

/-- The two zero offsets of a whole-block access, as the constant function. -/
theorem zeroOffsets3 : (![0, 0] : Fin 2 → Nat) = fun _ => 0 := funext fun a => by fin_cases a <;> rfl

/-- The body's result at row `r`, lane `q` of a block: the block's entry plus the bias row's entry `q`, rectified. The two
    same-shape casts are the identity, the row broadcast reads row 0, and the rest is entrywise. -/
theorem pay3_apply (x0 : Vec Ideal S5000x128 .f32) (x1 : Vec Ideal S1x128 .f32) (r : Fin 5000) (q : Fin 128) :
    Gen.k3_pay1 (F := Ideal) x0 x1 (ix2 r q) = Cert.Spec.biasRelu (x0 (ix2 r q)) (x1 (ix2 (0 : Fin 1) q)) := by
  unfold Gen.k3_pay1
  rw [maximumf_apply, addf_apply, broadcast_apply, shapeCast_self, shapeCast_self,
    Cert.RowsProduct.broadcastTo_1n_an_apply]
  rfl

/-- The array the region leaves: entry `(p, q)` is the input array's entry plus the bias row's entry `q`, rectified. -/
def biasReluArr3 (a0 : S100000x128.Idx → EReal) (a1 : S1x128.Idx → EReal) : S100000x128.Idx → EReal :=
  fun i => Cert.Spec.biasRelu (a0 i) (a1 (ix2 (0 : Fin 1) (⟨(i 1).val, idx2_lt1 i⟩ : Fin 128)))

/-- The block index maps over the 20 grid points: the row blocks of the input and of the output move with the point,
    the bias row stays at block `(0, 0)`. -/
theorem idx_facts3 : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What point `t` writes back is block `t` of `biasReluArr3` of the two arrays as the region finds them: an element of a
    block sits in its array, on each axis, at block index × block size + its coordinate inside the block, and the input
    block and the output block of a point have the same block index. -/
theorem flushed3_eq (c : Dev nD) (t : Fin cfg3.N) :
    (Gen.dat3 (F := Ideal) V c).flushed 2 t
      = ((cfg3.win 2).blk t).view.read (Elt Ideal) (biasReluArr3 (V c main_v59) (V c main_v60)) := by
  show (cfg3.win 2).cut (grid3.coords t) ((Gen.dat3 V c).after 2 t) = _
  rw [Gen.after3_2]
  unfold Gen.out3_2
  rw [View.canon_unit_zero zeroOffsets3]
  simp only [View.ld_unit_zero (S := S5000x128) zeroOffsets3, View.ld_unit_zero (S := S1x128) zeroOffsets3]
  funext j
  obtain ⟨r, q, rfl⟩ : ∃ (r : Fin 5000) (q : Fin 128), j = ix2 r q := ⟨j 0, j 1, eq_ix2 j⟩
  obtain ⟨e00, e01, e10, e11, e20, e21⟩ := idx_facts3 t
  show Gen.k3_pay1 (Gen.iblk3 V c 0 t) (Gen.iblk3 V c 1 t) (ix2 r q)
      = biasReluArr3 (V c main_v59) (V c main_v60) (((cfg3.win 2).blk t).view.emb (ix2 r q))
  refine (pay3_apply _ _ r q).trans ?_
  unfold biasReluArr3
  refine congrArg₂ Cert.Spec.biasRelu ?_ ?_
  · show V c main_v59 (((cfg3.win 0).blk t).view.emb (ix2 r q)) = V c main_v59 (((cfg3.win 2).blk t).view.emb (ix2 r q))
    refine congrArg (V c main_v59) ?_
    funext a; apply Fin.ext
    match a with
    | ⟨0, _⟩ => show win3_0.index t (0 : Fin 2) * 5000 + 1 * r.val = win3_2.index t (0 : Fin 2) * 5000 + 1 * r.val; omega
    | ⟨1, _⟩ => show win3_0.index t (1 : Fin 2) * 128 + 1 * q.val = win3_2.index t (1 : Fin 2) * 128 + 1 * q.val; omega
  · show V c main_v60 (((cfg3.win 1).blk t).view.emb (ix2 (0 : Fin 1) q)) = V c main_v60 _
    refine congrArg (V c main_v60) ?_
    funext a; apply Fin.ext
    match a with
    | ⟨0, _⟩ => show win3_1.index t (0 : Fin 2) * 1 + 1 * 0 = 0; omega
    | ⟨1, _⟩ => show win3_1.index t (1 : Fin 2) * 128 + 1 * q.val = win3_2.index t (1 : Fin 2) * 128 + 1 * q.val; omega

/-- An index of the array is in point `t`'s block iff each coordinate is in the block's range on its axis. -/
theorem mem_blk3 (t : Fin cfg3.N) (i : S100000x128.Idx) :
    i ∈ ((cfg3.win 2).blk t).view.set ↔ ∀ a : Fin 2, win3_2.index t a * S5000x128.size a ≤ (i a).val ∧ (i a).val < win3_2.index t a * S5000x128.size a + S5000x128.size a := by
  show i ∈ ((View.whole main_v61).slice (win3_2.rect t)).set ↔ _
  rw [View.set_slice_whole, Rect.mem_set_unit]
  exact Iff.rfl

/-- Every index of the array is in the block of the point its row falls in: row `p` is in block `p / 5000`. -/
theorem cover3 (i : S100000x128.Idx) :
    ∃ t : Fin cfg3.N, (cfg3.win 2).flush t = true ∧ i ∈ ((cfg3.win 2).blk t).view.set := by
  have hi0 : (i 0).val < 100000 := idx2_lt0 i
  have hi1 : (i 1).val < 128 := idx2_lt1 i
  have hN : cfg3.N = 20 := Gen.N_3
  obtain ⟨t, ht⟩ : ∃ t : Fin cfg3.N, t.val = (i 0).val / 5000 := ⟨⟨(i 0).val / 5000, by omega⟩, rfl⟩
  obtain ⟨-, -, -, -, e20, e21⟩ := idx_facts3 t
  refine ⟨t, Gen.flush3_2 t, ?_⟩
  rw [mem_blk3]
  intro a
  match a with
  | ⟨0, _⟩ => show win3_2.index t (0 : Fin 2) * 5000 ≤ (i 0).val ∧ (i 0).val < win3_2.index t (0 : Fin 2) * 5000 + 5000; omega
  | ⟨1, _⟩ => show win3_2.index t (1 : Fin 2) * 128 ≤ (i 1).val ∧ (i 1).val < win3_2.index t (1 : Fin 2) * 128 + 128; omega

/-- After the region the output array holds, at `(p, q)`, the input array's entry plus the bias row's entry `q`,
    rectified: the blocks written are the blocks of one function and they cover the array. -/
theorem biasRelu3 (c : Dev nD) (p : Fin 100000) (q : Fin 128) :
    (Gen.dat3 (F := Ideal) V c).arrAt 2 cfg3.N (ix2 p q)
      = Cert.Spec.biasRelu (V c main_v59 (ix2 p q)) (V c main_v60 (ix2 (0 : Fin 1) q)) :=
  congrFun ((Gen.dat3 (F := Ideal) V c).arrAt_eq_of_cover 2 (biasReluArr3 (V c main_v59) (V c main_v60))
    (fun t _ => flushed3_eq V c t) cover3) (ix2 p q)

end Cert.KernelIdeal.RegionValue

end
-- ==== Proof.LibBroadcast.lean ====
/-
  Broadcasts of a single column, read at an index, and the two small re-layouts of a vector as a matrix.

  An `[a, 1]` array broadcast to `[a, b]` has at `(p, c)` the column's entry `p`.  A vector of length `n` re-laid as a
  `[1, n]` row or as an `[n, 1]` column keeps its entries in order.
-/
import Idealize.ShloMosaic.Lib.Pipeline.Value
import Idealize.ShloMosaic.Lib.ValueLayout
import Idealize.ShloMosaic.Lib.ValueIdx

noncomputable section

namespace Cert.Layout

open Idealize.ShloMosaic Idealize.ShloMosaic.ValueIdx

variable {α : Type}

/-- An `[a, 1]` array broadcast to `[a, b]` reads, at `(p, c)`, the operand's one column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector re-laid as a one-row matrix: entry `(0, q)` is entry `q`. -/
theorem shapeCast_row_apply {n : ℕ} (v : (⟨1, ![n]⟩ : Shape).Idx → α) (h : (⟨1, ![n]⟩ : Shape).ShapeCasts ⟨2, ![1, n]⟩) (q : Fin n) :
    shapeCast (⟨2, ![1, n]⟩ : Shape) v h (ix2 (0 : Fin 1) q) = v (ix1 q) := by
  refine shapeCast_apply v h (ix2 (0 : Fin 1) q) (ix1 q) ?_
  rw [Shape.rowMajor_val_two, Shape.rowMajor_val_one]
  show q.val = 0 * n + q.val
  omega

/-- A vector re-laid as a one-column matrix: entry `(p, 0)` is entry `p`. -/
theorem shapeCast_col_apply {n : ℕ} (v : (⟨1, ![n]⟩ : Shape).Idx → α) (h : (⟨1, ![n]⟩ : Shape).ShapeCasts ⟨2, ![n, 1]⟩) (p : Fin n) :
    shapeCast (⟨2, ![n, 1]⟩ : Shape) v h (ix2 p (0 : Fin 1)) = v (ix1 p) := by
  refine shapeCast_apply v h (ix2 p (0 : Fin 1)) (ix1 p) ?_
  rw [Shape.rowMajor_val_two, Shape.rowMajor_val_one]
  show p.val = p.val * 1 + 0
  omega

end Cert.Layout

end
-- ==== Proof.LogSoftmaxRegion5.lean ====
/-
  The value of the last region: a rectified bias followed by a log-softmax along each row of 128 entries.

  The region walks the 100000 rows of a `[100000, 128]` array in 20 blocks of 5000 rows.  At each point the body reads
  a block `x` and the whole bias row `b : [1, 128]`, forms `h = max (x + b, 0)`, takes each row's maximum `M` (a fold of
  `max` from `-∞`), shifts the row by it, sums the exponentials of the shifted row, and stores
  `(h − M) − log (∑ exp (h − M))`.  Every step is either entrywise or along one row, so the block written at point `t` is
  block `t` of ONE function of the two arrays as the region finds them — at `(p, q)` the log-softmax, at `q`, of row `p`
  of the rectified biased array.  The 20 blocks tile the array (row `p` lies in block `p / 5000`), hence the array ends
  holding that function everywhere.  The contents `V` of the buffers at the region's entry stay a parameter.
-/
import proofs.«121035_j62242666053924_1_alg».proof.Proof.Gen.KernelIdeal.Frame
import proofs.«121035_j62242666053924_1_alg».proof.Proof.LibRowsProduct
import proofs.«121035_j62242666053924_1_alg».proof.Proof.LibBroadcast
import proofs.«121035_j62242666053924_1_alg».proof.Proof.LibRowFolds
import proofs.«121035_j62242666053924_1_alg».proof.Proof.Spec
import Idealize.ShloMosaic.Lib.Pipeline.Value

noncomputable section

namespace Cert.KernelIdeal.RegionValue

open Idealize.ShloMosaic Idealize.ShloMosaic.ValueIdx Cert.KernelIdeal Cert.KernelIdeal.Gen
open Idealize.ShloMosaic.TcCoe
open Idealize.ShloMosaic.Pipeline (Dat)

variable (V : (c : Dev nD) → (b : Ref sig .tc) → Buf (Elt Ideal) ((c : Thread nD τ).loc b))

/-- The two zero offsets of a whole-block access, as the constant function. -/
theorem zeroOffsets5 : (![0, 0] : Fin 2 → Nat) = fun _ => 0 := funext fun a => by fin_cases a <;> rfl

/-! ## The body's arithmetic in three steps -/

/-- Step 1: the block plus the bias row repeated down the rows, rectified. -/
def rectBlock5 (x0 : Vec Ideal S5000x128 .f32) (x1 : Vec Ideal S1x128 .f32) : FVec Ideal S5000x128 .f32 :=
  maximumf (addf (shapeCast S5000x128 x0 shapeCasts_S5000x128_S5000x128)
      (broadcastTo S5000x128 (shapeCast S1x128 x1 shapeCasts_S1x128_S1x128) broadcasts_S1x128_S5000x128))
    (broadcast S5000x128 (Scalar.ofBits .f32 0x00000000#32 : Ideal .f32))

/-- Step 2: each row shifted by its maximum (the lane maximum from the word of `-∞`, laid as a column and repeated
    along the lanes). -/
def shiftBlock5 (h : FVec Ideal S5000x128 .f32) : FVec Ideal S5000x128 .f32 :=
  subf h (broadcastTo S5000x128
    (shapeCast S5000x1 (multiReduction (F := Ideal) .maximumf [1] S5000 h 0xFF800000#32 reduces_S5000x128_S5000 (.inl rfl) rfl)
      shapeCasts_S5000_S5000x1) broadcasts_S5000x1_S5000x128)

/-- Step 3: each row minus the logarithm of the sum of its exponentials (the lane sum from zero, laid as a column,
    its logarithm repeated along the lanes). -/
def logNormBlock5 (s : FVec Ideal S5000x128 .f32) : FVec Ideal S5000x128 .f32 :=
  subf s (broadcastTo S5000x128
    (log (shapeCast S5000x1 (multiReduction (F := Ideal) .add [1] S5000 (exp s) 0x00000000#32 reduces_S5000x128_S5000 (.inl rfl) rfl)
      shapeCasts_S5000_S5000x1)) broadcasts_S5000x1_S5000x128)

/-- The body's result is the three steps in turn. -/
theorem pay5_eq (x0 : Vec Ideal S5000x128 .f32) (x1 : Vec Ideal S1x128 .f32) :
    Gen.k5_pay1 (F := Ideal) x0 x1 = logNormBlock5 (shiftBlock5 (rectBlock5 x0 x1)) := rfl

/-- Step 1 at row `r`, lane `q`: the block's entry plus the bias row's entry `q`, rectified. -/
theorem rectBlock5_apply (x0 : Vec Ideal S5000x128 .f32) (x1 : Vec Ideal S1x128 .f32) (r : Fin 5000) (q : Fin 128) :
    rectBlock5 x0 x1 (ix2 r q) = Cert.Spec.biasRelu (x0 (ix2 r q)) (x1 (ix2 (0 : Fin 1) q)) := by
  unfold rectBlock5
  rw [maximumf_apply, addf_apply, broadcast_apply, shapeCast_self, shapeCast_self,
    Cert.RowsProduct.broadcastTo_1n_an_apply]
  rfl

/-- Step 2 at row `r`, lane `k`: the entry minus its row's maximum. -/
theorem shiftBlock5_apply (h : FVec Ideal S5000x128 .f32) (r : Fin 5000) (k : Fin 128) :
    shiftBlock5 h (ix2 r k) = h (ix2 r k) - Cert.Spec.rowMax (fun k' => h (ix2 r k')) := by
  unfold shiftBlock5
  rw [subf_apply, Cert.Layout.broadcastTo_a1_ab_apply, Cert.Layout.shapeCast_col_apply]
  refine congrArg (h (ix2 r k) - ·) ?_
  exact Cert.RowFolds.laneMax_apply h 0xFF800000#32 reduces_S5000x128_S5000 (.inl rfl) rfl r

/-- Step 3 at row `r`, lane `q`: the entry minus the logarithm of the sum of the row's exponentials; the zero
    accumulator word of the lane sum drops, the sum being exact. -/
theorem logNormBlock5_apply (s : FVec Ideal S5000x128 .f32) (r : Fin 5000) (q : Fin 128) :
    logNormBlock5 s (ix2 r q) = s (ix2 r q) - Ideal.log (∑ k : Fin 128, Ideal.exp (s (ix2 r k))) := by
  unfold logNormBlock5
  rw [subf_apply, Cert.Layout.broadcastTo_a1_ab_apply]
  refine congrArg (s (ix2 r q) - ·) ?_
  show Ideal.log (shapeCast S5000x1 (multiReduction (F := Ideal) .add [1] S5000 (exp s) 0x00000000#32 reduces_S5000x128_S5000 (.inl rfl) rfl)
      shapeCasts_S5000_S5000x1 (ix2 r (0 : Fin 1))) = _
  rw [Cert.Layout.shapeCast_col_apply]
  refine congrArg Ideal.log ?_
  exact Cert.RowFolds.laneSum_apply (exp s) 0x00000000#32 reduces_S5000x128_S5000 (.inl rfl) rfl r

/-- The body's result at row `r`, lane `q` of a block: the log-softmax, at `q`, of the rectified biased row `r`. -/
theorem pay5_apply (x0 : Vec Ideal S5000x128 .f32) (x1 : Vec Ideal S1x128 .f32) (r : Fin 5000) (q : Fin 128) :
    Gen.k5_pay1 (F := Ideal) x0 x1 (ix2 r q)
      = Cert.Spec.logSoftmax (fun k => Cert.Spec.biasRelu (x0 (ix2 r k)) (x1 (ix2 (0 : Fin 1) k))) q := by
  rw [pay5_eq, logNormBlock5_apply]
  simp only [shiftBlock5_apply, rectBlock5_apply]
  rfl

/-! ## From the blocks to the array -/

/-- The array the region leaves: entry `(p, q)` is the log-softmax, at `q`, of row `p` of the input array with the bias
    row added and rectified. -/
def logSoftmaxArr5 (a0 : S100000x128.Idx → EReal) (a1 : S1x128.Idx → EReal) : S100000x128.Idx → EReal :=
  fun i => Cert.Spec.logSoftmax
    (fun k => Cert.Spec.biasRelu (a0 (ix2 (⟨(i 0).val, idx2_lt0 i⟩ : Fin 100000) k)) (a1 (ix2 (0 : Fin 1) k)))
    (⟨(i 1).val, idx2_lt1 i⟩ : Fin 128)

/-- The block index maps over the 20 grid points: the row blocks of the input and of the output move with the point,
    the bias row stays at block `(0, 0)`. -/
theorem idx_facts5 : ∀ t : Fin cfg5.N,
    win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

/-- What point `t` writes back is block `t` of `logSoftmaxArr5` of the two arrays as the region finds them: an element of
    a block sits in its array, on each axis, at block index × block size + its coordinate inside the block; the input
    block and the output block of a point have the same block index, and a block holds its rows whole. -/
theorem flushed5_eq (c : Dev nD) (t : Fin cfg5.N) :
    (Gen.dat5 (F := Ideal) V c).flushed 2 t
      = ((cfg5.win 2).blk t).view.read (Elt Ideal) (logSoftmaxArr5 (V c main_v75) (V c main_v76)) := by
  show (cfg5.win 2).cut (grid5.coords t) ((Gen.dat5 V c).after 2 t) = _
  rw [Gen.after5_2]
  unfold Gen.out5_2
  rw [View.canon_unit_zero zeroOffsets5]
  simp only [View.ld_unit_zero (S := S5000x128) zeroOffsets5, View.ld_unit_zero (S := S1x128) zeroOffsets5]
  funext j
  obtain ⟨r, q, rfl⟩ : ∃ (r : Fin 5000) (q : Fin 128), j = ix2 r q := ⟨j 0, j 1, eq_ix2 j⟩
  obtain ⟨e00, e01, e10, e11, e20, e21⟩ := idx_facts5 t
  show Gen.k5_pay1 (Gen.iblk5 V c 0 t) (Gen.iblk5 V c 1 t) (ix2 r q)
      = logSoftmaxArr5 (V c main_v75) (V c main_v76) (((cfg5.win 2).blk t).view.emb (ix2 r q))
  refine (pay5_apply _ _ r q).trans ?_
  unfold logSoftmaxArr5
  refine congrArg₂ Cert.Spec.logSoftmax (funext fun k => congrArg₂ Cert.Spec.biasRelu ?_ ?_) (Fin.ext ?_)
  · show V c main_v75 (((cfg5.win 0).blk t).view.emb (ix2 r k)) = V c main_v75 _
    refine congrArg (V c main_v75) ?_
    funext a; apply Fin.ext
    match a with
    | ⟨0, _⟩ => show win5_0.index t (0 : Fin 2) * 5000 + 1 * r.val = win5_2.index t (0 : Fin 2) * 5000 + 1 * r.val; omega
    | ⟨1, _⟩ => show win5_0.index t (1 : Fin 2) * 128 + 1 * k.val = k.val; omega
  · show V c main_v76 (((cfg5.win 1).blk t).view.emb (ix2 (0 : Fin 1) k)) = V c main_v76 _
    refine congrArg (V c main_v76) ?_
    funext a; apply Fin.ext
    match a with
    | ⟨0, _⟩ => show win5_1.index t (0 : Fin 2) * 1 + 1 * 0 = 0; omega
    | ⟨1, _⟩ => show win5_1.index t (1 : Fin 2) * 128 + 1 * k.val = k.val; omega
  · show q.val = win5_2.index t (1 : Fin 2) * 128 + 1 * q.val
    omega

/-- An index of the array is in point `t`'s block iff each coordinate is in the block's range on its axis. -/
theorem mem_blk5 (t : Fin cfg5.N) (i : S100000x128.Idx) :
    i ∈ ((cfg5.win 2).blk t).view.set ↔ ∀ a : Fin 2, win5_2.index t a * S5000x128.size a ≤ (i a).val ∧ (i a).val < win5_2.index t a * S5000x128.size a + S5000x128.size a := by
  show i ∈ ((View.whole main_v77).slice (win5_2.rect t)).set ↔ _
  rw [View.set_slice_whole, Rect.mem_set_unit]
  exact Iff.rfl

/-- Every index of the array is in the block of the point its row falls in: row `p` is in block `p / 5000`. -/
theorem cover5 (i : S100000x128.Idx) :
    ∃ t : Fin cfg5.N, (cfg5.win 2).flush t = true ∧ i ∈ ((cfg5.win 2).blk t).view.set := by
  have hi0 : (i 0).val < 100000 := idx2_lt0 i
  have hi1 : (i 1).val < 128 := idx2_lt1 i
  have hN : cfg5.N = 20 := Gen.N_5
  obtain ⟨t, ht⟩ : ∃ t : Fin cfg5.N, t.val = (i 0).val / 5000 := ⟨⟨(i 0).val / 5000, by omega⟩, rfl⟩
  obtain ⟨-, -, -, -, e20, e21⟩ := idx_facts5 t
  refine ⟨t, Gen.flush5_2 t, ?_⟩
  rw [mem_blk5]
  intro a
  match a with
  | ⟨0, _⟩ => show win5_2.index t (0 : Fin 2) * 5000 ≤ (i 0).val ∧ (i 0).val < win5_2.index t (0 : Fin 2) * 5000 + 5000; omega
  | ⟨1, _⟩ => show win5_2.index t (1 : Fin 2) * 128 ≤ (i 1).val ∧ (i 1).val < win5_2.index t (1 : Fin 2) * 128 + 128; omega

/-- After the region the output array holds, at `(p, q)`, the log-softmax, at `q`, of row `p` of the input array with the
    bias row added and rectified: the blocks written are the blocks of one function and they cover the array. -/
theorem logSoftmax5 (c : Dev nD) (p : Fin 100000) (q : Fin 128) :
    (Gen.dat5 (F := Ideal) V c).arrAt 2 cfg5.N (ix2 p q)
      = Cert.Spec.logSoftmax (fun k => Cert.Spec.biasRelu (V c main_v75 (ix2 p k)) (V c main_v76 (ix2 (0 : Fin 1) k))) q :=
  congrFun ((Gen.dat5 (F := Ideal) V c).arrAt_eq_of_cover 2 (logSoftmaxArr5 (V c main_v75) (V c main_v76))
    (fun t _ => flushed5_eq V c t) cover5) (ix2 p q)

end Cert.KernelIdeal.RegionValue

end
-- ==== Proof.KernelValue.lean ====
/-
  The idealized kernel's result array is the reference's last stage function of the arguments.

  The program's contents are followed from boundary to boundary.  A dense-product region leaves the plain product of
  its two input arrays, entry (p, q) being the sum over k of x (p, k) · w (k, q) — the reference's product at the same
  index.  A host stretch between regions is one aggregation round of the region's output with the edge lists and
  weights — the same function the reference applies.  An epilogue region leaves, entry by entry, the rectified biased
  value, the last one followed by the row's log-softmax — the reference's stages at the same index.  So each boundary's
  freshly written array is the reference's stage function of the arguments, through to the result.
-/
import proofs.«121035_j62242666053924_1_alg».proof.Proof.HostChain
import proofs.«121035_j62242666053924_1_alg».proof.Proof.RefStages
import proofs.«121035_j62242666053924_1_alg».proof.Proof.MatmulRegion0
import proofs.«121035_j62242666053924_1_alg».proof.Proof.MatmulRegion2
import proofs.«121035_j62242666053924_1_alg».proof.Proof.MatmulRegion4
import proofs.«121035_j62242666053924_1_alg».proof.Proof.BiasReluRegion1
import proofs.«121035_j62242666053924_1_alg».proof.Proof.BiasReluRegion3
import proofs.«121035_j62242666053924_1_alg».proof.Proof.LogSoftmaxRegion5
import proofs.«121035_j62242666053924_1_alg».proof.Proof.LibBroadcast

set_option maxRecDepth 16384

noncomputable section

namespace Cert.KernelIdeal.Chain

open Idealize.ShloMosaic Idealize.ShloMosaic.ValueIdx Idealize.ShloMosaic.TcCoe Idealize.SL.Sem
open Cert.KernelIdeal Cert.KernelIdeal.Gen Cert.KernelIdeal.RegionValue
open Cert.ReferenceIdeal.ReadP (val_main_v30 val_main_v43 val_main_v47 val_main_v48 val_main_v61 val_main_v65 val_main_v66
  val_main_v79 val_main_v84)
open Cert.ReferenceIdeal.Stages

variable (m : (ℓ : Loc nD τ sig) → Buf (Elt Ideal) ℓ) (ρ : Dev nD → PrngReg) (c : Dev nD)

/-- Region 0 leaves the product of the node features with the first weight matrix. -/
theorem out_v30 : W4 (F := Ideal) m ρ c (Proc.devRef .tc main_v30) = val_main_v30 (F := Ideal) (m ((c : Thread nD τ).loc main_arg0)) (m ((c : Thread nD τ).loc main_arg2)) := by
  rw [W4_out]
  funext i
  obtain ⟨p, q, rfl⟩ : ∃ (p : Fin 100000) (q : Fin 128), i = ix2 p q := ⟨i 0, i 1, eq_ix2 i⟩
  exact (matmul0_of (V3 m ρ) c _ _ (W3_arg0 m ρ c) (W3_arg2 m ρ c) p q).trans (v30_apply _ _ p q).symm

/-- The first aggregation round. -/
theorem out_v43 : W5 (F := Ideal) m ρ c (Proc.devRef .tc main_v43) = val_main_v43 (F := Ideal) (m ((c : Thread nD τ).loc main_arg0)) (m ((c : Thread nD τ).loc main_arg1)) (m ((c : Thread nD τ).loc main_arg2)) := by
  rw [W5_agg, out_v30]
  exact (v43_eq _ _ _).symm

/-- Region 1 leaves the first layer's rectified output. -/
theorem out_v47 : W6 (F := Ideal) m ρ c (Proc.devRef .tc main_v45) = val_main_v47 (F := Ideal) (m ((c : Thread nD τ).loc main_arg0)) (m ((c : Thread nD τ).loc main_arg1)) (m ((c : Thread nD τ).loc main_arg2)) (m ((c : Thread nD τ).loc main_arg5)) := by
  rw [W6_out]
  funext i
  obtain ⟨p, q, rfl⟩ : ∃ (p : Fin 100000) (q : Fin 128), i = ix2 p q := ⟨i 0, i 1, eq_ix2 i⟩
  exact (biasRelu1 (V5 m ρ) c p q).trans
    ((congrArg₂ Cert.Spec.biasRelu (congrFun (out_v43 m ρ c) (ix2 p q))
        ((congrFun (W5_bias m ρ c) (ix2 (0 : Fin 1) q)).trans (Cert.Layout.shapeCast_row_apply _ _ q))).trans
      (v47_apply _ _ _ _ p q).symm)

/-- Region 2 leaves its product with the second weight matrix. -/
theorem out_v48 : W7 (F := Ideal) m ρ c (Proc.devRef .tc main_v46) = val_main_v48 (F := Ideal) (m ((c : Thread nD τ).loc main_arg0)) (m ((c : Thread nD τ).loc main_arg1)) (m ((c : Thread nD τ).loc main_arg2)) (m ((c : Thread nD τ).loc main_arg3)) (m ((c : Thread nD τ).loc main_arg5)) := by
  rw [W7_out]
  funext i
  obtain ⟨p, q, rfl⟩ : ∃ (p : Fin 100000) (q : Fin 128), i = ix2 p q := ⟨i 0, i 1, eq_ix2 i⟩
  exact (matmul2_of (V6 m ρ) c _ _ (out_v47 m ρ c) (W6_arg3 m ρ c) p q).trans (v48_apply _ _ _ _ _ p q).symm

/-- The second aggregation round. -/
theorem out_v61 : W8 (F := Ideal) m ρ c (Proc.devRef .tc main_v59) = val_main_v61 (F := Ideal) (m ((c : Thread nD τ).loc main_arg0)) (m ((c : Thread nD τ).loc main_arg1)) (m ((c : Thread nD τ).loc main_arg2)) (m ((c : Thread nD τ).loc main_arg3)) (m ((c : Thread nD τ).loc main_arg5)) := by
  rw [W8_agg, out_v48]
  exact (v61_eq _ _ _ _ _).symm

/-- Region 3 leaves the second layer's rectified output. -/
theorem out_v65 : W9 (F := Ideal) m ρ c (Proc.devRef .tc main_v61) = val_main_v65 (F := Ideal) (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) := by
  rw [W9_out]
  funext i
  obtain ⟨p, q, rfl⟩ : ∃ (p : Fin 100000) (q : Fin 128), i = ix2 p q := ⟨i 0, i 1, eq_ix2 i⟩
  exact (biasRelu3 (V8 m ρ) c p q).trans
    ((congrArg₂ Cert.Spec.biasRelu (congrFun (out_v61 m ρ c) (ix2 p q))
        ((congrFun (W8_bias m ρ c) (ix2 (0 : Fin 1) q)).trans (Cert.Layout.shapeCast_row_apply _ _ q))).trans
      (v65_apply _ _ _ _ _ _ p q).symm)

/-- Region 4 leaves its product with the third weight matrix. -/
theorem out_v66 : W10 (F := Ideal) m ρ c (Proc.devRef .tc main_v62) = val_main_v66 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  rw [W10_out]
  funext i
  obtain ⟨p, q, rfl⟩ : ∃ (p : Fin 100000) (q : Fin 128), i = ix2 p q := ⟨i 0, i 1, eq_ix2 i⟩
  exact (matmul4_of (V9 m ρ) c _ _ (out_v65 m ρ c) (W9_arg4 m ρ c) p q).trans (v66_apply _ _ _ _ _ _ _ p q).symm

/-- The third aggregation round. -/
theorem out_v79 : W11 (F := Ideal) m ρ c (Proc.devRef .tc main_v75) = val_main_v79 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  rw [W11_agg, out_v66]
  exact (v79_eq _ _ _ _ _ _ _).symm

/-- Region 5 leaves the log-softmax of the third layer's rectified rows: the reference's result. -/
theorem out_v84 : W12 (F := Ideal) m ρ c (Proc.devRef .tc main_v77) = val_main_v84 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  rw [W12_out]
  funext i
  obtain ⟨p, q, rfl⟩ : ∃ (p : Fin 100000) (q : Fin 128), i = ix2 p q := ⟨i 0, i 1, eq_ix2 i⟩
  exact (logSoftmax5 (V11 m ρ) c p q).trans
    ((congrArg (fun h => Cert.Spec.logSoftmax h q) (funext fun k =>
        congrArg₂ Cert.Spec.biasRelu (congrFun (out_v79 m ρ c) (ix2 p k))
          ((congrFun (W11_bias m ρ c) (ix2 (0 : Fin 1) k)).trans (Cert.Layout.shapeCast_row_apply _ _ k)))).trans
      (v84_apply _ _ _ _ _ _ _ _ p q).symm)

end Cert.KernelIdeal.Chain

end
-- ==== Proof.RefValue.lean ====
/-
  The reference program's run, read stage by stage.

  The program is a straight line of 124 host operations: the graph's preprocessing (edge lists with self loops, the
  symmetric normalisation), then three rounds of "dense product, neighbourhood aggregation, bias, rectifier", then the
  log-softmax of the rows.  The line is cut at the ends of those stages; the contents after each stage are read at the
  few buffers the next stage uses, each as the stage function of the arguments; buffers a stage does not write keep
  their contents.  The result buffer then holds the last stage function of the eight arguments.
-/
import proofs.«121035_j62242666053924_1_alg».proof.Proof.RefRun
import proofs.«121035_j62242666053924_1_alg».proof.Proof.RefRead
import proofs.«121035_j62242666053924_1_alg».proof.Proof.LibHostKept

set_option maxRecDepth 16384

noncomputable section

namespace Cert.ReferenceIdeal.RunValue

open Idealize.ShloMosaic Idealize.ShloMosaic.TcCoe Idealize.SL.Sem Idealize.ShloMosaic.StableHlo
open Cert.ReferenceIdeal Cert.ReferenceIdeal.Gen Cert.ReferenceIdeal.ValueP Cert.ReferenceIdeal.ReadP

variable {F : FTy → Type} [FloatOps F]

/-! ## The line cut into its stages -/

/-- The edge lists with self loops, the degrees and their inverse square roots. -/
abbrev seg0a : List (HloOp τ sig (Elt F)) :=
  [ nullary main_v0 (iotaInDim S100000 32 0),
    unary main_arg1 main_v1 ((extractStridedSlice S1x1600000 ![0, 0] · slices_S2x1600000_S1x1600000_0_0) : (⟨S2x1600000, .i32⟩ : BufTy).Contents (Elt F) → (⟨S1x1600000, .i32⟩ : BufTy).Contents (Elt F)),
    reshape main_v1 main_v2 rfl shapeCasts_S1x1600000_S1600000,
    binary main_v2 main_v0 main_v3 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    unary main_arg1 main_v4 ((extractStridedSlice S1x1600000 ![1, 0] · slices_S2x1600000_S1x1600000_1_0) : (⟨S2x1600000, .i32⟩ : BufTy).Contents (Elt F) → (⟨S1x1600000, .i32⟩ : BufTy).Contents (Elt F)),
    reshape main_v4 main_v5 rfl shapeCasts_S1x1600000_S1600000,
    binary main_v5 main_v0 main_v6 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    nullary main_cst (constant S_ .f32 0x3F800000#32),
    unary main_cst main_v7 (broadcastInDim S1700000 ![] bcast_S_S1700000 : (⟨S_, .f32⟩ : BufTy).Contents (Elt F) → (⟨S1700000, .f32⟩ : BufTy).Contents (Elt F)),
    nullary main_cst_0 (constant S_ .f32 0x00000000#32),
    unary main_cst_0 main_v8 (broadcastInDim S100000 ![] bcast_S_S100000 : (⟨S_, .f32⟩ : BufTy).Contents (Elt F) → (⟨S100000, .f32⟩ : BufTy).Contents (Elt F)),
    unary main_v6 main_v9 (broadcastInDim S1700000x1 ![0] bcast_S1700000_S1700000x1_0 : (⟨S1700000, .i32⟩ : BufTy).Contents (Elt F) → (⟨S1700000x1, .i32⟩ : BufTy).Contents (Elt F)),
    ternary main_v8 main_v9 main_v7 main_v10 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    nullary main_cst_1 (constant S_ .f32 0x00000000#32),
    unary main_cst_1 main_v11 (broadcastInDim S100000 ![] bcast_S_S100000 : (⟨S_, .f32⟩ : BufTy).Contents (Elt F) → (⟨S100000, .f32⟩ : BufTy).Contents (Elt F)),
    binary main_v10 main_v11 main_v12 (cmpf .ogt : (⟨S100000, .f32⟩ : BufTy).Contents (Elt F) → (⟨S100000, .f32⟩ : BufTy).Contents (Elt F) → (⟨S100000, .i1⟩ : BufTy).Contents (Elt F)),
    unary main_v10 main_v13 (Host.rsqrt : (⟨S100000, .f32⟩ : BufTy).Contents (Elt F) → (⟨S100000, .f32⟩ : BufTy).Contents (Elt F)),
    nullary main_cst_2 (constant S_ .f32 0x00000000#32),
    TRef.unary (TRef.of (T := ⟨S_, .f32⟩) main_cst_2) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v12) (TRef.of (T := ⟨S100000, .f32⟩) main_v13) (TRef.of (T := ⟨S100000, .f32⟩) main_call0_v1) (TRef.of (T := ⟨S100000, .f32⟩) main_v14) select ]
/-- The edge weights: the product of the two endpoint factors. -/
abbrev seg0b : List (HloOp τ sig (Elt F)) :=
  [ nullary main_c (constantI S_ 32 0#32),
    unary main_c main_v15 (broadcastInDim S1700000 ![] bcast_S_S1700000 : (⟨S_, .i32⟩ : BufTy).Contents (Elt F) → (⟨S1700000, .i32⟩ : BufTy).Contents (Elt F)),
    binary main_v3 main_v15 main_v16 (cmpi .slt : (⟨S1700000, .i32⟩ : BufTy).Contents (Elt F) → (⟨S1700000, .i32⟩ : BufTy).Contents (Elt F) → (⟨S1700000, .i1⟩ : BufTy).Contents (Elt F)),
    nullary main_c_3 (constantI S_ 32 100000#32),
    unary main_c_3 main_v17 (broadcastInDim S1700000 ![] bcast_S_S1700000 : (⟨S_, .i32⟩ : BufTy).Contents (Elt F) → (⟨S1700000, .i32⟩ : BufTy).Contents (Elt F)),
    binary main_v3 main_v17 main_v18 (addi : (⟨S1700000, .i32⟩ : BufTy).Contents (Elt F) → (⟨S1700000, .i32⟩ : BufTy).Contents (Elt F) → (⟨S1700000, .i32⟩ : BufTy).Contents (Elt F)),
    ternary main_v16 main_v18 main_v3 main_v19 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v19 main_v20 (broadcastInDim S1700000x1 ![0] bcast_S1700000_S1700000x1_0 : (⟨S1700000, .i32⟩ : BufTy).Contents (Elt F) → (⟨S1700000x1, .i32⟩ : BufTy).Contents (Elt F)),
    binary main_v14 main_v20 main_v21 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    nullary main_c_4 (constantI S_ 32 0#32),
    unary main_c_4 main_v22 (broadcastInDim S1700000 ![] bcast_S_S1700000 : (⟨S_, .i32⟩ : BufTy).Contents (Elt F) → (⟨S1700000, .i32⟩ : BufTy).Contents (Elt F)),
    binary main_v6 main_v22 main_v23 (cmpi .slt : (⟨S1700000, .i32⟩ : BufTy).Contents (Elt F) → (⟨S1700000, .i32⟩ : BufTy).Contents (Elt F) → (⟨S1700000, .i1⟩ : BufTy).Contents (Elt F)),
    nullary main_c_5 (constantI S_ 32 100000#32),
    unary main_c_5 main_v24 (broadcastInDim S1700000 ![] bcast_S_S1700000 : (⟨S_, .i32⟩ : BufTy).Contents (Elt F) → (⟨S1700000, .i32⟩ : BufTy).Contents (Elt F)),
    binary main_v6 main_v24 main_v25 (addi : (⟨S1700000, .i32⟩ : BufTy).Contents (Elt F) → (⟨S1700000, .i32⟩ : BufTy).Contents (Elt F) → (⟨S1700000, .i32⟩ : BufTy).Contents (Elt F)),
    ternary main_v23 main_v25 main_v6 main_v26 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v26 main_v27 (broadcastInDim S1700000x1 ![0] bcast_S1700000_S1700000x1_0 : (⟨S1700000, .i32⟩ : BufTy).Contents (Elt F) → (⟨S1700000x1, .i32⟩ : BufTy).Contents (Elt F)),
    binary main_v14 main_v27 main_v28 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v21 main_v28 main_v29 (mulf : (⟨S1700000, .f32⟩ : BufTy).Contents (Elt F) → (⟨S1700000, .f32⟩ : BufTy).Contents (Elt F) → (⟨S1700000, .f32⟩ : BufTy).Contents (Elt F)) ]
/-- The first round. -/
abbrev seg1 : List (HloOp τ sig (Elt F)) :=
  [ binary main_arg0 main_arg2 main_v30 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    nullary main_c_6 (constantI S_ 32 0#32),
    unary main_c_6 main_v31 (broadcastInDim S1700000 ![] bcast_S_S1700000 : (⟨S_, .i32⟩ : BufTy).Contents (Elt F) → (⟨S1700000, .i32⟩ : BufTy).Contents (Elt F)),
    binary main_v3 main_v31 main_v32 (cmpi .slt : (⟨S1700000, .i32⟩ : BufTy).Contents (Elt F) → (⟨S1700000, .i32⟩ : BufTy).Contents (Elt F) → (⟨S1700000, .i1⟩ : BufTy).Contents (Elt F)),
    nullary main_c_7 (constantI S_ 32 100000#32),
    unary main_c_7 main_v33 (broadcastInDim S1700000 ![] bcast_S_S1700000 : (⟨S_, .i32⟩ : BufTy).Contents (Elt F) → (⟨S1700000, .i32⟩ : BufTy).Contents (Elt F)),
    binary main_v3 main_v33 main_v34 (addi : (⟨S1700000, .i32⟩ : BufTy).Contents (Elt F) → (⟨S1700000, .i32⟩ : BufTy).Contents (Elt F) → (⟨S1700000, .i32⟩ : BufTy).Contents (Elt F)),
    ternary main_v32 main_v34 main_v3 main_v35 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v35 main_v36 (broadcastInDim S1700000x1 ![0] bcast_S1700000_S1700000x1_0 : (⟨S1700000, .i32⟩ : BufTy).Contents (Elt F) → (⟨S1700000x1, .i32⟩ : BufTy).Contents (Elt F)),
    binary main_v30 main_v36 main_v37 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    unary main_v29 main_v38 (broadcastInDim S1700000x1 ![0] bcast_S1700000_S1700000x1_0 : (⟨S1700000, .f32⟩ : BufTy).Contents (Elt F) → (⟨S1700000x1, .f32⟩ : BufTy).Contents (Elt F)),
    unary main_v38 main_v39 (broadcastInDim S1700000x128 ![0, 1] bcast_S1700000x1_S1700000x128_0_1 : (⟨S1700000x1, .f32⟩ : BufTy).Contents (Elt F) → (⟨S1700000x128, .f32⟩ : BufTy).Contents (Elt F)),
    binary main_v37 main_v39 main_v40 (mulf : (⟨S1700000x128, .f32⟩ : BufTy).Contents (Elt F) → (⟨S1700000x128, .f32⟩ : BufTy).Contents (Elt F) → (⟨S1700000x128, .f32⟩ : BufTy).Contents (Elt F)),
    nullary main_cst_8 (constant S_ .f32 0x00000000#32),
    unary main_cst_8 main_v41 (broadcastInDim S100000x128 ![] bcast_S_S100000x128 : (⟨S_, .f32⟩ : BufTy).Contents (Elt F) → (⟨S100000x128, .f32⟩ : BufTy).Contents (Elt F)),
    unary main_v6 main_v42 (broadcastInDim S1700000x1 ![0] bcast_S1700000_S1700000x1_0 : (⟨S1700000, .i32⟩ : BufTy).Contents (Elt F) → (⟨S1700000x1, .i32⟩ : BufTy).Contents (Elt F)),
    ternary main_v41 main_v42 main_v40 main_v43 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)),
    unary main_arg5 main_v44 (broadcastInDim S1x128 ![1] bcast_S128_S1x128_1 : (⟨S128, .f32⟩ : BufTy).Contents (Elt F) → (⟨S1x128, .f32⟩ : BufTy).Contents (Elt F)),
    unary main_v44 main_v45 (broadcastInDim S100000x128 ![0, 1] bcast_S1x128_S100000x128_0_1 : (⟨S1x128, .f32⟩ : BufTy).Contents (Elt F) → (⟨S100000x128, .f32⟩ : BufTy).Contents (Elt F)),
    binary main_v43 main_v45 main_v46 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x128, .f32⟩) main_call1_v0) (broadcastInDim S100000x128 ![] bcast_S_S100000x128),
    TRef.binary (TRef.of (T := ⟨S100000x128, .f32⟩) main_v46) (TRef.of (T := ⟨S100000x128, .f32⟩) main_call1_v0) (TRef.of (T := ⟨S100000x128, .f32⟩) main_v47) maximumf ]
/-- The second round. -/
abbrev seg2 : List (HloOp τ sig (Elt F)) :=
  [ binary main_v47 main_arg3 main_v48 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    nullary main_c_9 (constantI S_ 32 0#32),
    unary main_c_9 main_v49 (broadcastInDim S1700000 ![] bcast_S_S1700000 : (⟨S_, .i32⟩ : BufTy).Contents (Elt F) → (⟨S1700000, .i32⟩ : BufTy).Contents (Elt F)),
    binary main_v3 main_v49 main_v50 (cmpi .slt : (⟨S1700000, .i32⟩ : BufTy).Contents (Elt F) → (⟨S1700000, .i32⟩ : BufTy).Contents (Elt F) → (⟨S1700000, .i1⟩ : BufTy).Contents (Elt F)),
    nullary main_c_10 (constantI S_ 32 100000#32),
    unary main_c_10 main_v51 (broadcastInDim S1700000 ![] bcast_S_S1700000 : (⟨S_, .i32⟩ : BufTy).Contents (Elt F) → (⟨S1700000, .i32⟩ : BufTy).Contents (Elt F)),
    binary main_v3 main_v51 main_v52 (addi : (⟨S1700000, .i32⟩ : BufTy).Contents (Elt F) → (⟨S1700000, .i32⟩ : BufTy).Contents (Elt F) → (⟨S1700000, .i32⟩ : BufTy).Contents (Elt F)),
    ternary main_v50 main_v52 main_v3 main_v53 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v53 main_v54 (broadcastInDim S1700000x1 ![0] bcast_S1700000_S1700000x1_0 : (⟨S1700000, .i32⟩ : BufTy).Contents (Elt F) → (⟨S1700000x1, .i32⟩ : BufTy).Contents (Elt F)),
    binary main_v48 main_v54 main_v55 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    unary main_v29 main_v56 (broadcastInDim S1700000x1 ![0] bcast_S1700000_S1700000x1_0 : (⟨S1700000, .f32⟩ : BufTy).Contents (Elt F) → (⟨S1700000x1, .f32⟩ : BufTy).Contents (Elt F)),
    unary main_v56 main_v57 (broadcastInDim S1700000x128 ![0, 1] bcast_S1700000x1_S1700000x128_0_1 : (⟨S1700000x1, .f32⟩ : BufTy).Contents (Elt F) → (⟨S1700000x128, .f32⟩ : BufTy).Contents (Elt F)),
    binary main_v55 main_v57 main_v58 (mulf : (⟨S1700000x128, .f32⟩ : BufTy).Contents (Elt F) → (⟨S1700000x128, .f32⟩ : BufTy).Contents (Elt F) → (⟨S1700000x128, .f32⟩ : BufTy).Contents (Elt F)),
    nullary main_cst_11 (constant S_ .f32 0x00000000#32),
    unary main_cst_11 main_v59 (broadcastInDim S100000x128 ![] bcast_S_S100000x128 : (⟨S_, .f32⟩ : BufTy).Contents (Elt F) → (⟨S100000x128, .f32⟩ : BufTy).Contents (Elt F)),
    unary main_v6 main_v60 (broadcastInDim S1700000x1 ![0] bcast_S1700000_S1700000x1_0 : (⟨S1700000, .i32⟩ : BufTy).Contents (Elt F) → (⟨S1700000x1, .i32⟩ : BufTy).Contents (Elt F)),
    ternary main_v59 main_v60 main_v58 main_v61 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)),
    unary main_arg6 main_v62 (broadcastInDim S1x128 ![1] bcast_S128_S1x128_1 : (⟨S128, .f32⟩ : BufTy).Contents (Elt F) → (⟨S1x128, .f32⟩ : BufTy).Contents (Elt F)),
    unary main_v62 main_v63 (broadcastInDim S100000x128 ![0, 1] bcast_S1x128_S100000x128_0_1 : (⟨S1x128, .f32⟩ : BufTy).Contents (Elt F) → (⟨S100000x128, .f32⟩ : BufTy).Contents (Elt F)),
    binary main_v61 main_v63 main_v64 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S100000x128, .f32⟩) main_call2_v0) (broadcastInDim S100000x128 ![] bcast_S_S100000x128),
    TRef.binary (TRef.of (T := ⟨S100000x128, .f32⟩) main_v64) (TRef.of (T := ⟨S100000x128, .f32⟩) main_call2_v0) (TRef.of (T := ⟨S100000x128, .f32⟩) main_v65) maximumf ]
/-- The third round. -/
abbrev seg3 : List (HloOp τ sig (Elt F)) :=
  [ binary main_v65 main_arg4 main_v66 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    nullary main_c_12 (constantI S_ 32 0#32),
    unary main_c_12 main_v67 (broadcastInDim S1700000 ![] bcast_S_S1700000 : (⟨S_, .i32⟩ : BufTy).Contents (Elt F) → (⟨S1700000, .i32⟩ : BufTy).Contents (Elt F)),
    binary main_v3 main_v67 main_v68 (cmpi .slt : (⟨S1700000, .i32⟩ : BufTy).Contents (Elt F) → (⟨S1700000, .i32⟩ : BufTy).Contents (Elt F) → (⟨S1700000, .i1⟩ : BufTy).Contents (Elt F)),
    nullary main_c_13 (constantI S_ 32 100000#32),
    unary main_c_13 main_v69 (broadcastInDim S1700000 ![] bcast_S_S1700000 : (⟨S_, .i32⟩ : BufTy).Contents (Elt F) → (⟨S1700000, .i32⟩ : BufTy).Contents (Elt F)),
    binary main_v3 main_v69 main_v70 (addi : (⟨S1700000, .i32⟩ : BufTy).Contents (Elt F) → (⟨S1700000, .i32⟩ : BufTy).Contents (Elt F) → (⟨S1700000, .i32⟩ : BufTy).Contents (Elt F)),
    ternary main_v68 main_v70 main_v3 main_v71 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v71 main_v72 (broadcastInDim S1700000x1 ![0] bcast_S1700000_S1700000x1_0 : (⟨S1700000, .i32⟩ : BufTy).Contents (Elt F) → (⟨S1700000x1, .i32⟩ : BufTy).Contents (Elt F)),
    binary main_v66 main_v72 main_v73 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    unary main_v29 main_v74 (broadcastInDim S1700000x1 ![0] bcast_S1700000_S1700000x1_0 : (⟨S1700000, .f32⟩ : BufTy).Contents (Elt F) → (⟨S1700000x1, .f32⟩ : BufTy).Contents (Elt F)),
    unary main_v74 main_v75 (broadcastInDim S1700000x128 ![0, 1] bcast_S1700000x1_S1700000x128_0_1 : (⟨S1700000x1, .f32⟩ : BufTy).Contents (Elt F) → (⟨S1700000x128, .f32⟩ : BufTy).Contents (Elt F)),
    binary main_v73 main_v75 main_v76 (mulf : (⟨S1700000x128, .f32⟩ : BufTy).Contents (Elt F) → (⟨S1700000x128, .f32⟩ : BufTy).Contents (Elt F) → (⟨S1700000x128, .f32⟩ : BufTy).Contents (Elt F)),
    nullary main_cst_14 (constant S_ .f32 0x00000000#32),
    unary main_cst_14 main_v77 (broadcastInDim S100000x128 ![] bcast_S_S100000x128 : (⟨S_, .f32⟩ : BufTy).Contents (Elt F) → (⟨S100000x128, .f32⟩ : BufTy).Contents (Elt F)),
    unary main_v6 main_v78 (broadcastInDim S1700000x1 ![0] bcast_S1700000_S1700000x1_0 : (⟨S1700000, .i32⟩ : BufTy).Contents (Elt F) → (⟨S1700000x1, .i32⟩ : BufTy).Contents (Elt F)),
    ternary main_v77 main_v78 main_v76 main_v79 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)),
    unary main_arg7 main_v80 (broadcastInDim S1x128 ![1] bcast_S128_S1x128_1 : (⟨S128, .f32⟩ : BufTy).Contents (Elt F) → (⟨S1x128, .f32⟩ : BufTy).Contents (Elt F)),
    unary main_v80 main_v81 (broadcastInDim S100000x128 ![0, 1] bcast_S1x128_S100000x128_0_1 : (⟨S1x128, .f32⟩ : BufTy).Contents (Elt F) → (⟨S100000x128, .f32⟩ : BufTy).Contents (Elt F)),
    binary main_v79 main_v81 main_v82 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S100000x128, .f32⟩) main_call3_v0) (broadcastInDim S100000x128 ![] bcast_S_S100000x128),
    TRef.binary (TRef.of (T := ⟨S100000x128, .f32⟩) main_v82) (TRef.of (T := ⟨S100000x128, .f32⟩) main_call3_v0) (TRef.of (T := ⟨S100000x128, .f32⟩) main_v83) maximumf ]
/-- The log-softmax of the rows, first step: the rows' maxima. -/
abbrev seg4a : List (HloOp τ sig (Elt F)) :=
  [ TRef.nullary (TRef.of (T := ⟨S_, .f32⟩) main_call4_cst) (constant S_ .f32 0xFF800000#32),
    TRef.binary (TRef.of (T := ⟨S100000x128, .f32⟩) main_v83) (TRef.of (T := ⟨S_, .f32⟩) main_call4_cst) (TRef.of (T := ⟨S100000, .f32⟩) main_call4_v0) (fun x v => Host.reduce FloatOps.maximumf x v reducesTo_S100000x128_S100000_d1 h_S_) ]
/-- The log-softmax of the rows, the rest: the rows shifted by their maxima, minus the logarithm of their summed
    exponentials. -/
abbrev seg4b : List (HloOp τ sig (Elt F)) :=
  [ TRef.nullary (TRef.of (T := ⟨S_, .f32⟩) main_call4_cst_0) (constant S_ .f32 0xFF800000#32),
    TRef.unary (TRef.of (T := ⟨S_, .f32⟩) main_call4_cst_0) (TRef.of (T := ⟨S100000, .f32⟩) main_call4_v1) (broadcastInDim S100000 ![] bcast_S_S100000),
    TRef.binary (TRef.of (T := ⟨S100000, .f32⟩) main_call4_v1) (TRef.of (T := ⟨S100000, .f32⟩) main_call4_v0) (TRef.of (T := ⟨S100000, .f32⟩) main_call4_v2) maximumf,
    TRef.unary (TRef.of (T := ⟨S100000, .f32⟩) main_call4_v2) (TRef.of (T := ⟨S100000x1, .f32⟩) main_call4_v3) (broadcastInDim S100000x1 ![0] bcast_S100000_S100000x1_0),
    TRef.unary (TRef.of (T := ⟨S100000x1, .f32⟩) main_call4_v3) (TRef.of (T := ⟨S100000x128, .f32⟩) main_call4_v4) (broadcastInDim S100000x128 ![0, 1] bcast_S100000x1_S100000x128_0_1),
    TRef.binary (TRef.of (T := ⟨S100000x128, .f32⟩) main_v83) (TRef.of (T := ⟨S100000x128, .f32⟩) main_call4_v4) (TRef.of (T := ⟨S100000x128, .f32⟩) main_call4_v5) subf,
    TRef.unary (TRef.of (T := ⟨S100000x128, .f32⟩) main_call4_v5) (TRef.of (T := ⟨S100000x128, .f32⟩) main_call4_v6) Host.exp,
    TRef.nullary (TRef.of (T := ⟨S_, .f32⟩) main_call4_cst_1) (constant S_ .f32 0x00000000#32),
    TRef.binary (TRef.of (T := ⟨S100000x128, .f32⟩) main_call4_v6) (TRef.of (T := ⟨S_, .f32⟩) main_call4_cst_1) (TRef.of (T := ⟨S100000, .f32⟩) main_call4_v7) (fun x v => Host.reduceAdd x v reducesTo_S100000x128_S100000_d1 h_S_),
    TRef.unary (TRef.of (T := ⟨S100000, .f32⟩) main_call4_v7) (TRef.of (T := ⟨S100000x1, .f32⟩) main_call4_v8) (broadcastInDim S100000x1 ![0] bcast_S100000_S100000x1_0),
    TRef.unary (TRef.of (T := ⟨S100000x1, .f32⟩) main_call4_v8) (TRef.of (T := ⟨S100000x1, .f32⟩) main_call4_v9) Host.log,
    TRef.unary (TRef.of (T := ⟨S100000x1, .f32⟩) main_call4_v9) (TRef.of (T := ⟨S100000x128, .f32⟩) main_call4_v10) (broadcastInDim S100000x128 ![0, 1] bcast_S100000x1_S100000x128_0_1),
    TRef.binary (TRef.of (T := ⟨S100000x128, .f32⟩) main_call4_v5) (TRef.of (T := ⟨S100000x128, .f32⟩) main_call4_v10) (TRef.of (T := ⟨S100000x128, .f32⟩) main_v84) subf ]

set_option maxRecDepth 65536 in
/-- The program's line is its stages one after the other. -/
theorem ops_split : (ops : List (HloOp τ sig (Elt F))) = seg0a ++ (seg0b ++ (seg1 ++ (seg2 ++ (seg3 ++ (seg4a ++ seg4b))))) := rfl

/-! ## What a stage does not write it keeps -/

theorem seg0a_keep_arg0 (V : Valuation τ sig (Elt F)) : after seg0a V (Proc.devRef .tc main_arg0) = V (Proc.devRef .tc main_arg0) := by host_kept seg0a
theorem seg0a_keep_arg2 (V : Valuation τ sig (Elt F)) : after seg0a V (Proc.devRef .tc main_arg2) = V (Proc.devRef .tc main_arg2) := by host_kept seg0a
theorem seg0a_keep_arg3 (V : Valuation τ sig (Elt F)) : after seg0a V (Proc.devRef .tc main_arg3) = V (Proc.devRef .tc main_arg3) := by host_kept seg0a
theorem seg0a_keep_arg4 (V : Valuation τ sig (Elt F)) : after seg0a V (Proc.devRef .tc main_arg4) = V (Proc.devRef .tc main_arg4) := by host_kept seg0a
theorem seg0a_keep_arg5 (V : Valuation τ sig (Elt F)) : after seg0a V (Proc.devRef .tc main_arg5) = V (Proc.devRef .tc main_arg5) := by host_kept seg0a
theorem seg0a_keep_arg6 (V : Valuation τ sig (Elt F)) : after seg0a V (Proc.devRef .tc main_arg6) = V (Proc.devRef .tc main_arg6) := by host_kept seg0a
theorem seg0a_keep_arg7 (V : Valuation τ sig (Elt F)) : after seg0a V (Proc.devRef .tc main_arg7) = V (Proc.devRef .tc main_arg7) := by host_kept seg0a
theorem seg0b_keep_v3 (V : Valuation τ sig (Elt F)) : after seg0b V (Proc.devRef .tc main_v3) = V (Proc.devRef .tc main_v3) := by host_kept seg0b
theorem seg0b_keep_v6 (V : Valuation τ sig (Elt F)) : after seg0b V (Proc.devRef .tc main_v6) = V (Proc.devRef .tc main_v6) := by host_kept seg0b
theorem seg0b_keep_arg0 (V : Valuation τ sig (Elt F)) : after seg0b V (Proc.devRef .tc main_arg0) = V (Proc.devRef .tc main_arg0) := by host_kept seg0b
theorem seg0b_keep_arg2 (V : Valuation τ sig (Elt F)) : after seg0b V (Proc.devRef .tc main_arg2) = V (Proc.devRef .tc main_arg2) := by host_kept seg0b
theorem seg0b_keep_arg3 (V : Valuation τ sig (Elt F)) : after seg0b V (Proc.devRef .tc main_arg3) = V (Proc.devRef .tc main_arg3) := by host_kept seg0b
theorem seg0b_keep_arg4 (V : Valuation τ sig (Elt F)) : after seg0b V (Proc.devRef .tc main_arg4) = V (Proc.devRef .tc main_arg4) := by host_kept seg0b
theorem seg0b_keep_arg5 (V : Valuation τ sig (Elt F)) : after seg0b V (Proc.devRef .tc main_arg5) = V (Proc.devRef .tc main_arg5) := by host_kept seg0b
theorem seg0b_keep_arg6 (V : Valuation τ sig (Elt F)) : after seg0b V (Proc.devRef .tc main_arg6) = V (Proc.devRef .tc main_arg6) := by host_kept seg0b
theorem seg0b_keep_arg7 (V : Valuation τ sig (Elt F)) : after seg0b V (Proc.devRef .tc main_arg7) = V (Proc.devRef .tc main_arg7) := by host_kept seg0b
theorem seg1_keep_v3 (V : Valuation τ sig (Elt F)) : after seg1 V (Proc.devRef .tc main_v3) = V (Proc.devRef .tc main_v3) := by host_kept seg1
theorem seg1_keep_v6 (V : Valuation τ sig (Elt F)) : after seg1 V (Proc.devRef .tc main_v6) = V (Proc.devRef .tc main_v6) := by host_kept seg1
theorem seg1_keep_v29 (V : Valuation τ sig (Elt F)) : after seg1 V (Proc.devRef .tc main_v29) = V (Proc.devRef .tc main_v29) := by host_kept seg1
theorem seg1_keep_arg3 (V : Valuation τ sig (Elt F)) : after seg1 V (Proc.devRef .tc main_arg3) = V (Proc.devRef .tc main_arg3) := by host_kept seg1
theorem seg1_keep_arg4 (V : Valuation τ sig (Elt F)) : after seg1 V (Proc.devRef .tc main_arg4) = V (Proc.devRef .tc main_arg4) := by host_kept seg1
theorem seg1_keep_arg6 (V : Valuation τ sig (Elt F)) : after seg1 V (Proc.devRef .tc main_arg6) = V (Proc.devRef .tc main_arg6) := by host_kept seg1
theorem seg1_keep_arg7 (V : Valuation τ sig (Elt F)) : after seg1 V (Proc.devRef .tc main_arg7) = V (Proc.devRef .tc main_arg7) := by host_kept seg1
theorem seg2_keep_v3 (V : Valuation τ sig (Elt F)) : after seg2 V (Proc.devRef .tc main_v3) = V (Proc.devRef .tc main_v3) := by host_kept seg2
theorem seg2_keep_v6 (V : Valuation τ sig (Elt F)) : after seg2 V (Proc.devRef .tc main_v6) = V (Proc.devRef .tc main_v6) := by host_kept seg2
theorem seg2_keep_v29 (V : Valuation τ sig (Elt F)) : after seg2 V (Proc.devRef .tc main_v29) = V (Proc.devRef .tc main_v29) := by host_kept seg2
theorem seg2_keep_arg4 (V : Valuation τ sig (Elt F)) : after seg2 V (Proc.devRef .tc main_arg4) = V (Proc.devRef .tc main_arg4) := by host_kept seg2
theorem seg2_keep_arg7 (V : Valuation τ sig (Elt F)) : after seg2 V (Proc.devRef .tc main_arg7) = V (Proc.devRef .tc main_arg7) := by host_kept seg2

/-! ## Each stage's result, from any contents holding the stage's inputs -/

theorem seg0a_src (V : Valuation τ sig (Elt F)) :
    after seg0a V (Proc.devRef .tc main_v3) = val_main_v3 (F := F) (V (Proc.devRef .tc main_arg1)) := by
  after_results_simp <;> rfl

theorem seg0a_dst (V : Valuation τ sig (Elt F)) :
    after seg0a V (Proc.devRef .tc main_v6) = val_main_v6 (F := F) (V (Proc.devRef .tc main_arg1)) := by
  after_results_simp <;> rfl

theorem seg0a_dis (V : Valuation τ sig (Elt F)) :
    after seg0a V (Proc.devRef .tc main_v14) = val_main_v14 (F := F) (V (Proc.devRef .tc main_arg1)) := by
  after_results_simp <;> rfl

theorem seg0b_nrm (V : Valuation τ sig (Elt F)) (x1 : (⟨S2x1600000, .i32⟩ : BufTy).Contents (Elt F))
    (h14 : V (Proc.devRef .tc main_v14) = val_main_v14 (F := F) x1) (h3 : V (Proc.devRef .tc main_v3) = val_main_v3 (F := F) x1)
    (h6 : V (Proc.devRef .tc main_v6) = val_main_v6 (F := F) x1) :
    after seg0b V (Proc.devRef .tc main_v29) = val_main_v29 (F := F) x1 := by
  after_results_simp
  rw [h14, h3, h6]
  rfl

theorem seg1_out (V : Valuation τ sig (Elt F)) (x0 : (⟨S100000x128, .f32⟩ : BufTy).Contents (Elt F)) (x1 : (⟨S2x1600000, .i32⟩ : BufTy).Contents (Elt F)) (x2 x3 x4 : (⟨S128x128, .f32⟩ : BufTy).Contents (Elt F)) (x5 x6 x7 : (⟨S128, .f32⟩ : BufTy).Contents (Elt F))
    (h0 : V (Proc.devRef .tc main_arg0) = x0) (h2 : V (Proc.devRef .tc main_arg2) = x2) (h5 : V (Proc.devRef .tc main_arg5) = x5)
    (hs : V (Proc.devRef .tc main_v3) = val_main_v3 (F := F) x1) (hd : V (Proc.devRef .tc main_v6) = val_main_v6 (F := F) x1)
    (hn : V (Proc.devRef .tc main_v29) = val_main_v29 (F := F) x1) :
    after seg1 V (Proc.devRef .tc main_v47) = val_main_v47 (F := F) x0 x1 x2 x5 := by
  after_results_simp
  rw [h0, h2, h5, hs, hd, hn]
  rfl

theorem seg2_out (V : Valuation τ sig (Elt F)) (x0 : (⟨S100000x128, .f32⟩ : BufTy).Contents (Elt F)) (x1 : (⟨S2x1600000, .i32⟩ : BufTy).Contents (Elt F)) (x2 x3 x4 : (⟨S128x128, .f32⟩ : BufTy).Contents (Elt F)) (x5 x6 x7 : (⟨S128, .f32⟩ : BufTy).Contents (Elt F))
    (hh : V (Proc.devRef .tc main_v47) = val_main_v47 (F := F) x0 x1 x2 x5) (h3 : V (Proc.devRef .tc main_arg3) = x3) (h6 : V (Proc.devRef .tc main_arg6) = x6)
    (hs : V (Proc.devRef .tc main_v3) = val_main_v3 (F := F) x1) (hd : V (Proc.devRef .tc main_v6) = val_main_v6 (F := F) x1)
    (hn : V (Proc.devRef .tc main_v29) = val_main_v29 (F := F) x1) :
    after seg2 V (Proc.devRef .tc main_v65) = val_main_v65 (F := F) x0 x1 x2 x3 x5 x6 := by
  after_results_simp
  rw [hh, h3, h6, hs, hd, hn]
  rfl

theorem seg3_out (V : Valuation τ sig (Elt F)) (x0 : (⟨S100000x128, .f32⟩ : BufTy).Contents (Elt F)) (x1 : (⟨S2x1600000, .i32⟩ : BufTy).Contents (Elt F)) (x2 x3 x4 : (⟨S128x128, .f32⟩ : BufTy).Contents (Elt F)) (x5 x6 x7 : (⟨S128, .f32⟩ : BufTy).Contents (Elt F))
    (hh : V (Proc.devRef .tc main_v65) = val_main_v65 (F := F) x0 x1 x2 x3 x5 x6) (h4 : V (Proc.devRef .tc main_arg4) = x4) (h7 : V (Proc.devRef .tc main_arg7) = x7)
    (hs : V (Proc.devRef .tc main_v3) = val_main_v3 (F := F) x1) (hd : V (Proc.devRef .tc main_v6) = val_main_v6 (F := F) x1)
    (hn : V (Proc.devRef .tc main_v29) = val_main_v29 (F := F) x1) :
    after seg3 V (Proc.devRef .tc main_v83) = val_main_v83 (F := F) x0 x1 x2 x3 x4 x5 x6 x7 := by
  after_results_simp
  rw [hh, h4, h7, hs, hd, hn]
  rfl

/-- The rows of `y` shifted by their maxima `r`, each maximum taken once more against `-∞`. -/
def shiftRows (y : (⟨S100000x128, .f32⟩ : BufTy).Contents (Elt F)) (r : (⟨S100000, .f32⟩ : BufTy).Contents (Elt F)) : (⟨S100000x128, .f32⟩ : BufTy).Contents (Elt F) :=
  subf y (broadcastInDim S100000x128 ![0, 1] bcast_S100000x1_S100000x128_0_1
    (broadcastInDim S100000x1 ![0] bcast_S100000_S100000x1_0
      (maximumf (broadcastInDim S100000 ![] bcast_S_S100000 (constant S_ .f32 0xFF800000#32)) r)))

/-- The log-softmax of the rows of `y` with row maxima `r`: the shifted rows minus the logarithm of their summed
    exponentials. -/
def logSoftmaxRows (y : (⟨S100000x128, .f32⟩ : BufTy).Contents (Elt F)) (r : (⟨S100000, .f32⟩ : BufTy).Contents (Elt F)) : (⟨S100000x128, .f32⟩ : BufTy).Contents (Elt F) :=
  subf (shiftRows y r) (broadcastInDim S100000x128 ![0, 1] bcast_S100000x1_S100000x128_0_1
    (Host.log (broadcastInDim S100000x1 ![0] bcast_S100000_S100000x1_0
      (Host.reduceAdd (Host.exp (shiftRows y r)) (constant S_ .f32 0x00000000#32) reducesTo_S100000x128_S100000_d1 h_S_))))

/-- The rows' maxima, folded from `-∞`. -/
def rowMaxima (y : (⟨S100000x128, .f32⟩ : BufTy).Contents (Elt F)) : (⟨S100000, .f32⟩ : BufTy).Contents (Elt F) :=
  Host.reduce FloatOps.maximumf y (constant S_ .f32 0xFF800000#32) reducesTo_S100000x128_S100000_d1 h_S_

/-- The reference's last stage is the log-softmax of the rows of the stage before it. -/
theorem val_main_v84_eq (x0 : (⟨S100000x128, .f32⟩ : BufTy).Contents (Elt F)) (x1 : (⟨S2x1600000, .i32⟩ : BufTy).Contents (Elt F)) (x2 x3 x4 : (⟨S128x128, .f32⟩ : BufTy).Contents (Elt F)) (x5 x6 x7 : (⟨S128, .f32⟩ : BufTy).Contents (Elt F)) :
    val_main_v84 (F := F) x0 x1 x2 x3 x4 x5 x6 x7
      = logSoftmaxRows (val_main_v83 (F := F) x0 x1 x2 x3 x4 x5 x6 x7) (rowMaxima (val_main_v83 (F := F) x0 x1 x2 x3 x4 x5 x6 x7)) := rfl

theorem seg4a_keep_v83 (V : Valuation τ sig (Elt F)) : after seg4a V (Proc.devRef .tc main_v83) = V (Proc.devRef .tc main_v83) := by host_kept seg4a

-- the row maxima are compared argument by argument, never opened (each is a fold over every index of the array)
attribute [local irreducible] Host.reduce in
theorem seg4a_out (V : Valuation τ sig (Elt F)) (y : (⟨S100000x128, .f32⟩ : BufTy).Contents (Elt F)) (hh : V (Proc.devRef .tc main_v83) = y) :
    after seg4a V (Proc.devRef .tc main_call4_v0) = rowMaxima y := by
  after_results_simp
  rw [hh]
  rfl

theorem seg4b_out (V : Valuation τ sig (Elt F)) (y : (⟨S100000x128, .f32⟩ : BufTy).Contents (Elt F)) (r : (⟨S100000, .f32⟩ : BufTy).Contents (Elt F))
    (hh : V (Proc.devRef .tc main_v83) = y) (hr : V (Proc.devRef .tc main_call4_v0) = r) :
    after seg4b V (Proc.devRef .tc main_v84) = logSoftmaxRows y r := by
  after_results_simp
  rw [hh, hr]
  rfl

/-! ## The whole line -/

variable (m : (ℓ : Loc nD τ sig) → Buf (Elt F) ℓ) (c : Dev nD)

/-- After the whole line the result buffer holds the last stage function of the eight arguments. -/
theorem out_eq :
    after ops (launchContents m c) (Proc.devRef .tc main_v84)
      = val_main_v84 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  rw [ops_split]
  simp only [after_append]
  -- the contents at the stage boundaries
  generalize hW : launchContents m c = W
  have w0 : W (Proc.devRef .tc main_arg0) = (m ((c.tc : Thread nD τ).loc main_arg0)) := by rw [← hW]
  have w1 : W (Proc.devRef .tc main_arg1) = (m ((c.tc : Thread nD τ).loc main_arg1)) := by rw [← hW]
  have w2 : W (Proc.devRef .tc main_arg2) = (m ((c.tc : Thread nD τ).loc main_arg2)) := by rw [← hW]
  have w3 : W (Proc.devRef .tc main_arg3) = (m ((c.tc : Thread nD τ).loc main_arg3)) := by rw [← hW]
  have w4 : W (Proc.devRef .tc main_arg4) = (m ((c.tc : Thread nD τ).loc main_arg4)) := by rw [← hW]
  have w5 : W (Proc.devRef .tc main_arg5) = (m ((c.tc : Thread nD τ).loc main_arg5)) := by rw [← hW]
  have w6 : W (Proc.devRef .tc main_arg6) = (m ((c.tc : Thread nD τ).loc main_arg6)) := by rw [← hW]
  have w7 : W (Proc.devRef .tc main_arg7) = (m ((c.tc : Thread nD τ).loc main_arg7)) := by rw [← hW]
  -- after the preprocessing's first part
  have a_s : after seg0a W (Proc.devRef .tc main_v3) = val_main_v3 (F := F) (m ((c.tc : Thread nD τ).loc main_arg1)) := (seg0a_src W).trans (by rw [w1])
  have a_d : after seg0a W (Proc.devRef .tc main_v6) = val_main_v6 (F := F) (m ((c.tc : Thread nD τ).loc main_arg1)) := (seg0a_dst W).trans (by rw [w1])
  have a_i : after seg0a W (Proc.devRef .tc main_v14) = val_main_v14 (F := F) (m ((c.tc : Thread nD τ).loc main_arg1)) := (seg0a_dis W).trans (by rw [w1])
  have a_0 : after seg0a W (Proc.devRef .tc main_arg0) = (m ((c.tc : Thread nD τ).loc main_arg0)) := (seg0a_keep_arg0 W).trans w0
  have a_2 : after seg0a W (Proc.devRef .tc main_arg2) = (m ((c.tc : Thread nD τ).loc main_arg2)) := (seg0a_keep_arg2 W).trans w2
  have a_3 : after seg0a W (Proc.devRef .tc main_arg3) = (m ((c.tc : Thread nD τ).loc main_arg3)) := (seg0a_keep_arg3 W).trans w3
  have a_4 : after seg0a W (Proc.devRef .tc main_arg4) = (m ((c.tc : Thread nD τ).loc main_arg4)) := (seg0a_keep_arg4 W).trans w4
  have a_5 : after seg0a W (Proc.devRef .tc main_arg5) = (m ((c.tc : Thread nD τ).loc main_arg5)) := (seg0a_keep_arg5 W).trans w5
  have a_6 : after seg0a W (Proc.devRef .tc main_arg6) = (m ((c.tc : Thread nD τ).loc main_arg6)) := (seg0a_keep_arg6 W).trans w6
  have a_7 : after seg0a W (Proc.devRef .tc main_arg7) = (m ((c.tc : Thread nD τ).loc main_arg7)) := (seg0a_keep_arg7 W).trans w7
  generalize after seg0a W = Wa at *
  -- after its second part
  have b_n : after seg0b Wa (Proc.devRef .tc main_v29) = val_main_v29 (F := F) (m ((c.tc : Thread nD τ).loc main_arg1)) := seg0b_nrm Wa _ a_i a_s a_d
  have b_s : after seg0b Wa (Proc.devRef .tc main_v3) = val_main_v3 (F := F) (m ((c.tc : Thread nD τ).loc main_arg1)) := (seg0b_keep_v3 Wa).trans a_s
  have b_d : after seg0b Wa (Proc.devRef .tc main_v6) = val_main_v6 (F := F) (m ((c.tc : Thread nD τ).loc main_arg1)) := (seg0b_keep_v6 Wa).trans a_d
  have b_0 : after seg0b Wa (Proc.devRef .tc main_arg0) = (m ((c.tc : Thread nD τ).loc main_arg0)) := (seg0b_keep_arg0 Wa).trans a_0
  have b_2 : after seg0b Wa (Proc.devRef .tc main_arg2) = (m ((c.tc : Thread nD τ).loc main_arg2)) := (seg0b_keep_arg2 Wa).trans a_2
  have b_3 : after seg0b Wa (Proc.devRef .tc main_arg3) = (m ((c.tc : Thread nD τ).loc main_arg3)) := (seg0b_keep_arg3 Wa).trans a_3
  have b_4 : after seg0b Wa (Proc.devRef .tc main_arg4) = (m ((c.tc : Thread nD τ).loc main_arg4)) := (seg0b_keep_arg4 Wa).trans a_4
  have b_5 : after seg0b Wa (Proc.devRef .tc main_arg5) = (m ((c.tc : Thread nD τ).loc main_arg5)) := (seg0b_keep_arg5 Wa).trans a_5
  have b_6 : after seg0b Wa (Proc.devRef .tc main_arg6) = (m ((c.tc : Thread nD τ).loc main_arg6)) := (seg0b_keep_arg6 Wa).trans a_6
  have b_7 : after seg0b Wa (Proc.devRef .tc main_arg7) = (m ((c.tc : Thread nD τ).loc main_arg7)) := (seg0b_keep_arg7 Wa).trans a_7
  generalize after seg0b Wa = Wb at *
  -- after the first round
  have c_h : after seg1 Wb (Proc.devRef .tc main_v47) = val_main_v47 (F := F) (m ((c.tc : Thread nD τ).loc main_arg0)) (m ((c.tc : Thread nD τ).loc main_arg1)) (m ((c.tc : Thread nD τ).loc main_arg2)) (m ((c.tc : Thread nD τ).loc main_arg5)) :=
    seg1_out Wb _ _ _ (m ((c.tc : Thread nD τ).loc main_arg3)) (m ((c.tc : Thread nD τ).loc main_arg4)) _ (m ((c.tc : Thread nD τ).loc main_arg6)) (m ((c.tc : Thread nD τ).loc main_arg7)) b_0 b_2 b_5 b_s b_d b_n
  have c_s : after seg1 Wb (Proc.devRef .tc main_v3) = val_main_v3 (F := F) (m ((c.tc : Thread nD τ).loc main_arg1)) := (seg1_keep_v3 Wb).trans b_s
  have c_d : after seg1 Wb (Proc.devRef .tc main_v6) = val_main_v6 (F := F) (m ((c.tc : Thread nD τ).loc main_arg1)) := (seg1_keep_v6 Wb).trans b_d
  have c_n : after seg1 Wb (Proc.devRef .tc main_v29) = val_main_v29 (F := F) (m ((c.tc : Thread nD τ).loc main_arg1)) := (seg1_keep_v29 Wb).trans b_n
  have c_3 : after seg1 Wb (Proc.devRef .tc main_arg3) = (m ((c.tc : Thread nD τ).loc main_arg3)) := (seg1_keep_arg3 Wb).trans b_3
  have c_4 : after seg1 Wb (Proc.devRef .tc main_arg4) = (m ((c.tc : Thread nD τ).loc main_arg4)) := (seg1_keep_arg4 Wb).trans b_4
  have c_6 : after seg1 Wb (Proc.devRef .tc main_arg6) = (m ((c.tc : Thread nD τ).loc main_arg6)) := (seg1_keep_arg6 Wb).trans b_6
  have c_7 : after seg1 Wb (Proc.devRef .tc main_arg7) = (m ((c.tc : Thread nD τ).loc main_arg7)) := (seg1_keep_arg7 Wb).trans b_7
  generalize after seg1 Wb = Wc at *
  -- after the second round
  have d_h : after seg2 Wc (Proc.devRef .tc main_v65) = val_main_v65 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) (m ((c.tc : Thread nD τ).loc main_arg6)) :=
    seg2_out Wc _ _ _ _ (m ((c.tc : Thread nD τ).loc main_arg4)) _ _ (m ((c.tc : Thread nD τ).loc main_arg7)) c_h c_3 c_6 c_s c_d c_n
  have d_s : after seg2 Wc (Proc.devRef .tc main_v3) = val_main_v3 (F := F) (m ((c.tc : Thread nD τ).loc main_arg1)) := (seg2_keep_v3 Wc).trans c_s
  have d_d : after seg2 Wc (Proc.devRef .tc main_v6) = val_main_v6 (F := F) (m ((c.tc : Thread nD τ).loc main_arg1)) := (seg2_keep_v6 Wc).trans c_d
  have d_n : after seg2 Wc (Proc.devRef .tc main_v29) = val_main_v29 (F := F) (m ((c.tc : Thread nD τ).loc main_arg1)) := (seg2_keep_v29 Wc).trans c_n
  have d_4 : after seg2 Wc (Proc.devRef .tc main_arg4) = (m ((c.tc : Thread nD τ).loc main_arg4)) := (seg2_keep_arg4 Wc).trans c_4
  have d_7 : after seg2 Wc (Proc.devRef .tc main_arg7) = (m ((c.tc : Thread nD τ).loc main_arg7)) := (seg2_keep_arg7 Wc).trans c_7
  generalize after seg2 Wc = Wd at *
  -- after the third round, and the log-softmax
  have e_h : after seg3 Wd (Proc.devRef .tc main_v83) = val_main_v83 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) :=
    seg3_out Wd _ _ _ _ _ _ _ _ d_h d_4 d_7 d_s d_d d_n
  rw [val_main_v84_eq]
  exact seg4b_out _ _ _ ((seg4a_keep_v83 _).trans e_h) (seg4a_out _ _ e_h)

set_option maxHeartbeats 8000000 in
/-- The run: every weakly fair execution of the reference terminates with the result at the last stage function of the
    arguments and the arguments unchanged. -/
theorem run (ρ : Dev nD → PrngReg) :
    θ_run defs (onTc (τ := τ) (main (F := F))) ⟨m, fun _ => 0, ρ⟩ fun r => ∀ c : Dev nD,
      r.2.mem ((c.tc : Thread nD τ).loc main_v84) = val_main_v84 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c main_v84).trans (out_eq m c),
      (h c main_arg0).trans (by show after ops (launchContents m c) (Proc.devRef .tc main_arg0) = launchContents m c (Proc.devRef .tc main_arg0); host_kept ops),
      (h c main_arg1).trans (by show after ops (launchContents m c) (Proc.devRef .tc main_arg1) = launchContents m c (Proc.devRef .tc main_arg1); host_kept ops),
      (h c main_arg2).trans (by show after ops (launchContents m c) (Proc.devRef .tc main_arg2) = launchContents m c (Proc.devRef .tc main_arg2); host_kept ops),
      (h c main_arg3).trans (by show after ops (launchContents m c) (Proc.devRef .tc main_arg3) = launchContents m c (Proc.devRef .tc main_arg3); host_kept ops),
      (h c main_arg4).trans (by show after ops (launchContents m c) (Proc.devRef .tc main_arg4) = launchContents m c (Proc.devRef .tc main_arg4); host_kept ops),
      (h c main_arg5).trans (by show after ops (launchContents m c) (Proc.devRef .tc main_arg5) = launchContents m c (Proc.devRef .tc main_arg5); host_kept ops),
      (h c main_arg6).trans (by show after ops (launchContents m c) (Proc.devRef .tc main_arg6) = launchContents m c (Proc.devRef .tc main_arg6); host_kept ops),
      (h c main_arg7).trans (by show after ops (launchContents m c) (Proc.devRef .tc main_arg7) = launchContents m c (Proc.devRef .tc main_arg7); host_kept ops)⟩)
    (run_seq scopedRefs_eq scopedSems_eq defs main (fun _ => ops) main_eq (fun _ => ops_sub) m ρ)

end Cert.ReferenceIdeal.RunValue

end
-- ==== Proof.lean ====
/-
  A three-layer graph convolution network on 100000 nodes with 128 features: each layer multiplies the node features by
  a weight matrix, aggregates over the edges (self loops added, symmetric normalisation), adds a bias and rectifies; the
  rows of the last layer go through a log-softmax.  The kernel program computes the three dense products and the three
  bias-and-rectifier epilogues (the last with the log-softmax) in six device regions and leaves the aggregation to the
  same host operations the reference uses; the reference is host operations throughout.

  At the ideal values — floats extended reals, operations exact, a change of float format the identity — the two
  programs are one function of the arguments, stage by stage: a region's dense product, accumulated from zero, is the
  host's product, entry (p, q) the sum over k of x (p, k) · w (k, q); the aggregation rounds are the same operations on
  equal operands; the epilogue regions' entries are the host's `max (x + b) 0`; and the last region's row maximum
  folded from −∞, shifted exponentials, their sum and its logarithm are the host's, where the host's extra `max` of the
  row maximum with −∞ changes nothing.  No law that needs finiteness is used, so the precondition is never opened.

  `preserves`: the ideal pass rewrote no operation, so the conjunct is `True`.  The frames of the two kernel programs
  are the generated ones; the reference's frame is its run with the result dropped.
-/
import proofs.«121035_j62242666053924_1_alg».proof.Defs
import proofs.«121035_j62242666053924_1_alg».proof.Proof.Gen.Kernel
import proofs.«121035_j62242666053924_1_alg».proof.Proof.Gen.Kernel.Frame
import proofs.«121035_j62242666053924_1_alg».proof.Proof.Gen.KernelIdeal
import proofs.«121035_j62242666053924_1_alg».proof.Proof.Gen.KernelIdeal.Frame
import proofs.«121035_j62242666053924_1_alg».proof.Proof.Gen.ReferenceIdeal
import proofs.«121035_j62242666053924_1_alg».proof.Proof.Gen.Pre_finite_inputs
import proofs.«121035_j62242666053924_1_alg».proof.Proof.KernelRun
import proofs.«121035_j62242666053924_1_alg».proof.Proof.KernelValue
import proofs.«121035_j62242666053924_1_alg».proof.Proof.RefValue
import Idealize.ShloMosaic.Adequacy
import Idealize.ShloMosaic.Init

set_option maxRecDepth 16384

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run, the result dropped. -/
theorem frame_referenceIdeal : Cert.frame_ReferenceIdeal := fun m ρ _ =>
  (θ_run Cert.ReferenceIdeal.defs _ _).mono (fun _ h c => (h c).2) (Cert.ReferenceIdeal.RunValue.run (F := Ideal) m ρ)

/-- Both idealized programs end with the result array at the reference's last stage function of the (agreeing)
    arguments. -/
theorem algebraic : Cert.algebraic_KernelIdeal_ReferenceIdeal := by
  intro m ρ m' ρ' _ hagree
  refine ⟨fun c => Cert.ReferenceIdeal.ReadP.val_main_v84 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)), ?_, ?_⟩
  · exact (θ_run Cert.KernelIdeal.defs _ _).mono
      (fun _ h c => ⟨(h c).1.trans (Cert.KernelIdeal.Chain.out_v84 m ρ c), (h c).2⟩)
      (Cert.KernelIdeal.Run.run_main (F := Ideal) m ρ)
  · refine (θ_run Cert.ReferenceIdeal.defs _ _).mono (fun _ h c => ⟨(h c).1.trans ?_, (h c).2⟩)
      (Cert.ReferenceIdeal.RunValue.run (F := Ideal) m' ρ')
    rw [(hagree c).1, (hagree c).2.1, (hagree c).2.2.1, (hagree c).2.2.2.1, (hagree c).2.2.2.2.1,
      (hagree c).2.2.2.2.2.1, (hagree c).2.2.2.2.2.2.1, (hagree c).2.2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
